-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part5 {F : FTy → Type} [FloatOps F] (main_arg19 : FVec F S16 .f32) (main_v83 : IVec S_ 1) (main_v84 : FVec F S64x16 .f32) (main_cst_32 : FVec F S_ .f32) : IVec S_ 1 :=
  let main_v85 : FVec F S64x16 .f32 := broadcastInDim S64x16 ![] bcast_S_S64x16 main_cst_32
  let main_v86 : IVec S64x16 1 := cmpf .olt main_v84 main_v85
  let main_c_33 : IVec S_ 1 := constantI S_ 1 1#1
  let main_v87 : IVec S_ 1 := (fun x v => Host.reduce IntOp.andi x v reducesTo_S64x16_S_d0_1 h_S_) main_v86 main_c_33
  let main_v88 : IVec S_ 1 := andi main_v83 main_v87
  let main_v89 : FVec F S16 .f32 := Host.absf main_arg19
  let main_cst_34 : FVec F S_ .f32 := constant S_ .f32 0x7F800000#32
  let main_v90 : FVec F S16 .f32 := broadcastInDim S16 ![] bcast_S_S16 main_cst_34
  let main_v91 : IVec S16 1 := cmpf .olt main_v89 main_v90
  let main_c_35 : IVec S_ 1 := constantI S_ 1 1#1
  let main_v92 : IVec S_ 1 := (fun x v => Host.reduce IntOp.andi x v reducesTo_S16_S_d0 h_S_) main_v91 main_c_35
  let main_v93 : IVec S_ 1 := andi main_v88 main_v92
  main_v93

def fn_part4 {F : FTy → Type} [FloatOps F] (main_arg15 : FVec F S64 .f32) (main_arg16 : FVec F S64x64 .f32) (main_arg17 : FVec F S64 .f32) (main_arg18 : FVec F S64x16 .f32) (main_arg19 : FVec F S16 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg16
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x16 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S64 .f32) (main_arg13 : FVec F S64 .f32) (main_arg14 : FVec F S64x64 .f32) (main_arg15 : FVec F S64 .f32) (main_arg16 : FVec F S64x64 .f32) (main_arg17 : FVec F S64 .f32) (main_arg18 : FVec F S64x16 .f32) (main_arg19 : FVec F S16 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg14
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg15 main_arg16 main_arg17 main_arg18 main_arg19 main_v63 main_v67

def fn_part2 {F : FTy → Type} [FloatOps F] (main_arg8 : FVec F S64 .f32) (main_arg9 : FVec F S64 .f32) (main_arg10 : FVec F S64 .f32) (main_arg11 : FVec F S64 .f32) (main_arg12 : FVec F S64 .f32) (main_arg13 : FVec F S64 .f32) (main_arg14 : FVec F S64x64 .f32) (main_arg15 : FVec F S64 .f32) (main_arg16 : FVec F S64x64 .f32) (main_arg17 : FVec F S64 .f32) (main_arg18 : FVec F S64x16 .f32) (main_arg19 : FVec F S16 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_arg16 main_arg17 main_arg18 main_arg19 main_v48 main_v49 main_v50

def fn_part1 {F : FTy → Type} [FloatOps F] (main_arg5 : FVec F S64 .f32) (main_arg6 : FVec F S64 .f32) (main_arg7 : FVec F S64 .f32) (main_arg8 : FVec F S64 .f32) (main_arg9 : FVec F S64 .f32) (main_arg10 : FVec F S64 .f32) (main_arg11 : FVec F S64 .f32) (main_arg12 : FVec F S64 .f32) (main_arg13 : FVec F S64 .f32) (main_arg14 : FVec F S64x64 .f32) (main_arg15 : FVec F S64 .f32) (main_arg16 : FVec F S64x64 .f32) (main_arg17 : FVec F S64 .f32) (main_arg18 : FVec F S64x16 .f32) (main_arg19 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S100000x64 .f32) (main_arg1 : IVec S2x1000000 32) (main_arg2 : FVec F S64x64 .f32) (main_arg3 : FVec F S64 .f32) (main_arg4 : FVec F S64x64 .f32) (main_arg5 : FVec F S64 .f32) (main_arg6 : FVec F S64 .f32) (main_arg7 : FVec F S64 .f32) (main_arg8 : FVec F S64 .f32) (main_arg9 : FVec F S64 .f32) (main_arg10 : FVec F S64 .f32) (main_arg11 : FVec F S64 .f32) (main_arg12 : FVec F S64 .f32) (main_arg13 : FVec F S64 .f32) (main_arg14 : FVec F S64x64 .f32) (main_arg15 : FVec F S64 .f32) (main_arg16 : FVec F S64x64 .f32) (main_arg17 : FVec F S64 .f32) (main_arg18 : FVec F S64x16 .f32) (main_arg19 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x1000000 : Shape := ⟨2, ![1, 1000000]⟩
abbrev S1000000 : Shape := ⟨1, ![1000000]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S100000x1 : Shape := ⟨2, ![100000, 1]⟩
abbrev S5000x64 : Shape := ⟨2, ![5000, 64]⟩
abbrev S5000x1 : Shape := ⟨2, ![5000, 1]⟩
abbrev S1100000x64 : Shape := ⟨2, ![1100000, 64]⟩
abbrev S1x64 : Shape := ⟨2, ![1, 64]⟩
abbrev S100000x16 : Shape := ⟨2, ![100000, 16]⟩
abbrev S5000x16 : Shape := ⟨2, ![5000, 16]⟩
abbrev S1x16 : Shape := ⟨2, ![1, 16]⟩

abbrev nBuf : Space → Nat
  | .hbm => 70
  | .vmem => 36
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x64, .f32⟩
  | .hbm, ⟨17, _⟩ => ⟨S64, .f32⟩
  | .hbm, ⟨18, _⟩ => ⟨S64x16, .f32⟩
  | .hbm, ⟨19, _⟩ => ⟨S16, .f32⟩
  | .hbm, ⟨20, _⟩ => ⟨S1x1000000, .i32⟩
  | .hbm, ⟨21, _⟩ => ⟨S1000000, .i32⟩
  | .hbm, ⟨22, _⟩ => ⟨S1x1000000, .i32⟩
  | .hbm, ⟨23, _⟩ => ⟨S1000000, .i32⟩
  | .hbm, ⟨24, _⟩ => ⟨S100000, .i32⟩
  | .hbm, ⟨25, _⟩ => ⟨S1100000, .i32⟩
  | .hbm, ⟨26, _⟩ => ⟨S1100000, .i32⟩
  | .hbm, ⟨27, _⟩ => ⟨S_, .f32⟩
  | .hbm, ⟨28, _⟩ => ⟨S1100000, .f32⟩
  | .hbm, ⟨29, _⟩ => ⟨S_, .f32⟩
  | .hbm, ⟨30, _⟩ => ⟨S100000, .f32⟩
  | .hbm, ⟨31, _⟩ => ⟨S1100000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .i1⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S100000x64, .f32⟩
  | .hbm, ⟨42, _⟩ => ⟨S_, .i32⟩
  | .hbm, ⟨43, _⟩ => ⟨S1100000, .i32⟩
  | .hbm, ⟨44, _⟩ => ⟨S1100000, .i1⟩
  | .hbm, ⟨45, _⟩ => ⟨S_, .i32⟩
  | .hbm, ⟨46, _⟩ => ⟨S1100000, .i32⟩
  | .hbm, ⟨47, _⟩ => ⟨S1100000, .i32⟩
  | .hbm, ⟨48, _⟩ => ⟨S1100000, .i32⟩
  | .hbm, ⟨49, _⟩ => ⟨S1100000x1, .i32⟩
  | .hbm, ⟨50, _⟩ => ⟨S1100000x64, .f32⟩
  | .hbm, ⟨51, _⟩ => ⟨S_, .f32⟩
  | .hbm, ⟨52, _⟩ => ⟨S100000x64, .f32⟩
  | .hbm, ⟨53, _⟩ => ⟨S1100000x1, .i32⟩
  | .hbm, ⟨54, _⟩ => ⟨S100000x64, .f32⟩
  | .hbm, ⟨55, _⟩ => ⟨S100000x64, .f32⟩
  | .hbm, ⟨56, _⟩ => ⟨S_, .i32⟩
  | .hbm, ⟨57, _⟩ => ⟨S1100000, .i32⟩
  | .hbm, ⟨58, _⟩ => ⟨S1100000, .i1⟩
  | .hbm, ⟨59, _⟩ => ⟨S_, .i32⟩
  | .hbm, ⟨60, _⟩ => ⟨S1100000, .i32⟩
  | .hbm, ⟨61, _⟩ => ⟨S1100000, .i32⟩
  | .hbm, ⟨62, _⟩ => ⟨S1100000, .i32⟩
  | .hbm, ⟨63, _⟩ => ⟨S1100000x1, .i32⟩
  | .hbm, ⟨64, _⟩ => ⟨S1100000x64, .f32⟩
  | .hbm, ⟨65, _⟩ => ⟨S_, .f32⟩
  | .hbm, ⟨66, _⟩ => ⟨S100000x64, .f32⟩
  | .hbm, ⟨67, _⟩ => ⟨S1100000x1, .i32⟩
  | .hbm, ⟨68, _⟩ => ⟨S100000x64, .f32⟩
  | .hbm, ⟨69, _⟩ => ⟨S100000x16, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S64, .f32⟩
  | .local _ .vmem, ⟨12, _⟩ => ⟨S64, .f32⟩
  | .local _ .vmem, ⟨13, _⟩ => ⟨S64, .f32⟩
  | .local _ .vmem, ⟨14, _⟩ => ⟨S64, .f32⟩
  | .local _ .vmem, ⟨15, _⟩ => ⟨S64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x1, .f32⟩
  | .local _ .vmem, ⟨22, _⟩ => ⟨S5000x1, .f32⟩
  | .local _ .vmem, ⟨23, _⟩ => ⟨S64, .f32⟩
  | .local _ .vmem, ⟨24, _⟩ => ⟨S64, .f32⟩
  | .local _ .vmem, ⟨25, _⟩ => ⟨S64, .f32⟩
  | .local _ .vmem, ⟨26, _⟩ => ⟨S64, .f32⟩
  | .local _ .vmem, ⟨27, _⟩ => ⟨S64, .f32⟩
  | .local _ .vmem, ⟨28, _⟩ => ⟨S64x64, .f32⟩
  | .local _ .vmem, ⟨29, _⟩ => ⟨S64, .f32⟩
  | .local _ .vmem, ⟨30, _⟩ => ⟨S64x64, .f32⟩
  | .local _ .vmem, ⟨31, _⟩ => ⟨S64, .f32⟩
  | .local _ .vmem, ⟨32, _⟩ => ⟨S64x16, .f32⟩
  | .local _ .vmem, ⟨33, _⟩ => ⟨S16, .f32⟩
  | .local _ .vmem, ⟨34, _⟩ => ⟨S5000x16, .f32⟩
  | .local _ .vmem, ⟨35, _⟩ => ⟨S5000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_2 : Ref sig .tc := ⟨.hbm, 37, rfl⟩
abbrev main_call0_v0 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_c : Ref sig .tc := ⟨.hbm, 42, rfl⟩
abbrev main_v17 : Ref sig .tc := ⟨.hbm, 43, rfl⟩
abbrev main_v18 : Ref sig .tc := ⟨.hbm, 44, rfl⟩
abbrev main_c_3 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_4 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_5 : Ref sig .tc := ⟨.hbm, 56, rfl⟩
abbrev main_v28 : Ref sig .tc := ⟨.hbm, 57, rfl⟩
abbrev main_v29 : Ref sig .tc := ⟨.hbm, 58, rfl⟩
abbrev main_c_6 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_7 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg9_0 : Ref sig .tc := ⟨.vmem, 30, rfl⟩
abbrev cc2_stg10_0 : Ref sig .tc := ⟨.vmem, 31, rfl⟩
abbrev cc2_stg11_0 : Ref sig .tc := ⟨.vmem, 32, rfl⟩
abbrev cc2_stg12_0 : Ref sig .tc := ⟨.vmem, 33, rfl⟩
abbrev cc2_stg13_0 : Ref sig .tc := ⟨.vmem, 34, rfl⟩
abbrev cc2_stg13_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem9_0 : DmaSem sig := 30
abbrev cc2_sem10_0 : DmaSem sig := 31
abbrev cc2_sem11_0 : DmaSem sig := 32
abbrev cc2_sem12_0 : DmaSem sig := 33
abbrev cc2_sem13_0 : DmaSem sig := 34
abbrev cc2_sem13_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S64x16 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S16 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S5000x16 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S100000x64 : S_.BroadcastsInDim S100000x64 (![] : Fin 0 → Fin S100000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x16_S64x16_0_0 : ∀ a, (![0, 0] : Fin 2 → Nat) a + S64x16.size a ≤ S64x16.size a
  h_S64x16 : 0 < S64x16.numel
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  scatter_S100000_S1100000x1_S1100000_n_0_0_1_wf : ScatterDims.WF S100000 S1100000x1 S1100000 [] [0] [0] 1
  dot_S5000x64_S64x64_S5000x64_1_0_0_1_n_n_wf : DotDims.WF S5000x64 S64x64 S5000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S5000x64_S64x16_S5000x16_1_0_0_1_n_n_wf : DotDims.WF S5000x64 S64x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S100000x64.size a
  hwx1_8 : ∀ i : grid1.Coords, EltTy.bits .f32 = 32 ∨ (Rect.block (s := S100000x64) S5000x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64.size a ≤ S64.size a
  hwx2_6 : ∀ i : grid2.Coords, EltTy.bits .f32 = 32 ∨ (Rect.block (s := S64) S64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x64.size a ≤ S64x64.size a
  hwx2_7 : ∀ i : grid2.Coords, EltTy.bits .f32 = 32 ∨ (Rect.block (s := S64x64) S64x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64.size a ≤ S64.size a
  hwx2_8 : ∀ i : grid2.Coords, EltTy.bits .f32 = 32 ∨ (Rect.block (s := S64) S64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64x64.size a ≤ S64x64.size a
  hwx2_9 : ∀ i : grid2.Coords, EltTy.bits .f32 = 32 ∨ (Rect.block (s := S64x64) S64x64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S64.size a ≤ S64.size a
  hwx2_10 : ∀ i : grid2.Coords, EltTy.bits .f32 = 32 ∨ (Rect.block (s := S64) S64.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S64x16.size a ≤ S64x16.size a
  hwx2_11 : ∀ i : grid2.Coords, EltTy.bits .f32 = 32 ∨ (Rect.block (s := S64x16) S64x16.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S16.size a ≤ S16.size a
  hwx2_12 : ∀ i : grid2.Coords, EltTy.bits .f32 = 32 ∨ (Rect.block (s := S16) S16.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S5000x16.size a ≤ S100000x16.size a
  hwx2_13 : ∀ i : grid2.Coords, EltTy.bits .f32 = 32 ∨ (Rect.block (s := S100000x16) S5000x16.size (cc2_transform_13 i) (hinb2_13 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg4) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v27) S5000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v37) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg13) S64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg14) S64x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg15) S64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg16) S64x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg17) S64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg18) S64x16.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_arg19) S16.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v38) S5000x16.size cc2_transform_13 reads2_13 true false 2 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x1000000 : Shape := ⟨2, ![1, 1000000]⟩
abbrev S1000000 : Shape := ⟨1, ![1000000]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S1100000x64 : Shape := ⟨2, ![1100000, 64]⟩
abbrev S1x64 : Shape := ⟨2, ![1, 64]⟩
abbrev S100000x16 : Shape := ⟨2, ![100000, 16]⟩
abbrev S1x16 : Shape := ⟨2, ![1, 16]⟩

abbrev nBuf : Space → Nat
  | .hbm => 190
  | .vmem => 0
  | .smem => 0
  | _ => 0

abbrev hbmTy0_0 (i : Nat) : BufTy := match i % 128 with
  | 0 => ⟨S100000x64, .f32⟩
  | 1 => ⟨S2x1000000, .i32⟩
  | 2 => ⟨S64x64, .f32⟩
  | 3 => ⟨S64, .f32⟩
  | 4 => ⟨S64x64, .f32⟩
  | 5 => ⟨S64, .f32⟩
  | 6 => ⟨S64, .f32⟩
  | 7 => ⟨S64, .f32⟩
  | 8 => ⟨S64, .f32⟩
  | 9 => ⟨S64, .f32⟩
  | 10 => ⟨S64, .f32⟩
  | 11 => ⟨S64, .f32⟩
  | 12 => ⟨S64, .f32⟩
  | 13 => ⟨S64, .f32⟩
  | 14 => ⟨S64x64, .f32⟩
  | 15 => ⟨S64, .f32⟩
  | 16 => ⟨S64x64, .f32⟩
  | 17 => ⟨S64, .f32⟩
  | 18 => ⟨S64x16, .f32⟩
  | 19 => ⟨S16, .f32⟩
  | 20 => ⟨S1x1000000, .i32⟩
  | 21 => ⟨S1000000, .i32⟩
  | 22 => ⟨S1x1000000, .i32⟩
  | 23 => ⟨S1000000, .i32⟩
  | 24 => ⟨S100000, .i32⟩
  | 25 => ⟨S1100000, .i32⟩
  | 26 => ⟨S1100000, .i32⟩
  | 27 => ⟨S100000x64, .f32⟩
  | 28 => ⟨S_, .f32⟩
  | 29 => ⟨S1100000, .f32⟩
  | 30 => ⟨S_, .f32⟩
  | 31 => ⟨S100000, .f32⟩
  | 32 => ⟨S1100000x1, .i32⟩
  | 33 => ⟨S100000, .f32⟩
  | 34 => ⟨S_, .f32⟩
  | 35 => ⟨S100000, .f32⟩
  | 36 => ⟨S100000, .i1⟩
  | 37 => ⟨S100000, .f32⟩
  | 38 => ⟨S_, .f32⟩
  | 39 => ⟨S100000, .f32⟩
  | 40 => ⟨S100000, .f32⟩
  | 41 => ⟨S_, .i32⟩
  | 42 => ⟨S1100000, .i32⟩
  | 43 => ⟨S1100000, .i1⟩
  | 44 => ⟨S_, .i32⟩
  | 45 => ⟨S1100000, .i32⟩
  | 46 => ⟨S1100000, .i32⟩
  | 47 => ⟨S1100000, .i32⟩
  | 48 => ⟨S1100000x1, .i32⟩
  | 49 => ⟨S1100000, .f32⟩
  | 50 => ⟨S_, .i32⟩
  | 51 => ⟨S1100000, .i32⟩
  | 52 => ⟨S1100000, .i1⟩
  | 53 => ⟨S_, .i32⟩
  | 54 => ⟨S1100000, .i32⟩
  | 55 => ⟨S1100000, .i32⟩
  | 56 => ⟨S1100000, .i32⟩
  | 57 => ⟨S1100000x1, .i32⟩
  | 58 => ⟨S1100000, .f32⟩
  | 59 => ⟨S1100000, .f32⟩
  | 60 => ⟨S1100000x1, .f32⟩
  | 61 => ⟨S_, .i32⟩
  | 62 => ⟨S1100000, .i32⟩
  | 63 => ⟨S1100000, .i1⟩
  | 64 => ⟨S_, .i32⟩
  | 65 => ⟨S1100000, .i32⟩
  | 66 => ⟨S1100000, .i32⟩
  | 67 => ⟨S1100000, .i32⟩
  | 68 => ⟨S1100000x1, .i32⟩
  | 69 => ⟨S1100000x64, .f32⟩
  | 70 => ⟨S1100000x64, .f32⟩
  | 71 => ⟨S1100000x64, .f32⟩
  | 72 => ⟨S_, .f32⟩
  | 73 => ⟨S100000x64, .f32⟩
  | 74 => ⟨S1100000x1, .i32⟩
  | 75 => ⟨S100000x64, .f32⟩
  | 76 => ⟨S1x64, .f32⟩
  | 77 => ⟨S100000x64, .f32⟩
  | 78 => ⟨S100000x64, .f32⟩
  | 79 => ⟨S1x64, .f32⟩
  | 80 => ⟨S100000x64, .f32⟩
  | 81 => ⟨S100000x64, .f32⟩
  | 82 => ⟨S_, .f32⟩
  | 83 => ⟨S64, .f32⟩
  | 84 => ⟨S64, .f32⟩
  | 85 => ⟨S64, .f32⟩
  | 86 => ⟨S1x64, .f32⟩
  | 87 => ⟨S100000x64, .f32⟩
  | 88 => ⟨S100000x64, .f32⟩
  | 89 => ⟨S1x64, .f32⟩
  | 90 => ⟨S100000x64, .f32⟩
  | 91 => ⟨S100000x64, .f32⟩
  | 92 => ⟨S1x64, .f32⟩
  | 93 => ⟨S100000x64, .f32⟩
  | 94 => ⟨S100000x64, .f32⟩
  | 95 => ⟨S_, .f32⟩
  | 96 => ⟨S100000x64, .f32⟩
  | 97 => ⟨S100000x64, .f32⟩
  | 98 => ⟨S100000, .i32⟩
  | 99 => ⟨S1100000, .i32⟩
  | 100 => ⟨S1100000, .i32⟩
  | 101 => ⟨S100000x64, .f32⟩
  | 102 => ⟨S_, .f32⟩
  | 103 => ⟨S1100000, .f32⟩
  | 104 => ⟨S_, .f32⟩
  | 105 => ⟨S100000, .f32⟩
  | 106 => ⟨S1100000x1, .i32⟩
  | 107 => ⟨S100000, .f32⟩
  | 108 => ⟨S_, .f32⟩
  | 109 => ⟨S100000, .f32⟩
  | 110 => ⟨S100000, .i1⟩
  | 111 => ⟨S100000, .f32⟩
  | 112 => ⟨S_, .f32⟩
  | 113 => ⟨S100000, .f32⟩
  | 114 => ⟨S100000, .f32⟩
  | 115 => ⟨S_, .i32⟩
  | 116 => ⟨S1100000, .i32⟩
  | 117 => ⟨S1100000, .i1⟩
  | 118 => ⟨S_, .i32⟩
  | 119 => ⟨S1100000, .i32⟩
  | 120 => ⟨S1100000, .i32⟩
  | 121 => ⟨S1100000, .i32⟩
  | 122 => ⟨S1100000x1, .i32⟩
  | 123 => ⟨S1100000, .f32⟩
  | 124 => ⟨S_, .i32⟩
  | 125 => ⟨S1100000, .i32⟩
  | 126 => ⟨S1100000, .i1⟩
  | 127 => ⟨S_, .i32⟩
  | _ => ⟨S100000x64, .f32⟩

abbrev hbmTy0_1 (i : Nat) : BufTy := match i % 128 with
  | 0 => ⟨S1100000, .i32⟩
  | 1 => ⟨S1100000, .i32⟩
  | 2 => ⟨S1100000, .i32⟩
  | 3 => ⟨S1100000x1, .i32⟩
  | 4 => ⟨S1100000, .f32⟩
  | 5 => ⟨S1100000, .f32⟩
  | 6 => ⟨S1100000x1, .f32⟩
  | 7 => ⟨S_, .i32⟩
  | 8 => ⟨S1100000, .i32⟩
  | 9 => ⟨S1100000, .i1⟩
  | 10 => ⟨S_, .i32⟩
  | 11 => ⟨S1100000, .i32⟩
  | 12 => ⟨S1100000, .i32⟩
  | 13 => ⟨S1100000, .i32⟩
  | 14 => ⟨S1100000x1, .i32⟩
  | 15 => ⟨S1100000x64, .f32⟩
  | 16 => ⟨S1100000x64, .f32⟩
  | 17 => ⟨S1100000x64, .f32⟩
  | 18 => ⟨S_, .f32⟩
  | 19 => ⟨S100000x64, .f32⟩
  | 20 => ⟨S1100000x1, .i32⟩
  | 21 => ⟨S100000x64, .f32⟩
  | 22 => ⟨S1x64, .f32⟩
  | 23 => ⟨S100000x64, .f32⟩
  | 24 => ⟨S100000x64, .f32⟩
  | 25 => ⟨S1x64, .f32⟩
  | 26 => ⟨S100000x64, .f32⟩
  | 27 => ⟨S100000x64, .f32⟩
  | 28 => ⟨S_, .f32⟩
  | 29 => ⟨S64, .f32⟩
  | 30 => ⟨S64, .f32⟩
  | 31 => ⟨S64, .f32⟩
  | 32 => ⟨S1x64, .f32⟩
  | 33 => ⟨S100000x64, .f32⟩
  | 34 => ⟨S100000x64, .f32⟩
  | 35 => ⟨S1x64, .f32⟩
  | 36 => ⟨S100000x64, .f32⟩
  | 37 => ⟨S100000x64, .f32⟩
  | 38 => ⟨S1x64, .f32⟩
  | 39 => ⟨S100000x64, .f32⟩
  | 40 => ⟨S100000x64, .f32⟩
  | 41 => ⟨S_, .f32⟩
  | 42 => ⟨S100000x64, .f32⟩
  | 43 => ⟨S100000x64, .f32⟩
  | 44 => ⟨S100000x64, .f32⟩
  | 45 => ⟨S1x64, .f32⟩
  | 46 => ⟨S100000x64, .f32⟩
  | 47 => ⟨S100000x64, .f32⟩
  | 48 => ⟨S_, .f32⟩
  | 49 => ⟨S100000x64, .f32⟩
  | 50 => ⟨S100000x64, .f32⟩
  | 51 => ⟨S100000x64, .f32⟩
  | 52 => ⟨S1x64, .f32⟩
  | 53 => ⟨S100000x64, .f32⟩
  | 54 => ⟨S100000x64, .f32⟩
  | 55 => ⟨S_, .f32⟩
  | 56 => ⟨S100000x64, .f32⟩
  | 57 => ⟨S100000x64, .f32⟩
  | 58 => ⟨S100000x16, .f32⟩
  | 59 => ⟨S1x16, .f32⟩
  | 60 => ⟨S100000x16, .f32⟩
  | 61 => ⟨S100000x16, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_cst_0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_1 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_2 : Ref sig .tc := ⟨.hbm, 38, rfl⟩
abbrev main_call0_v0 : Ref sig .tc := ⟨.hbm, 39, rfl⟩
abbrev main_v15 : Ref sig .tc := ⟨.hbm, 40, rfl⟩
abbrev main_c : Ref sig .tc := ⟨.hbm, 41, rfl⟩
abbrev main_v16 : Ref sig .tc := ⟨.hbm, 42, rfl⟩
abbrev main_v17 : Ref sig .tc := ⟨.hbm, 43, rfl⟩
abbrev main_c_3 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_c_4 : Ref sig .tc := ⟨.hbm, 50, rfl⟩
abbrev main_v23 : Ref sig .tc := ⟨.hbm, 51, rfl⟩
abbrev main_v24 : Ref sig .tc := ⟨.hbm, 52, rfl⟩
abbrev main_c_5 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_c_6 : Ref sig .tc := ⟨.hbm, 61, rfl⟩
abbrev main_v32 : Ref sig .tc := ⟨.hbm, 62, rfl⟩
abbrev main_v33 : Ref sig .tc := ⟨.hbm, 63, rfl⟩
abbrev main_c_7 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_8 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_9 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_call1_cst : Ref sig .tc := ⟨.hbm, 95, rfl⟩
abbrev main_call1_v0 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_10 : Ref sig .tc := ⟨.hbm, 102, rfl⟩
abbrev main_v67 : Ref sig .tc := ⟨.hbm, 103, rfl⟩
abbrev main_cst_11 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_12 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_13 : Ref sig .tc := ⟨.hbm, 112, rfl⟩
abbrev main_call2_v0 : Ref sig .tc := ⟨.hbm, 113, rfl⟩
abbrev main_v74 : Ref sig .tc := ⟨.hbm, 114, rfl⟩
abbrev main_c_14 : Ref sig .tc := ⟨.hbm, 115, rfl⟩
abbrev main_v75 : Ref sig .tc := ⟨.hbm, 116, rfl⟩
abbrev main_v76 : Ref sig .tc := ⟨.hbm, 117, rfl⟩
abbrev main_c_15 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_c_16 : Ref sig .tc := ⟨.hbm, 124, rfl⟩
abbrev main_v82 : Ref sig .tc := ⟨.hbm, 125, rfl⟩
abbrev main_v83 : Ref sig .tc := ⟨.hbm, 126, rfl⟩
abbrev main_c_17 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_c_18 : Ref sig .tc := ⟨.hbm, 135, rfl⟩
abbrev main_v91 : Ref sig .tc := ⟨.hbm, 136, rfl⟩
abbrev main_v92 : Ref sig .tc := ⟨.hbm, 137, rfl⟩
abbrev main_c_19 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst_20 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_cst_21 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_call3_cst : Ref sig .tc := ⟨.hbm, 169, rfl⟩
abbrev main_call3_v0 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_call4_cst : Ref sig .tc := ⟨.hbm, 176, rfl⟩
abbrev main_call4_v0 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_call5_cst : Ref sig .tc := ⟨.hbm, 183, rfl⟩
abbrev main_call5_v0 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x64_S64x64_S100000x64_1_0_0_1_n_n_wf : DotDims.WF S100000x64 S64x64 S100000x64 [1] [0] [0] [1] [] []
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S100000x64_S64x16_S100000x16_1_0_0_1_n_n_wf : DotDims.WF S100000x64 S64x16 S100000x16 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.Spec.lean ====
/-
  The mathematics of a two-layer graph convolution with inference batch-norm, relu and a three-layer head,
  on the extended reals, index by index.

  A graph on 100000 nodes is given by 1100000 edge words (the 1000000 listed edges followed by one self-loop per
  node): `rowW e` the source word and `colW e` the destination word of edge `e`. A source word is read as
  `x[idx]` reads it: a negative word is wrapped once by the extent, then the value is clamped into the extent
  (`sel`). A destination word names the bucket its update is added into, and an update whose word is not a node
  is dropped (`bucket`). With `dinv` a per-node factor, one convolution of a node table `P` is, at node `i`,

      the sum over the edges e into i of  dinv (source e) · dinv i · P (source e)

  and the two arrangements below differ only in where the factor `dinv i` sits: inside the sum, as
  `dinv (source e) · dinv (destination e)` per edge (`aggEdge`), or outside it, on a table already scaled by
  `dinv` at the source (`aggNode` of `scaleRows`, then `scaleRows` again).
-/
import Idealize.ShloMosaic.PureOps.Ideal
import Idealize.ShloMosaic.Lib.ValueIdx

noncomputable section

open scoped BigOperators

namespace Cert.Gcn

open Idealize.ShloMosaic Idealize.ShloMosaic.ValueIdx

/-! ## Shapes -/

abbrev SNx64 : Shape := ⟨2, ![100000, 64]⟩
abbrev SNx16 : Shape := ⟨2, ![100000, 16]⟩
abbrev SNx1 : Shape := ⟨2, ![100000, 1]⟩
abbrev SN : Shape := ⟨1, ![100000]⟩
abbrev SE : Shape := ⟨1, ![1100000]⟩
abbrev SEx1 : Shape := ⟨2, ![1100000, 1]⟩
abbrev S64v : Shape := ⟨1, ![64]⟩

/-! ## Scalars -/

/-- The float word of zero. -/
def zeroF : EReal := Ideal.ofBits .f32 0x00000000#32
/-- The float word of one. -/
def oneF : EReal := Ideal.ofBits .f32 0x3F800000#32
/-- The batch-norm epsilon, as the float word both programs carry. -/
def epsF : EReal := Ideal.ofBits .f32 0x3727C5AC#32

/-! ## Edge words -/

/-- A negative index word wrapped once by the node count. -/
def wrapW (w : BitVec 32) : BitVec 32 := Scalar.select (IntOp.cmpi .slt w 0#32) (IntOp.addi w 100000#32) w

/-- An index word read signed and clamped into the nodes. -/
def clampN (w : BitVec 32) : Fin 100000 := ⟨min w.toInt.toNat (100000 - 1), by omega⟩

/-- The node an edge word selects when a table is indexed by it. -/
def sel (w : BitVec 32) : Fin 100000 := clampN (wrapW w)

/-- The edges whose destination word is the node `i`. -/
def into (colW : IVec SE 32) (i : Fin 100000) : Finset (Fin 1100000) :=
  Finset.univ.filter (fun e : Fin 1100000 => (colW (ix1 e)).toInt = (i.val : Int))

/-! ## Degrees -/

/-- The degree of a node: one per edge into it, from zero. -/
def deg (colW : IVec SE 32) : FVec Ideal SN .f32 := fun j => zeroF + ∑ _e ∈ into colW (j 0), oneF

/-- The inverse square root of the degree where the degree is positive, zero elsewhere. -/
def dinvOf (colW : IVec SE 32) : FVec Ideal SN .f32 := fun j =>
  Scalar.select (Ideal.cmp .ogt (deg colW j) zeroF) (Ideal.rsqrt (deg colW j)) zeroF

/-! ## Dense pieces -/

/-- Row `p` of a 64-column table against column `q` of a weight matrix. -/
def mm {C : Nat} (h : FVec Ideal SNx64 .f32) (w : FVec Ideal ⟨2, ![64, C]⟩ .f32) (p : Fin 100000) (q : Fin C) : EReal :=
  ∑ k : Fin 64, h (ix2 p k) * w (ix2 k q)

/-- The product of a node table with a weight matrix. -/
def matW {C : Nat} (h : FVec Ideal SNx64 .f32) (w : FVec Ideal ⟨2, ![64, C]⟩ .f32) : FVec Ideal ⟨2, ![100000, C]⟩ .f32 :=
  fun j => mm h w (j 0) (j 1)

/-- A dense layer: the product plus a bias per column. -/
def dense {C : Nat} (h : FVec Ideal SNx64 .f32) (w : FVec Ideal ⟨2, ![64, C]⟩ .f32) (b : FVec Ideal ⟨1, ![C]⟩ .f32) :
    FVec Ideal ⟨2, ![100000, C]⟩ .f32 :=
  fun j => mm h w (j 0) (j 1) + b (ix1 (j 1))

/-- The positive part, entry by entry. -/
def relu {S : Shape} (h : FVec Ideal S .f32) : FVec Ideal S .f32 := fun j => max (h j) zeroF

/-- Every row of a table scaled by its node's factor. -/
def scaleRows (d : FVec Ideal SN .f32) (h : FVec Ideal SNx64 .f32) : FVec Ideal SNx64 .f32 :=
  fun j => h j * d (ix1 (j 0))

/-- Bias, inference batch-norm and relu of a pre-activation table, column by column. -/
def bnRelu (y : FVec Ideal SNx64 .f32) (b g be mu v : FVec Ideal S64v .f32) : FVec Ideal SNx64 .f32 :=
  fun j => max (((((y j + b (ix1 (j 1))) - mu (ix1 (j 1))) * Ideal.rsqrt (v (ix1 (j 1)) + epsF)) * g (ix1 (j 1))) + be (ix1 (j 1))) zeroF

/-! ## The two arrangements of one convolution -/

/-- Rows of `P` gathered at the source of every edge and added into the edge's destination, from zero. -/
def aggNode (rowW colW : IVec SE 32) (P : FVec Ideal SNx64 .f32) : FVec Ideal SNx64 .f32 :=
  fun j => zeroF + ∑ e ∈ into colW (j 0), P (ix2 (sel (rowW (ix1 e))) (j 1))

/-- The same sum with each edge's update first multiplied by the product of the factors at its two ends. -/
def aggEdge (rowW colW : IVec SE 32) (d : FVec Ideal SN .f32) (P : FVec Ideal SNx64 .f32) : FVec Ideal SNx64 .f32 :=
  fun j => zeroF + ∑ e ∈ into colW (j 0),
    (d (ix1 (sel (rowW (ix1 e)))) * d (ix1 (sel (colW (ix1 e))))) * P (ix2 (sel (rowW (ix1 e))) (j 1))

/-! ## The three dense stages as the tiled program computes them, each a whole-array function of its operands -/

/-- Stage 0: the projection of the features, every row scaled by the column `d` of per-node factors. -/
def stage0 (x : FVec Ideal SNx64 .f32) (w : FVec Ideal ⟨2, ![64, 64]⟩ .f32) (d : FVec Ideal SNx1 .f32) : FVec Ideal SNx64 .f32 :=
  fun j => mm x w (j 0) (j 1) * d (ix2 (j 0) (0 : Fin 1))

/-- The hidden table a stage forms from an aggregate: rows scaled by `d`, then bias, batch-norm and relu. -/
def hidden (agg : FVec Ideal SNx64 .f32) (d : FVec Ideal SNx1 .f32) (b g be mu v : FVec Ideal S64v .f32) : FVec Ideal SNx64 .f32 :=
  fun j => max ((((((agg j * d (ix2 (j 0) (0 : Fin 1))) + b (ix1 (j 1))) - mu (ix1 (j 1))) * Ideal.rsqrt (v (ix1 (j 1)) + epsF)) * g (ix1 (j 1))) + be (ix1 (j 1))) zeroF

/-- Stage 1: the hidden table of the first aggregate, projected and scaled by `d` again. -/
def stage1 (agg : FVec Ideal SNx64 .f32) (d : FVec Ideal SNx1 .f32) (b g be mu v : FVec Ideal S64v .f32)
    (w : FVec Ideal ⟨2, ![64, 64]⟩ .f32) : FVec Ideal SNx64 .f32 :=
  fun j => mm (hidden agg d b g be mu v) w (j 0) (j 1) * d (ix2 (j 0) (0 : Fin 1))

/-- Stage 2: the hidden table of the second aggregate through the three dense layers of the head. -/
def stage2 (agg : FVec Ideal SNx64 .f32) (d : FVec Ideal SNx1 .f32) (b g be mu v : FVec Ideal S64v .f32)
    (w1 : FVec Ideal ⟨2, ![64, 64]⟩ .f32) (b1 : FVec Ideal S64v .f32)
    (w2 : FVec Ideal ⟨2, ![64, 64]⟩ .f32) (b2 : FVec Ideal S64v .f32)
    (w3 : FVec Ideal ⟨2, ![64, 16]⟩ .f32) (b3 : FVec Ideal ⟨1, ![16]⟩ .f32) : FVec Ideal SNx16 .f32 :=
  dense (relu (dense (relu (dense (hidden agg d b g be mu v) w1 b1)) w2 b2)) w3 b3

/-- A per-node factor as the one-column table the stages read. -/
def asColumn (d : FVec Ideal SN .f32) : FVec Ideal SNx1 .f32 := fun j => d (ix1 (j 0))

/-! ## The whole network in the two arrangements -/

/-- One convolution layer in the per-edge arrangement: project, aggregate with the per-edge factors, then bias,
    batch-norm and relu. -/
def edgeLayer (rowW colW : IVec SE 32) (d : FVec Ideal SN .f32) (h : FVec Ideal SNx64 .f32)
    (w : FVec Ideal ⟨2, ![64, 64]⟩ .f32) (b g be mu v : FVec Ideal S64v .f32) : FVec Ideal SNx64 .f32 :=
  bnRelu (aggEdge rowW colW d (matW h w)) b g be mu v

/-- The network as the plain program computes it: two per-edge layers with the factors `dinvOf colW`, then the head. -/
def edgeNet (rowW colW : IVec SE 32) (x : FVec Ideal SNx64 .f32)
    (w0 : FVec Ideal ⟨2, ![64, 64]⟩ .f32) (b0 g0 be0 mu0 v0 : FVec Ideal S64v .f32)
    (w1 : FVec Ideal ⟨2, ![64, 64]⟩ .f32) (b1 g1 be1 mu1 v1 : FVec Ideal S64v .f32)
    (l1w : FVec Ideal ⟨2, ![64, 64]⟩ .f32) (l1b : FVec Ideal S64v .f32)
    (l2w : FVec Ideal ⟨2, ![64, 64]⟩ .f32) (l2b : FVec Ideal S64v .f32)
    (l3w : FVec Ideal ⟨2, ![64, 16]⟩ .f32) (l3b : FVec Ideal ⟨1, ![16]⟩ .f32) : FVec Ideal SNx16 .f32 :=
  dense (relu (dense (relu (dense
    (edgeLayer rowW colW (dinvOf colW) (edgeLayer rowW colW (dinvOf colW) x w0 b0 g0 be0 mu0 v0) w1 b1 g1 be1 mu1 v1)
    l1w l1b)) l2w l2b)) l3w l3b

/-- The network as the tiled program computes it: the three dense stages with the plain aggregate between them,
    the factors entering as a column. -/
def nodeNet (rowW colW : IVec SE 32) (x : FVec Ideal SNx64 .f32)
    (w0 : FVec Ideal ⟨2, ![64, 64]⟩ .f32) (b0 g0 be0 mu0 v0 : FVec Ideal S64v .f32)
    (w1 : FVec Ideal ⟨2, ![64, 64]⟩ .f32) (b1 g1 be1 mu1 v1 : FVec Ideal S64v .f32)
    (l1w : FVec Ideal ⟨2, ![64, 64]⟩ .f32) (l1b : FVec Ideal S64v .f32)
    (l2w : FVec Ideal ⟨2, ![64, 64]⟩ .f32) (l2b : FVec Ideal S64v .f32)
    (l3w : FVec Ideal ⟨2, ![64, 16]⟩ .f32) (l3b : FVec Ideal ⟨1, ![16]⟩ .f32) : FVec Ideal SNx16 .f32 :=
  stage2 (aggNode rowW colW
      (stage1 (aggNode rowW colW (stage0 x w0 (asColumn (dinvOf colW)))) (asColumn (dinvOf colW)) b0 g0 be0 mu0 v0 w1))
    (asColumn (dinvOf colW)) b1 g1 be1 mu1 v1 l1w l1b l2w l2b l3w l3b

end Cert.Gcn

end
-- ==== Proof.LibScatterGather.lean ====
/-
  A gather and an accumulating scatter along the leading axis, read at an index.

  `x[idx]` of an array `x` at an integer array `idx : [E]` lowers to a gather whose start indices are printed
  `[E, 1]` (the index vector on axis 1): of a flat array `[N]` the result's element `e` is `x` at the start index
  `idx[e, 0]` read signed and clamped into `[0, N − 1]`; of a matrix `[N, C]` the result's element `(e, f)` is
  `x` at that row and column `f`. The accumulating scatter with the same index array (a segment sum) adds update
  `e` (update `(e, f)` into column `f`) at the row `idx[e, 0]` read signed and NOT clamped: an update whose row
  is outside `[0, N)` is dropped. On the extended reals the scatter's value at a row is therefore the operand
  plus the sum of the updates whose index word is that row.
-/
import Idealize.ShloMosaic.PureOps.Ideal
import Idealize.ShloMosaic.Lib.ValueIdx

noncomputable section

open scoped BigOperators

namespace Cert.Lib.ScatterGather

open Idealize.ShloMosaic Idealize.ShloMosaic.ValueIdx

/-! ## The gathers -/

section Gather
variable {α : Type}

/-- The dimension numbers of `x[idx]` for a flat operand `[N]`, start indices `[E, 1]` and result `[E]`. -/
abbrev take1Dims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The flat gather read at `e`: the operand at the start index `idx[e, 0]`, read signed and clamped. -/
theorem gather_take1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (take1Dims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (take1Dims N E wf).start (ix1 e) idx 0 + (take1Dims N E wf).batchCoord (ix1 e) 0
    + (take1Dims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N E wf).startIndexMap from List.mem_singleton.mpr rfl)]
  have hsi : (take1Dims N E wf).siIdx (ix1 e) ⟨List.idxOf (0 : Fin 1) (take1Dims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The dimension numbers of `x[idx]` for a matrix operand `[N, C]`, start indices `[E, 1]` and result `[E, C]`. -/
abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem rows_coord0 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowsDims N C E wf).start (ix2 e f) idx (0 : Fin 2) + (rowsDims N C E wf).batchCoord (ix2 e f) (0 : Fin 2)
      + (rowsDims N C E wf).offCoord (ix2 e f) (0 : Fin 2) = min (idx (ix2 e (0 : Fin 1))).toInt.toNat (N - 1) := by
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowsDims N C E wf).startIndexMap from List.mem_singleton.mpr rfl)]
  have hsi : (rowsDims N C E wf).siIdx (ix2 e f) ⟨List.idxOf (0 : Fin 2) (rowsDims N C E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem rows_coord1 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowsDims N C E wf).start (ix2 e f) idx (1 : Fin 2) + (rowsDims N C E wf).batchCoord (ix2 e f) (1 : Fin 2)
      + (rowsDims N C E wf).offCoord (ix2 e f) (1 : Fin 2) = f.val := by
  rw [GatherDims.batchCoord_eq_zero _ _ _ List.not_mem_nil, Nat.add_zero]
  have hs : (rowsDims N C E wf).start (ix2 e f) idx (1 : Fin 2) = 0 := by
    unfold GatherDims.start
    rw [dif_neg (show (1 : Fin 2) ∉ [(0 : Fin 2)] by decide)]
  have ho : (rowsDims N C E wf).offCoord (ix2 e f) (1 : Fin 2) = f.val := by
    unfold GatherDims.offCoord
    rw [dif_pos ((GatherDims.mem_sKept _ _).2 ⟨(show (1 : Fin 2) ∉ [(0 : Fin 2)] by decide), List.not_mem_nil⟩)]
    rfl
  rw [hs, ho, Nat.zero_add]

/-- The row gather read at `(e, f)`: the operand at the row `idx[e, 0]`, read signed and clamped, and column `f`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowsDims N C E wf) x idx (ix2 e f)
      = x (ix2 ⟨min (idx (ix2 e (0 : Fin 1))).toInt.toNat (N - 1), by omega⟩ f) := by
  unfold Host.gather
  congr 1
  funext a
  refine Fin.ext ?_
  match a with
  | ⟨0, _⟩ => exact rows_coord0 wf idx e f
  | ⟨1, _⟩ => exact rows_coord1 wf idx e f

end Gather

/-! ## The accumulating scatters -/

section Scatter

/-- The dimension numbers of `x.at[idx].add(u)` for a flat operand `[N]`, scatter indices `[E, 1]`, updates `[E]`. -/
abbrev scat1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem scat1_start {N E w : Nat} (wf : ScatterDims.WF ⟨1, ![N]⟩ ⟨2, ![E, 1]⟩ ⟨1, ![E]⟩ [] [0] [0] 1)
    (idx : IVec ⟨2, ![E, 1]⟩ w) (e : Fin E) :
    (scat1Dims N E wf).start (ix1 e) idx (0 : Fin 1) = (idx (ix2 e (0 : Fin 1))).toInt := by
  unfold ScatterDims.start
  rw [dif_pos (show (0 : Fin 1) ∈ (scat1Dims N E wf).scatterDimsToOperandDims from List.mem_singleton.mpr rfl)]
  have hsi : (scat1Dims N E wf).siIdx (ix1 e) ⟨List.idxOf (0 : Fin 1) (scat1Dims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scat1_window {N E : Nat} (wf : ScatterDims.WF ⟨1, ![N]⟩ ⟨2, ![E, 1]⟩ ⟨1, ![E]⟩ [] [0] [0] 1) (e : Fin E) :
    (scat1Dims N E wf).window (ix1 e) (0 : Fin 1) = 0 := by
  unfold ScatterDims.window
  rw [dif_neg (show (0 : Fin 1) ∉ (scat1Dims N E wf).sKept by simp [ScatterDims.sKept, Shape.kept])]

/-- Update `e` of the flat scatter lands on row `n` exactly when its index word, read signed, is `n`. -/
theorem scat1_resultIdx?_eq_some_iff {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (scat1Dims N E wf).resultIdx? (ix1 e) idx = some (ix1 n) ↔ (idx (ix2 e (0 : Fin 1))).toInt = (n.val : Int) := by
  unfold ScatterDims.resultIdx?
  constructor
  · intro h
    split at h
    · rename_i hr
      have h0 := congrFun (Option.some.inj h) (0 : Fin 1)
      have hv := congrArg Fin.val h0
      have hr0 := hr (0 : Fin 1)
      rw [scat1_start, scat1_window] at hr0
      simp only [scat1_start, scat1_window] at hv
      change ((idx (ix2 e (0 : Fin 1))).toInt + ((0 : Nat) : Int)).toNat = n.val at hv
      omega
    · exact absurd h (by simp)
  · intro hv
    have hr : ∀ a, 0 ≤ (scat1Dims N E wf).start (ix1 e) idx a + ((scat1Dims N E wf).window (ix1 e) a : Int)
        ∧ (scat1Dims N E wf).start (ix1 e) idx a + ((scat1Dims N E wf).window (ix1 e) a : Int) < ((⟨1, ![N]⟩ : Shape).size a : Int) := by
      intro a
      obtain rfl : a = 0 := Subsingleton.elim _ _
      rw [scat1_start, scat1_window, hv]
      have := n.isLt
      change (0 : Int) ≤ (n.val : Int) + ((0 : Nat) : Int) ∧ (n.val : Int) + ((0 : Nat) : Int) < (N : Int)
      omega
    rw [dif_pos hr]
    congr 1
    funext a
    obtain rfl : a = 0 := Subsingleton.elim _ _
    refine Fin.ext ?_
    show ((scat1Dims N E wf).start (ix1 e) idx 0 + ((scat1Dims N E wf).window (ix1 e) 0 : Int)).toNat = n.val
    rw [scat1_start, scat1_window, hv]
    omega

/-- The dimension numbers of `x.at[idx].add(u)` for a matrix operand `[N, C]`, scatter indices `[E, 1]`, updates `[E, C]`. -/
abbrev scatRowsDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem scatRows_start0 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (scatRowsDims N C E wf).start (ix2 e f) idx (0 : Fin 2) = (idx (ix2 e (0 : Fin 1))).toInt := by
  unfold ScatterDims.start
  rw [dif_pos (show (0 : Fin 2) ∈ (scatRowsDims N C E wf).scatterDimsToOperandDims from List.mem_singleton.mpr rfl)]
  have hsi : (scatRowsDims N C E wf).siIdx (ix2 e f) ⟨List.idxOf (0 : Fin 2) (scatRowsDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scatRows_start1 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (scatRowsDims N C E wf).start (ix2 e f) idx (1 : Fin 2) = 0 := by
  unfold ScatterDims.start
  rw [dif_neg (show (1 : Fin 2) ∉ [(0 : Fin 2)] by decide)]

theorem scatRows_window0 {N C E : Nat} (wf : ScatterDims.WF ⟨2, ![N, C]⟩ ⟨2, ![E, 1]⟩ ⟨2, ![E, C]⟩ [1] [0] [0] 1)
    (e : Fin E) (f : Fin C) : (scatRowsDims N C E wf).window (ix2 e f) (0 : Fin 2) = 0 := by
  unfold ScatterDims.window
  rw [dif_neg (show (0 : Fin 2) ∉ (scatRowsDims N C E wf).sKept by simp [ScatterDims.sKept, Shape.kept])]

theorem scatRows_window1 {N C E : Nat} (wf : ScatterDims.WF ⟨2, ![N, C]⟩ ⟨2, ![E, 1]⟩ ⟨2, ![E, C]⟩ [1] [0] [0] 1)
    (e : Fin E) (f : Fin C) : (scatRowsDims N C E wf).window (ix2 e f) (1 : Fin 2) = f.val := by
  unfold ScatterDims.window
  rw [dif_pos (show (1 : Fin 2) ∈ (scatRowsDims N C E wf).sKept by simp [ScatterDims.sKept, Shape.kept])]
  rfl

/-- Update `(e, f)` of the row scatter lands on `(n, g)` exactly when its index word, read signed, is `n` and `f = g`. -/
theorem scatRows_resultIdx?_eq_some_iff {N C E w : Nat}
    (wf : ScatterDims.WF ⟨2, ![N, C]⟩ ⟨2, ![E, 1]⟩ ⟨2, ![E, C]⟩ [1] [0] [0] 1)
    (idx : IVec ⟨2, ![E, 1]⟩ w) (e : Fin E) (f : Fin C) (n : Fin N) (g : Fin C) :
    (scatRowsDims N C E wf).resultIdx? (ix2 e f) idx = some (ix2 n g)
      ↔ (idx (ix2 e (0 : Fin 1))).toInt = (n.val : Int) ∧ f = g := by
  unfold ScatterDims.resultIdx?
  constructor
  · intro h
    split at h
    · rename_i hr
      have hfun := Option.some.inj h
      have hv0 := congrArg Fin.val (congrFun hfun (0 : Fin 2))
      have hv1 := congrArg Fin.val (congrFun hfun (1 : Fin 2))
      have hr0 := hr (0 : Fin 2)
      rw [scatRows_start0, scatRows_window0] at hr0
      simp only [scatRows_start0, scatRows_window0] at hv0
      simp only [scatRows_start1, scatRows_window1] at hv1
      change ((idx (ix2 e (0 : Fin 1))).toInt + ((0 : Nat) : Int)).toNat = n.val at hv0
      change ((0 : Int) + ((f.val : Nat) : Int)).toNat = g.val at hv1
      refine ⟨by omega, Fin.ext (by omega)⟩
    · exact absurd h (by simp)
  · rintro ⟨hv, rfl⟩
    have hr : ∀ a, 0 ≤ (scatRowsDims N C E wf).start (ix2 e f) idx a + ((scatRowsDims N C E wf).window (ix2 e f) a : Int)
        ∧ (scatRowsDims N C E wf).start (ix2 e f) idx a + ((scatRowsDims N C E wf).window (ix2 e f) a : Int)
            < ((⟨2, ![N, C]⟩ : Shape).size a : Int) := by
      intro a
      match a with
      | ⟨0, _⟩ =>
        have := n.isLt
        change 0 ≤ (scatRowsDims N C E wf).start (ix2 e f) idx (0 : Fin 2) + ((scatRowsDims N C E wf).window (ix2 e f) (0 : Fin 2) : Int)
          ∧ (scatRowsDims N C E wf).start (ix2 e f) idx (0 : Fin 2) + ((scatRowsDims N C E wf).window (ix2 e f) (0 : Fin 2) : Int) < (N : Int)
        rw [scatRows_start0, scatRows_window0, hv]
        omega
      | ⟨1, _⟩ =>
        have := f.isLt
        change 0 ≤ (scatRowsDims N C E wf).start (ix2 e f) idx (1 : Fin 2) + ((scatRowsDims N C E wf).window (ix2 e f) (1 : Fin 2) : Int)
          ∧ (scatRowsDims N C E wf).start (ix2 e f) idx (1 : Fin 2) + ((scatRowsDims N C E wf).window (ix2 e f) (1 : Fin 2) : Int) < (C : Int)
        rw [scatRows_start1, scatRows_window1]
        omega
    rw [dif_pos hr]
    congr 1
    funext a
    refine Fin.ext ?_
    match a with
    | ⟨0, _⟩ =>
      show ((scatRowsDims N C E wf).start (ix2 e f) idx (0 : Fin 2) + ((scatRowsDims N C E wf).window (ix2 e f) (0 : Fin 2) : Int)).toNat = n.val
      rw [scatRows_start0, scatRows_window0, hv]
      omega
    | ⟨1, _⟩ =>
      show ((scatRowsDims N C E wf).start (ix2 e f) idx (1 : Fin 2) + ((scatRowsDims N C E wf).window (ix2 e f) (1 : Fin 2) : Int)).toNat = f.val
      rw [scatRows_start1, scatRows_window1]
      omega

/-! ## The scatters' values on the extended reals -/

/-- A flat index is its one coordinate. -/
def idxEquiv1 {n : Nat} : (⟨1, ![n]⟩ : Shape).Idx ≃ Fin n where
  toFun j := j 0
  invFun := ix1
  left_inv j := (eq_ix1 j).symm
  right_inv _ := rfl

theorem sum_idx1 {M : Type*} [AddCommMonoid M] {n : Nat} (f : (⟨1, ![n]⟩ : Shape).Idx → M) :
    ∑ j, f j = ∑ a : Fin n, f (ix1 a) :=
  (Equiv.sum_comp (idxEquiv1 (n := n)).symm f).symm

/-- The flat accumulating scatter at row `n`: the operand plus the updates whose index word is `n`. -/
theorem scatterAdd1_apply {N E w : Nat} {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (scat1Dims N E wf) x idx upd (ix1 n)
      = x (ix1 n) + ∑ e ∈ Finset.univ.filter (fun e : Fin E => (idx (ix2 e (0 : Fin 1))).toInt = (n.val : Int)), upd (ix1 e) := by
  show Ideal.hostScatterAdd (scat1Dims N E wf) x idx upd (ix1 n) = _
  unfold Ideal.hostScatterAdd
  congr 1
  rw [Finset.sum_filter, Finset.sum_filter, sum_idx1]
  exact Finset.sum_congr rfl fun e _ => if_congr (scat1_resultIdx?_eq_some_iff wf idx e n) rfl rfl

/-- The row accumulating scatter at `(n, g)`: the operand plus column `g` of the updates whose index word is `n`. -/
theorem scatterAddRows_apply {N C E w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (g : Fin C) :
    Host.scatterAdd (scatRowsDims N C E wf) x idx upd (ix2 n g)
      = x (ix2 n g) + ∑ e ∈ Finset.univ.filter (fun e : Fin E => (idx (ix2 e (0 : Fin 1))).toInt = (n.val : Int)), upd (ix2 e g) := by
  show Ideal.hostScatterAdd (scatRowsDims N C E wf) x idx upd (ix2 n g) = _
  unfold Ideal.hostScatterAdd
  congr 1
  rw [Finset.sum_filter, Finset.sum_filter, sum_idx2]
  refine Finset.sum_congr rfl fun e _ => ?_
  have h : ∀ f : Fin C, (if (scatRowsDims N C E wf).resultIdx? (ix2 e f) idx = some (ix2 n g) then upd (ix2 e f) else 0)
      = if f = g then (if (idx (ix2 e (0 : Fin 1))).toInt = (n.val : Int) then upd (ix2 e f) else 0) else 0 := by
    intro f
    rw [if_congr (scatRows_resultIdx?_eq_some_iff wf idx e f n g) rfl rfl]
    by_cases hf : f = g
    · rw [if_pos hf]; exact if_congr (and_iff_left hf) rfl rfl
    · rw [if_neg hf, if_neg (fun h => hf h.2)]
  rw [Finset.sum_congr rfl fun f _ => h f, Finset.sum_ite_eq' Finset.univ g]
  rw [if_pos (Finset.mem_univ g)]

end Scatter

end Cert.Lib.ScatterGather

end
-- ==== Proof.LibGcnHost.lean ====
/-
  The host-side array operations of a graph convolution, read as index-level sums.

  A graph on 100000 nodes is given by 1100000 edge words. Four array expressions occur around the dense stages
  of a two-layer graph convolution, and each is a whole-array operation (a broadcast, a comparison and a select,
  a gather along the leading axis, an accumulating scatter along the leading axis). Read at one index, on the
  extended reals, they are the plain mathematical objects the convolution is made of:

  * the degree array, ones scattered into the buckets of the destination words from zeros, is at node `i` the
    number of edges whose destination word is `i` (`deg_eq`);
  * the factor array, the inverse square root of the degree where the degree is positive and zero elsewhere,
    is that function entry by entry (`dinv_eq`), and each of its entries is a non-negative real (`dinv_real`);
  * rows of a node table gathered at the source words (each negative word wrapped once by the node count, then
    clamped into the nodes) and scattered into the buckets of the destination words from zeros are, at
    `(i, c)`, the sum over the edges into `i` of the table's entry at the edge's source and column `c`
    (`aggNode_eq`);
  * the same with every gathered row first multiplied by the product of the factors gathered at the edge's two
    ends is that sum with the per-edge product inside it (`aggEdge_eq`).

  The arrays are stated over the generic dimension records of a gather and a scatter along the leading axis,
  with the well-formedness and broadcast facts as hypotheses, so that any spelling of these operations with
  those dimension numbers is an instance. Last, an edge into node `i` selects `i` when its destination word
  is used as a table index (`sel_of_into`): the word is `i` read signed, so it is not negative, is not wrapped,
  and the clamp leaves it.
-/
import proofs.«155145_j34754875359294_2_alg».proof.Proof.Spec
import proofs.«155145_j34754875359294_2_alg».proof.Proof.LibScatterGather
import Idealize.ShloMosaic.Lib.Pipeline.Value
import Idealize.ShloMosaic.Lib.IdealHost

noncomputable section
open scoped BigOperators

namespace Cert.Gcn.Host

open Idealize.ShloMosaic Idealize.ShloMosaic.ValueIdx Cert.Gcn Cert.Lib.ScatterGather

abbrev S0 : Shape := ⟨0, ![]⟩
abbrev SEx64 : Shape := ⟨2, ![1100000, 64]⟩

/-- An array of edge words prepared as `x[idx]` prepares it: every negative word wrapped once by the node count. -/
def wrapArr (h0E : S0.BroadcastsInDim SE (![] : Fin 0 → Fin SE.rank)) (w : IVec SE 32) : IVec SE 32 :=
  select (cmpi .slt w (broadcastInDim SE ![] h0E (constantI S0 32 0#32)))
    (addi w (broadcastInDim SE ![] h0E (constantI S0 32 100000#32))) w

/-! ## The layout operations read at an index -/

/-- A vector over the edges laid out as a one-column table reads, at `(e, 0)`, the vector at `e`. -/
theorem col_apply {α : Type} (hE1 : SE.BroadcastsInDim SEx1 (![0] : Fin 1 → Fin SEx1.rank)) (w : SE.Idx → α)
    (e : Fin 1100000) : broadcastInDim SEx1 ![0] hE1 w (ix2 e (0 : Fin 1)) = w (ix1 e) :=
  broadcastInDim_apply _ hE1 w (ix2 e (0 : Fin 1)) (ix1 e) (fun a => match a with
    | ⟨0, _⟩ => by show e.val = if (1100000 : Nat) = 1 then 0 else e.val; rw [if_neg (by decide)])

/-- A one-column table over the edges spread along 64 columns reads, at `(e, f)`, the column at `(e, 0)`. -/
theorem spread_apply {α : Type} (hE1C : SEx1.BroadcastsInDim SEx64 (![0, 1] : Fin 2 → Fin SEx64.rank)) (y : SEx1.Idx → α)
    (e : Fin 1100000) (f : Fin 64) : broadcastInDim SEx64 ![0, 1] hE1C y (ix2 e f) = y (ix2 e (0 : Fin 1)) :=
  broadcastInDim_apply _ hE1C y (ix2 e f) (ix2 e (0 : Fin 1)) (fun a => match a with
    | ⟨0, _⟩ => by show e.val = if (1100000 : Nat) = 1 then 0 else e.val; rw [if_neg (by decide)]
    | ⟨1, _⟩ => by show 0 = if (1 : Nat) = 1 then 0 else f.val; rw [if_pos rfl])

/-- A float word splat over any shape reads the extended real the word encodes. -/
theorem splat_apply {T : Shape} (h : S0.BroadcastsInDim T (![] : Fin 0 → Fin T.rank)) (b : BitVec 32) (j : T.Idx) :
    broadcastInDim T ![] h (constant (F := Ideal) S0 .f32 b) j = Ideal.ofBits .f32 b := rfl

/-- A comparison of arrays on the extended reals reads the comparison of the entries. -/
theorem cmpf_ideal_apply {T : Shape} {φ : FTy} (p : CmpFPredicate) (x y : FVec Ideal T φ) (i : T.Idx) :
    cmpf (F := Ideal) p x y i = Ideal.cmp p (x i) (y i) := rfl

/-- The inverse square root of an array on the extended reals reads the inverse square root of the entry. -/
theorem hostRsqrt_apply {T : Shape} {φ : FTy} (x : FVec Ideal T φ) (i : T.Idx) :
    Host.rsqrt (F := Ideal) x i = Ideal.rsqrt (x i) := rfl

/-- The prepared array of edge words reads, at an edge, the edge's word wrapped once. -/
theorem wrapArr_apply (h0E : S0.BroadcastsInDim SE (![] : Fin 0 → Fin SE.rank)) (w : IVec SE 32) (j : SE.Idx) :
    wrapArr h0E w j = wrapW (w j) := rfl

/-- The edges whose destination word, read through the one-column layout, is the node `i`. -/
theorem filter_col_eq_into (hE1 : SE.BroadcastsInDim SEx1 (![0] : Fin 1 → Fin SEx1.rank)) (colW : IVec SE 32) (i : Fin 100000) :
    Finset.univ.filter (fun e : Fin 1100000 => (broadcastInDim SEx1 ![0] hE1 colW (ix2 e (0 : Fin 1))).toInt = (i.val : Int))
      = into colW i := by
  unfold into
  exact Finset.filter_congr (fun e _ => by rw [col_apply])

/-! ## The gathers at the prepared words -/

/-- A row gathered at the prepared word of edge `e` is the row of the node the edge's word selects. -/
theorem gatherRows_sel (wfG : GatherDims.WF SNx64 SEx1 SEx64 [1] [0] [] [0] [] 1 ![1, 64])
    (h0E : S0.BroadcastsInDim SE (![] : Fin 0 → Fin SE.rank))
    (hE1 : SE.BroadcastsInDim SEx1 (![0] : Fin 1 → Fin SEx1.rank)) (w : IVec SE 32) (P : FVec Ideal SNx64 .f32)
    (e : Fin 1100000) (q : Fin 64) :
    Host.gather (rowsDims 100000 64 1100000 wfG) P (broadcastInDim SEx1 ![0] hE1 (wrapArr h0E w)) (ix2 e q)
      = P (ix2 (sel (w (ix1 e))) q) := by
  refine (gather_rows_apply (by norm_num) wfG P _ e q).trans ?_
  refine congrArg (fun n => P (ix2 n q)) (Fin.ext ?_)
  show min ((broadcastInDim SEx1 ![0] hE1 (wrapArr h0E w)) (ix2 e (0 : Fin 1))).toInt.toNat (100000 - 1)
    = min (wrapW (w (ix1 e))).toInt.toNat (100000 - 1)
  rw [col_apply]
  rfl

/-- An entry gathered at the prepared word of edge `e` is the entry of the node the edge's word selects. -/
theorem gatherTake_sel (wfT : GatherDims.WF SN SEx1 SE [] [0] [] [0] [] 1 ![1])
    (h0E : S0.BroadcastsInDim SE (![] : Fin 0 → Fin SE.rank))
    (hE1 : SE.BroadcastsInDim SEx1 (![0] : Fin 1 → Fin SEx1.rank)) (w : IVec SE 32) (d : FVec Ideal SN .f32)
    (e : Fin 1100000) :
    Host.gather (take1Dims 100000 1100000 wfT) d (broadcastInDim SEx1 ![0] hE1 (wrapArr h0E w)) (ix1 e)
      = d (ix1 (sel (w (ix1 e)))) := by
  refine (gather_take1_apply (by norm_num) wfT d _ e).trans ?_
  refine congrArg (fun n => d (ix1 n)) (Fin.ext ?_)
  show min ((broadcastInDim SEx1 ![0] hE1 (wrapArr h0E w)) (ix2 e (0 : Fin 1))).toInt.toNat (100000 - 1)
    = min (wrapW (w (ix1 e))).toInt.toNat (100000 - 1)
  rw [col_apply]
  rfl

/-- The degree array: ones added into the buckets of the destination words, from zeros. -/
def degArr (wfS1 : ScatterDims.WF SN SEx1 SE [] [0] [0] 1)
    (h0N : S0.BroadcastsInDim SN (![] : Fin 0 → Fin SN.rank)) (h0E : S0.BroadcastsInDim SE (![] : Fin 0 → Fin SE.rank))
    (hE1 : SE.BroadcastsInDim SEx1 (![0] : Fin 1 → Fin SEx1.rank)) (colW : IVec SE 32) : FVec Ideal SN .f32 :=
  Host.scatterAdd (scat1Dims 100000 1100000 wfS1) (broadcastInDim SN ![] h0N (constant (F := Ideal) S0 .f32 0x00000000#32))
    (broadcastInDim SEx1 ![0] hE1 colW) (broadcastInDim SE ![] h0E (constant (F := Ideal) S0 .f32 0x3F800000#32))

theorem deg_eq (wfS1 : ScatterDims.WF SN SEx1 SE [] [0] [0] 1)
    (h0N : S0.BroadcastsInDim SN (![] : Fin 0 → Fin SN.rank)) (h0E : S0.BroadcastsInDim SE (![] : Fin 0 → Fin SE.rank))
    (hE1 : SE.BroadcastsInDim SEx1 (![0] : Fin 1 → Fin SEx1.rank)) (colW : IVec SE 32) :
    degArr wfS1 h0N h0E hE1 colW = deg colW := by
  funext j
  obtain ⟨p, rfl⟩ : ∃ p : Fin 100000, j = ix1 p := ⟨j 0, eq_ix1 j⟩
  unfold degArr
  refine (scatterAdd1_apply wfS1 _ _ _ p).trans ?_
  show Ideal.ofBits .f32 0x00000000#32 + _ = zeroF + ∑ _e ∈ into colW p, oneF
  refine congrArg (fun s => zeroF + s) ?_
  exact Finset.sum_congr (filter_col_eq_into hE1 colW p) (fun e _ => rfl)

/-- The factor array: the inverse square root of the degree where it is positive, zero elsewhere. -/
theorem dinv_eq (D : FVec Ideal SN .f32) (h0N h0N' : S0.BroadcastsInDim SN (![] : Fin 0 → Fin SN.rank)) (colW : IVec SE 32)
    (hD : D = deg colW) :
    select (cmpf (F := Ideal) .ogt D (broadcastInDim SN ![] h0N (constant (F := Ideal) S0 .f32 0x00000000#32)))
        (Host.rsqrt (F := Ideal) D) (broadcastInDim SN ![] h0N' (constant (F := Ideal) S0 .f32 0x00000000#32))
      = dinvOf colW := by
  funext j
  rw [select_apply, cmpf_ideal_apply, hostRsqrt_apply, splat_apply, hD]
  unfold dinvOf zeroF
  rfl

/-- Rows gathered at the prepared source words and added into the buckets of the destination words, from zeros. -/
theorem aggNode_eq (wfS : ScatterDims.WF SNx64 SEx1 SEx64 [1] [0] [0] 1)
    (wfG : GatherDims.WF SNx64 SEx1 SEx64 [1] [0] [] [0] [] 1 ![1, 64])
    (h0NC : S0.BroadcastsInDim SNx64 (![] : Fin 0 → Fin SNx64.rank)) (h0E : S0.BroadcastsInDim SE (![] : Fin 0 → Fin SE.rank))
    (hE1 hE1' : SE.BroadcastsInDim SEx1 (![0] : Fin 1 → Fin SEx1.rank)) (rowW colW : IVec SE 32) (P : FVec Ideal SNx64 .f32) :
    Host.scatterAdd (scatRowsDims 100000 64 1100000 wfS) (broadcastInDim SNx64 ![] h0NC (constant (F := Ideal) S0 .f32 0x00000000#32))
        (broadcastInDim SEx1 ![0] hE1 colW)
        (Host.gather (rowsDims 100000 64 1100000 wfG) P (broadcastInDim SEx1 ![0] hE1' (wrapArr h0E rowW)))
      = aggNode rowW colW P := by
  funext j
  obtain ⟨p, q, rfl⟩ : ∃ (p : Fin 100000) (q : Fin 64), j = ix2 p q := ⟨j 0, j 1, eq_ix2 j⟩
  refine (scatterAddRows_apply wfS _ _ _ p q).trans ?_
  show Ideal.ofBits .f32 0x00000000#32 + _ = zeroF + ∑ e ∈ into colW p, P (ix2 (sel (rowW (ix1 e))) q)
  refine congrArg (fun s => zeroF + s) ?_
  exact Finset.sum_congr (filter_col_eq_into hE1 colW p) (fun e _ => gatherRows_sel wfG h0E hE1' rowW P e q)

/-- The same with every gathered row first multiplied by the product of the factors gathered at the edge's two ends. -/
theorem aggEdge_eq (wfS : ScatterDims.WF SNx64 SEx1 SEx64 [1] [0] [0] 1)
    (wfG : GatherDims.WF SNx64 SEx1 SEx64 [1] [0] [] [0] [] 1 ![1, 64])
    (wfT : GatherDims.WF SN SEx1 SE [] [0] [] [0] [] 1 ![1])
    (h0NC : S0.BroadcastsInDim SNx64 (![] : Fin 0 → Fin SNx64.rank)) (h0E : S0.BroadcastsInDim SE (![] : Fin 0 → Fin SE.rank))
    (hE1 : SE.BroadcastsInDim SEx1 (![0] : Fin 1 → Fin SEx1.rank))
    (hE1C : SEx1.BroadcastsInDim SEx64 (![0, 1] : Fin 2 → Fin SEx64.rank))
    (rowW colW : IVec SE 32) (d : FVec Ideal SN .f32) (P : FVec Ideal SNx64 .f32) :
    Host.scatterAdd (scatRowsDims 100000 64 1100000 wfS) (broadcastInDim SNx64 ![] h0NC (constant (F := Ideal) S0 .f32 0x00000000#32))
        (broadcastInDim SEx1 ![0] hE1 colW)
        (mulf (F := Ideal)
          (broadcastInDim SEx64 ![0, 1] hE1C (broadcastInDim SEx1 ![0] hE1
            (mulf (F := Ideal) (Host.gather (take1Dims 100000 1100000 wfT) d (broadcastInDim SEx1 ![0] hE1 (wrapArr h0E rowW)))
              (Host.gather (take1Dims 100000 1100000 wfT) d (broadcastInDim SEx1 ![0] hE1 (wrapArr h0E colW))))))
          (Host.gather (rowsDims 100000 64 1100000 wfG) P (broadcastInDim SEx1 ![0] hE1 (wrapArr h0E rowW))))
      = aggEdge rowW colW d P := by
  funext j
  obtain ⟨p, q, rfl⟩ : ∃ (p : Fin 100000) (q : Fin 64), j = ix2 p q := ⟨j 0, j 1, eq_ix2 j⟩
  refine (scatterAddRows_apply wfS _ _ _ p q).trans ?_
  show Ideal.ofBits .f32 0x00000000#32 + _ = zeroF + ∑ e ∈ into colW p,
    (d (ix1 (sel (rowW (ix1 e)))) * d (ix1 (sel (colW (ix1 e))))) * P (ix2 (sel (rowW (ix1 e))) q)
  refine congrArg (fun s => zeroF + s) ?_
  refine Finset.sum_congr (filter_col_eq_into hE1 colW p) (fun e _ => ?_)
  rw [mulf_apply, spread_apply, col_apply, mulf_apply, gatherTake_sel, gatherTake_sel, gatherRows_sel]

/-- A finite sum of ones on the extended reals is the number of its terms. -/
theorem sum_one_eq_card {ι : Type} (s : Finset ι) : ∑ _e ∈ s, (1 : EReal) = ((s.card : ℝ) : EReal) := by
  rw [Finset.sum_const, ← EReal.coe_one, ← EReal.coe_nsmul, nsmul_eq_mul, mul_one]

/-- The degree of a node is the number of edges into it. -/
theorem deg_eq_card (colW : IVec SE 32) (i : Fin 100000) : deg colW (ix1 i) = (((into colW i).card : ℝ) : EReal) := by
  show zeroF + ∑ _e ∈ into colW i, oneF = _
  unfold zeroF oneF
  rw [Ideal.ofBits_zero_f32, Ideal.ofBits_one_f32, zero_add, sum_one_eq_card]

/-- Every factor is a non-negative real: a degree is a natural number, and the inverse square root of a positive
    real is a positive real. -/
theorem dinv_real (colW : IVec SE 32) (i : Fin 100000) : ∃ r : ℝ, 0 ≤ r ∧ dinvOf colW (ix1 i) = (r : EReal) := by
  unfold dinvOf
  rw [deg_eq_card]
  unfold zeroF
  rw [Ideal.ofBits_zero_f32]
  rcases Nat.eq_zero_or_pos (into colW i).card with h0 | hpos
  · refine ⟨0, le_refl _, ?_⟩
    rw [h0]
    have hc : Ideal.cmp .ogt (((0 : ℕ) : ℝ) : EReal) 0 = 0#1 := by
      show BitVec.ofBool (decide ((0 : EReal) < (((0 : ℕ) : ℝ) : EReal))) = 0#1
      rw [decide_eq_false (by rw [Nat.cast_zero, EReal.coe_zero]; exact lt_irrefl _)]
      rfl
    rw [hc, select_zero]
    rfl
  · have hr : (0 : ℝ) < ((into colW i).card : ℝ) := Nat.cast_pos.mpr hpos
    refine ⟨(Real.sqrt ((into colW i).card : ℝ))⁻¹, inv_nonneg.mpr (Real.sqrt_nonneg _), ?_⟩
    have hc : Ideal.cmp .ogt ((((into colW i).card : ℝ)) : EReal) 0 = 1#1 := by
      show BitVec.ofBool (decide ((0 : EReal) < (((into colW i).card : ℝ) : EReal))) = 1#1
      rw [decide_eq_true (EReal.coe_pos.mpr hr)]
      rfl
    rw [hc, select_one, Ideal.rsqrt_coe, if_neg (not_lt.mpr hr.le), if_neg hr.ne']

/-- An edge into node `i` selects `i` when its destination word is used as a table index. -/
theorem sel_of_into (colW : IVec SE 32) (i : Fin 100000) (e : Fin 1100000) (he : e ∈ into colW i) : sel (colW (ix1 e)) = i := by
  have hw : (colW (ix1 e)).toInt = (i.val : Int) := (Finset.mem_filter.mp he).2
  have hi := i.isLt
  have hnot : (colW (ix1 e)).slt 0#32 = false := by
    rw [BitVec.slt, hw]
    simp
  have hwrap : wrapW (colW (ix1 e)) = colW (ix1 e) := by
    unfold wrapW IntOp.cmpi
    show Scalar.select (BitVec.ofBool ((colW (ix1 e)).slt 0#32)) _ _ = _
    rw [hnot]
    exact select_zero _ _
  unfold sel
  rw [hwrap]
  refine Fin.ext ?_
  show min (colW (ix1 e)).toInt.toNat (100000 - 1) = i.val
  rw [hw]
  omega

end Cert.Gcn.Host
end
-- ==== Proof.RefRead.lean ====
/-
  The plain two-layer graph convolution, read as the per-edge arrangement of the network.

  The program is a straight line of whole-array operations. Its edge words are the listed edges followed by one
  self-loop per node (two concatenations, which stay opaque here: both sides of every equation carry the same
  arrays). Around them it computes, twice, the degree of every node (ones added into the buckets of the destination
  words), the factor (the inverse square root of a positive degree, zero otherwise), the per-edge product of the
  factors at the two ends, the projection of the node table, the rows gathered at the sources, scaled by the
  per-edge product and added into the buckets of the destinations; then bias, inference batch-norm and the positive
  part, column by column; and at the end three dense layers. Each of these groups of operations is identified, as a
  whole array, with the function of the specification that names it: first for arbitrary operand arrays, then
  for the program's own intermediate arrays, the second layer being the first one's operations under other names.
-/
import proofs.«155145_j34754875359294_2_alg».proof.Proof.RefReadP
import proofs.«155145_j34754875359294_2_alg».proof.Proof.Spec
import proofs.«155145_j34754875359294_2_alg».proof.Proof.LibGcnHost

noncomputable section
namespace Cert.ReferenceIdeal.RefValue
open Idealize.ShloMosaic Idealize.ShloMosaic.ValueIdx Cert.ReferenceIdeal Cert.ReferenceIdeal.ReadP Cert.Gcn
open scoped BigOperators

/-! ## The dense pieces, for arbitrary operands -/

/-- The product of a node table with a 64-column weight matrix is the specification's product. -/
theorem proj64_eq (h : (⟨S100000x64, .f32⟩ : BufTy).Contents (Elt Ideal)) (w : (⟨S64x64, .f32⟩ : BufTy).Contents (Elt Ideal)) :
    val_main_v7 (F := Ideal) h w = matW h w := by
  funext j
  rw [val_main_v7_apply]
  show _ = ∑ k : Fin 64, h (ix2 (j 0) k) * w (ix2 k (j 1))
  refine Finset.sum_congr rfl fun k _ => ?_
  have el : lidx_main_v7 j k = ix2 (j 0) k := funext fun a => Fin.ext (by match a with | ⟨0, _⟩ => rfl | ⟨1, _⟩ => rfl)
  have er : ridx_main_v7 j k = ix2 k (j 1) := funext fun a => Fin.ext (by match a with | ⟨0, _⟩ => rfl | ⟨1, _⟩ => rfl)
  rw [el, er]
  rfl

/-- A 64-vector laid along the columns of a node table reads, at row p and column q, the vector at q. -/
theorem cols64_apply (b : (⟨S64, .f32⟩ : BufTy).Contents (Elt Ideal)) (j : S100000x64.Idx) :
    val_main_v45 (F := Ideal) b j = b (ix1 (j 1)) := by
  rw [val_main_v45_apply, val_main_v44_apply]
  refine congrArg b (funext fun a => Fin.ext ?_)
  match a with | ⟨0, _⟩ => rfl

/-- The zero word splat over a node table reads the zero word. -/
theorem zeros64_apply (j : S100000x64.Idx) : val_main_call1_v0 (F := Ideal) j = zeroF := by
  rw [val_main_call1_v0_apply, val_main_call1_cst_apply]
  rfl

/-- The positive part against the splat zero is the specification's positive part. -/
theorem relu64_eq (y : (⟨S100000x64, .f32⟩ : BufTy).Contents (Elt Ideal)) :
    maximumf (F := Ideal) y (val_main_call1_v0 (F := Ideal)) = relu y := by
  funext j
  show max (y j) (val_main_call1_v0 (F := Ideal) j) = max (y j) zeroF
  rw [zeros64_apply]

/-- A dense layer of 64 columns: the product plus the bias laid along the columns. -/
theorem dense64_eq (h : (⟨S100000x64, .f32⟩ : BufTy).Contents (Elt Ideal)) (w : (⟨S64x64, .f32⟩ : BufTy).Contents (Elt Ideal))
    (b : (⟨S64, .f32⟩ : BufTy).Contents (Elt Ideal)) :
    addf (F := Ideal) (val_main_v7 (F := Ideal) h w) (val_main_v45 (F := Ideal) b) = dense h w b := by
  rw [proj64_eq]
  funext j
  show matW h w j + val_main_v45 (F := Ideal) b j = mm h w (j 0) (j 1) + b (ix1 (j 1))
  rw [cols64_apply]
  rfl

/-- The inverse square root of the variance plus the epsilon word, entry by entry. -/
theorem scale_apply (v : (⟨S64, .f32⟩ : BufTy).Contents (Elt Ideal)) (i : S64.Idx) :
    val_main_v52 (F := Ideal) v i = Ideal.rsqrt (v i + epsF) := by
  rw [val_main_v52_apply, val_main_v51_apply, val_main_v50_apply, val_main_cst_9_apply]
  rfl

/-- Bias, inference batch-norm and the positive part of a pre-activation table, as the program spells them. -/
theorem bn_eq (y : (⟨S100000x64, .f32⟩ : BufTy).Contents (Elt Ideal)) (b g be mu v : (⟨S64, .f32⟩ : BufTy).Contents (Elt Ideal)) :
    maximumf (F := Ideal)
        (addf (F := Ideal)
          (mulf (F := Ideal)
            (mulf (F := Ideal)
              (subf (F := Ideal) (addf (F := Ideal) y (val_main_v45 (F := Ideal) b)) (val_main_v45 (F := Ideal) mu))
              (val_main_v45 (F := Ideal) (val_main_v52 (F := Ideal) v)))
            (val_main_v45 (F := Ideal) g))
          (val_main_v45 (F := Ideal) be))
        (val_main_call1_v0 (F := Ideal))
      = bnRelu y b g be mu v := by
  funext j
  show max ((((y j + val_main_v45 (F := Ideal) b j) - val_main_v45 (F := Ideal) mu j)
      * val_main_v45 (F := Ideal) (val_main_v52 (F := Ideal) v) j) * val_main_v45 (F := Ideal) g j
      + val_main_v45 (F := Ideal) be j) (val_main_call1_v0 (F := Ideal) j) = _
  rw [cols64_apply, cols64_apply, cols64_apply, cols64_apply, cols64_apply, scale_apply, zeros64_apply]
  rfl

/-! ## The argument arrays -/

section Net
variable (x0 : (⟨S100000x64, .f32⟩ : BufTy).Contents (Elt Ideal)) (x1 : (⟨S2x1000000, .i32⟩ : BufTy).Contents (Elt Ideal))
  (x2 : (⟨S64x64, .f32⟩ : BufTy).Contents (Elt Ideal)) (x3 : (⟨S64, .f32⟩ : BufTy).Contents (Elt Ideal))
  (x4 : (⟨S64x64, .f32⟩ : BufTy).Contents (Elt Ideal)) (x5 x6 x7 x8 x9 x10 x11 x12 x13 : (⟨S64, .f32⟩ : BufTy).Contents (Elt Ideal))
  (x14 : (⟨S64x64, .f32⟩ : BufTy).Contents (Elt Ideal)) (x15 : (⟨S64, .f32⟩ : BufTy).Contents (Elt Ideal))
  (x16 : (⟨S64x64, .f32⟩ : BufTy).Contents (Elt Ideal)) (x17 : (⟨S64, .f32⟩ : BufTy).Contents (Elt Ideal))
  (x18 : (⟨S64x16, .f32⟩ : BufTy).Contents (Elt Ideal)) (x19 : (⟨S16, .f32⟩ : BufTy).Contents (Elt Ideal))

/-! ## The first layer -/

/-- The factor array of the first layer is the specification's, of the destination words. -/
theorem dinv1_eq : val_main_v15 (F := Ideal) x1 = dinvOf (val_main_v6 (F := Ideal) x1) := by
  unfold val_main_v15 val_main_v13 val_main_v14 val_main_call0_v0 val_main_cst_2 val_main_v12 val_main_cst_1
  refine Host.dinv_eq _ _ _ _ ?_
  unfold val_main_v11 val_main_v9 val_main_cst_0 val_main_v10 val_main_v8 val_main_cst
  generalize val_main_v6 (F := Ideal) x1 = colW
  exact Host.deg_eq _ _ _ _ colW

/-- The first aggregate: the projected rows gathered at the sources, scaled by the per-edge product of the factors
    and added into the buckets of the destinations. -/
theorem agg1_eq : val_main_v43 (F := Ideal) x0 x1 x2
    = aggEdge (val_main_v5 (F := Ideal) x1) (val_main_v6 (F := Ideal) x1) (val_main_v15 (F := Ideal) x1) (val_main_v7 (F := Ideal) x0 x2) := by
  unfold val_main_v43 val_main_v41 val_main_cst_8 val_main_v42 val_main_v40 val_main_v39 val_main_v31 val_main_v30
    val_main_v22 val_main_v29 val_main_v21 val_main_v28 val_main_v20 val_main_v27 val_main_v17 val_main_v19 val_main_v24 val_main_v26
    val_main_v16 val_main_v18 val_main_v23 val_main_v25 val_main_c val_main_c_3 val_main_c_4 val_main_c_5
    val_main_v38 val_main_v37 val_main_v36 val_main_v33 val_main_v35 val_main_v32 val_main_v34 val_main_c_6 val_main_c_7
  generalize val_main_v5 (F := Ideal) x1 = rowW
  generalize val_main_v6 (F := Ideal) x1 = colW
  generalize val_main_v15 (F := Ideal) x1 = d
  generalize val_main_v7 (F := Ideal) x0 x2 = P
  exact Host.aggEdge_eq _ _ _ _ _ _ _ rowW colW d P

/-- The first hidden table is the first per-edge layer of the features. -/
theorem layer1_eq : val_main_v62 (F := Ideal) x0 x1 x2 x3 x6 x7 x8 x9
    = edgeLayer (val_main_v5 (F := Ideal) x1) (val_main_v6 (F := Ideal) x1) (dinvOf (val_main_v6 (F := Ideal) x1)) x0 x2 x3 x6 x7 x8 x9 := by
  unfold edgeLayer
  rw [← proj64_eq, ← dinv1_eq, ← agg1_eq]
  unfold val_main_v62 val_main_v61 val_main_v58 val_main_v55 val_main_v49 val_main_v46 val_main_v48 val_main_v47
    val_main_v54 val_main_v53 val_main_v57 val_main_v56 val_main_v60 val_main_v59
  generalize val_main_v43 (F := Ideal) x0 x1 x2 = y
  exact bn_eq y x3 x6 x7 x8 x9

/-! ## The second layer: the first one's operations under other names -/

/-- The second layer lays out the same source words. -/
theorem row2_eq : val_main_v64 (F := Ideal) x1 = val_main_v5 (F := Ideal) x1 := rfl
/-- The second layer lays out the same destination words. -/
theorem col2_eq : val_main_v65 (F := Ideal) x1 = val_main_v6 (F := Ideal) x1 := rfl

/-- The factor array of the second layer is the same function of the destination words. -/
theorem dinv2_eq : val_main_v74 (F := Ideal) x1 = dinvOf (val_main_v6 (F := Ideal) x1) := by
  unfold val_main_v74 val_main_v72 val_main_v73 val_main_call2_v0 val_main_cst_13 val_main_v71 val_main_cst_12
  refine Host.dinv_eq _ _ _ _ ?_
  unfold val_main_v70 val_main_v68 val_main_cst_11 val_main_v69 val_main_v67 val_main_cst_10
  rw [col2_eq]
  generalize val_main_v6 (F := Ideal) x1 = colW
  exact Host.deg_eq _ _ _ _ colW

/-- The second projection is the product of the first hidden table with the second weight matrix. -/
theorem proj2_eq : val_main_v66 (F := Ideal) x0 x1 x2 x3 x4 x6 x7 x8 x9
    = val_main_v7 (F := Ideal) (val_main_v62 (F := Ideal) x0 x1 x2 x3 x6 x7 x8 x9) x4 := rfl

/-- The second aggregate, of the second projection. -/
theorem agg2_eq : val_main_v102 (F := Ideal) x0 x1 x2 x3 x4 x6 x7 x8 x9
    = aggEdge (val_main_v5 (F := Ideal) x1) (val_main_v6 (F := Ideal) x1) (val_main_v74 (F := Ideal) x1)
        (val_main_v66 (F := Ideal) x0 x1 x2 x3 x4 x6 x7 x8 x9) := by
  unfold val_main_v102 val_main_v100 val_main_cst_20 val_main_v101 val_main_v99 val_main_v98 val_main_v90 val_main_v89
    val_main_v81 val_main_v88 val_main_v80 val_main_v87 val_main_v79 val_main_v86 val_main_v76 val_main_v78 val_main_v83 val_main_v85
    val_main_v75 val_main_v77 val_main_v82 val_main_v84 val_main_c_14 val_main_c_15 val_main_c_16 val_main_c_17
    val_main_v97 val_main_v96 val_main_v95 val_main_v92 val_main_v94 val_main_v91 val_main_v93 val_main_c_18 val_main_c_19
  rw [row2_eq, col2_eq]
  generalize val_main_v5 (F := Ideal) x1 = rowW
  generalize val_main_v6 (F := Ideal) x1 = colW
  generalize val_main_v74 (F := Ideal) x1 = d
  generalize val_main_v66 (F := Ideal) x0 x1 x2 x3 x4 x6 x7 x8 x9 = P
  exact Host.aggEdge_eq _ _ _ _ _ _ _ rowW colW d P

/-- The second hidden table is the second per-edge layer of the first hidden table. -/
theorem layer2_eq : val_main_v121 (F := Ideal) x0 x1 x2 x3 x4 x5 x6 x7 x8 x9 x10 x11 x12 x13
    = edgeLayer (val_main_v5 (F := Ideal) x1) (val_main_v6 (F := Ideal) x1) (dinvOf (val_main_v6 (F := Ideal) x1))
        (val_main_v62 (F := Ideal) x0 x1 x2 x3 x6 x7 x8 x9) x4 x5 x10 x11 x12 x13 := by
  unfold edgeLayer
  rw [← proj64_eq, ← proj2_eq, ← dinv2_eq, ← agg2_eq]
  unfold val_main_v121 val_main_v120 val_main_v117 val_main_v114 val_main_v108 val_main_v105 val_main_v104 val_main_v103
    val_main_v107 val_main_v106 val_main_v113 val_main_v112 val_main_v111 val_main_v110 val_main_v109 val_main_cst_21
    val_main_v116 val_main_v115 val_main_v119 val_main_v118 val_main_call3_v0 val_main_call3_cst
  generalize val_main_v102 (F := Ideal) x0 x1 x2 x3 x4 x6 x7 x8 x9 = y
  exact bn_eq y x5 x10 x11 x12 x13

/-! ## The head -/

/-- The head's first dense layer and positive part. -/
theorem head1_eq : val_main_v126 (F := Ideal) x0 x1 x2 x3 x4 x5 x6 x7 x8 x9 x10 x11 x12 x13 x14 x15
    = relu (dense (val_main_v121 (F := Ideal) x0 x1 x2 x3 x4 x5 x6 x7 x8 x9 x10 x11 x12 x13) x14 x15) := by
  unfold val_main_v126 val_main_v125 val_main_v122 val_main_v124 val_main_v123 val_main_call4_v0 val_main_call4_cst
  generalize val_main_v121 (F := Ideal) x0 x1 x2 x3 x4 x5 x6 x7 x8 x9 x10 x11 x12 x13 = h
  refine (relu64_eq _).trans ?_
  exact congrArg relu (dense64_eq h x14 x15)

/-- The head's second dense layer and positive part. -/
theorem head2_eq : val_main_v131 (F := Ideal) x0 x1 x2 x3 x4 x5 x6 x7 x8 x9 x10 x11 x12 x13 x14 x15 x16 x17
    = relu (dense (val_main_v126 (F := Ideal) x0 x1 x2 x3 x4 x5 x6 x7 x8 x9 x10 x11 x12 x13 x14 x15) x16 x17) := by
  unfold val_main_v131 val_main_v130 val_main_v127 val_main_v129 val_main_v128 val_main_call5_v0 val_main_call5_cst
  generalize val_main_v126 (F := Ideal) x0 x1 x2 x3 x4 x5 x6 x7 x8 x9 x10 x11 x12 x13 x14 x15 = h
  refine (relu64_eq _).trans ?_
  exact congrArg relu (dense64_eq h x16 x17)

/-- The head's last dense layer, of 16 columns. -/
theorem head3_eq : val_main_v135 (F := Ideal) x0 x1 x2 x3 x4 x5 x6 x7 x8 x9 x10 x11 x12 x13 x14 x15 x16 x17 x18 x19
    = dense (val_main_v131 (F := Ideal) x0 x1 x2 x3 x4 x5 x6 x7 x8 x9 x10 x11 x12 x13 x14 x15 x16 x17) x18 x19 := by
  funext j
  rw [val_main_v135_apply, val_main_v132_apply, val_main_v134_apply, val_main_v133_apply]
  generalize val_main_v131 (F := Ideal) x0 x1 x2 x3 x4 x5 x6 x7 x8 x9 x10 x11 x12 x13 x14 x15 x16 x17 = h
  show (∑ k : Fin 64, h (lidx_main_v132 j k) * x18 (ridx_main_v132 j k)) + x19 (idx_main_v133 (idx_main_v134 j))
    = (∑ k : Fin 64, h (ix2 (j 0) k) * x18 (ix2 k (j 1))) + x19 (ix1 (j 1))
  have eb : idx_main_v133 (idx_main_v134 j) = ix1 (j 1) := funext fun a => Fin.ext (by match a with | ⟨0, _⟩ => rfl)
  rw [eb]
  refine congrArg (· + x19 (ix1 (j 1))) (Finset.sum_congr rfl fun k _ => ?_)
  have el : lidx_main_v132 j k = ix2 (j 0) k := funext fun a => Fin.ext (by match a with | ⟨0, _⟩ => rfl | ⟨1, _⟩ => rfl)
  have er : ridx_main_v132 j k = ix2 k (j 1) := funext fun a => Fin.ext (by match a with | ⟨0, _⟩ => rfl | ⟨1, _⟩ => rfl)
  rw [el, er]
  rfl

end Net

/-! ## The whole program -/

/-- The plain program's result is the per-edge arrangement of the network, of its argument arrays, with the edge
    words the program itself lays out (the listed edges followed by the self-loops). -/
theorem reference_eq (x0 : (⟨S100000x64, .f32⟩ : BufTy).Contents (Elt Ideal)) (x1 : (⟨S2x1000000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) (x5 x6 x7 x8 x9 x10 x11 x12 x13 : (⟨S64, .f32⟩ : BufTy).Contents (Elt Ideal))
    (x14 : (⟨S64x64, .f32⟩ : BufTy).Contents (Elt Ideal)) (x15 : (⟨S64, .f32⟩ : BufTy).Contents (Elt Ideal))
    (x16 : (⟨S64x64, .f32⟩ : BufTy).Contents (Elt Ideal)) (x17 : (⟨S64, .f32⟩ : BufTy).Contents (Elt Ideal))
    (x18 : (⟨S64x16, .f32⟩ : BufTy).Contents (Elt Ideal)) (x19 : (⟨S16, .f32⟩ : BufTy).Contents (Elt Ideal)) :
    val_main_v135 (F := Ideal) x0 x1 x2 x3 x4 x5 x6 x7 x8 x9 x10 x11 x12 x13 x14 x15 x16 x17 x18 x19
      = Cert.Gcn.edgeNet (val_main_v5 (F := Ideal) x1) (val_main_v6 (F := Ideal) x1) x0
          x2 x3 x6 x7 x8 x9
          x4 x5 x10 x11 x12 x13
          x14 x15 x16 x17 x18 x19 := by
  rw [head3_eq, head2_eq, head1_eq, layer2_eq, layer1_eq]
  rfl

end Cert.ReferenceIdeal.RefValue
end
-- ==== Proof.RunNamed.lean ====
/-
  The idealized tiled program's run with its result array named.

  The program is three tiled regions among stretches of host operations. Its buffer contents at each boundary are a
  fold from the launch memory: a stretch applies its operations, a region leaves in its arrays what its write-backs
  leave. The library's launch theorem over those segments gives, for every weakly fair execution, a final state
  whose unscoped buffers hold the last boundary's contents; read at the result array and at the twenty arguments,
  that is the statement below: the result is the last boundary's contents at the result array, the arguments end as
  launched.
-/
import proofs.«155145_j34754875359294_2_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the tiled program terminates without a fault, and in its final state every
    unscoped buffer of every core holds the last boundary's contents. -/
theorem run_final : θ_run defs (onTc (τ := τ) (main (F := F))) ⟨m, fun _ => 0, ρ⟩
    (fun r => ∀ c : Dev nD, ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The same run read at the result array and at the twenty argument arrays: the result is the last boundary's
    contents there, and no stretch and no region writes an argument. -/
theorem run_named : θ_run defs (onTc (τ := τ) (main (F := F))) ⟨m, fun _ => 0, ρ⟩ (fun r => ∀ c : Dev nD,
      r.2.mem ((c.tc : Thread nD τ).loc main_v38) = W8 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun s h c =>
      ⟨h c _ (mem_uc main_v38 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c)⟩)
    (run_final m ρ)

end Cert.KernelIdeal.RunNamed

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.LibKeepdims.lean ====
/-
  Two layout operations of a "keep the reduced axis" column, read at an index.

  A vector of `a` numbers cast to an `[a, 1]` column keeps entry `i` at `(i, 0)`: both have row-major position `i`.
  An `[a, 1]` column broadcast to `[a, b]` copies entry `(p, 0)` along row `p`.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Idealize.ShloMosaic.Keepdims
-- ==== Proof.RegionLemmas.lean ====
/-
  Small facts the three dense stages share, each an operation of a row tile read at one entry.

  A column of per-row factors, kept as an `[a, 1]` table, is spread along the rows of an `[a, b]` tile: entry `(p, c)`
  reads the factor of row `p`. A vector of `b` per-column numbers, cast to one row and spread down an `[a, b]` tile,
  reads at `(p, c)` its entry `c`. The product of a `[5000, 64]` tile with a `[64, C]` weight matrix into the zero
  accumulator has at `(p, q)` the sum over `k` of `l(p, k) · r(k, q)`.
-/
import proofs.«155145_j34754875359294_2_alg».proof.Proof.Gen.KernelIdeal.Frame
import proofs.«155145_j34754875359294_2_alg».proof.Proof.LibMatmul
import proofs.«155145_j34754875359294_2_alg».proof.Proof.LibKeepdims
import Idealize.ShloMosaic.Lib.ValueLayout
import Idealize.ShloMosaic.Lib.Pipeline.Value

set_option maxRecDepth 16384

open scoped BigOperators

noncomputable section

namespace Cert.KernelIdeal.RegionLemmas

open Idealize.ShloMosaic Idealize.ShloMosaic.ValueIdx Cert.KernelIdeal

/-- The zero offsets of a rank-2 rectangle, as a constant function. -/
theorem zeros2 : (![0, 0] : Fin 2 → Nat) = fun _ => 0 := funext fun a => by fin_cases a <;> rfl

/-- The zero offset of a rank-1 rectangle, as a constant function. -/
theorem zeros1 : (![0] : Fin 1 → Nat) = fun _ => 0 := funext fun a => by fin_cases a; rfl

section Layout
variable {α : Type}

/-- An `[a, 1]` column, cast to its own shape and spread along the rows of an `[a, b]` tile, reads at `(p, c)` the
    column's entry of row `p`. -/
theorem column_spread_apply {a b : ℕ} (v : (⟨2, ![a, 1]⟩ : Shape).Idx → α)
    (h1 : (⟨2, ![a, 1]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ v h1) h2 (ix2 p c) = v (ix2 p (0 : Fin 1)) := by
  rw [shapeCast_self]
  exact Keepdims.broadcastTo_a1_ab_apply v h2 p c 0

/-- A vector of `b` numbers, cast to one row and spread down an `[a, b]` tile, reads at `(p, c)` its entry `c`. -/
theorem row_spread_apply {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

end Layout

/-- The dimension numbers of the `[5000, 64] · [64, 64]` product are the plain ones. -/
theorem dot64_plain : dot_S5000x64_S64x64_S5000x64_1_0_0_1_n_n = DotDims.plain 5000 64 64 := rfl

/-- The dimension numbers of the `[5000, 64] · [64, 16]` product are the plain ones. -/
theorem dot16_plain : dot_S5000x64_S64x16_S5000x16_1_0_0_1_n_n = DotDims.plain 5000 64 16 := rfl

/-- The product of a tile with a `[64, 64]` matrix into the zero accumulator, at `(p, q)`. -/
theorem matmul64_apply {φ₁ φ₂ : FTy} (l : FVec Ideal S5000x64 φ₁) (r : FVec Ideal S64x64 φ₂) (p : Fin 5000) (q : Fin 64) :
    matmul (F := Ideal) dot_S5000x64_S64x64_S5000x64_1_0_0_1_n_n none l r (constant S5000x64 .f32 0x00000000#32) (ix2 p q)
      = ∑ k : Fin 64, l (ix2 p k) * r (ix2 k q) := by
  rw [dot64_plain]
  exact Cert.MatOps.matmul_plain_zero_apply none l r p q

/-- The product of a tile with a `[64, 16]` matrix into the zero accumulator, at `(p, q)`. -/
theorem matmul16_apply {φ₁ φ₂ : FTy} (l : FVec Ideal S5000x64 φ₁) (r : FVec Ideal S64x16 φ₂) (p : Fin 5000) (q : Fin 16) :
    matmul (F := Ideal) dot_S5000x64_S64x16_S5000x16_1_0_0_1_n_n none l r (constant S5000x16 .f32 0x00000000#32) (ix2 p q)
      = ∑ k : Fin 64, l (ix2 p k) * r (ix2 k q) := by
  rw [dot16_plain]
  exact Cert.MatOps.matmul_plain_zero_apply none l r p q

/-- The reciprocal square root of a vector, entry by entry. -/
theorem rsqrt_apply {s : Shape} {φ : FTy} (v : FVec Ideal s φ) (i : s.Idx) : rsqrt v i = Ideal.rsqrt (v i) := rfl

end Cert.KernelIdeal.RegionLemmas

end
-- ==== Proof.Region0.lean ====
/-
  The first dense stage of the tiled graph convolution, as one function of the whole arrays.

  The stage runs over 20 row tiles of 5000 rows. At tile `t` it reads rows `5000 t … 5000 t + 4999` of the feature
  table `x` and of the one-column table `d` of per-node factors, and the whole `[64, 64]` weight matrix `w`; it leaves,
  at row `p` and column `q` of the tile, the sum over `k` of `x(5000 t + p, k) · w(k, q)`, times `d(5000 t + p, 0)`.
  That is entry `(5000 t + p, q)` of `stage0 x w d`. Every row `r` of the result lies in tile `r / 5000`, so after
  the 20 tiles the result array is `stage0 x w d`.
-/
import proofs.«155145_j34754875359294_2_alg».proof.Proof.Gen.KernelIdeal.Frame
import proofs.«155145_j34754875359294_2_alg».proof.Proof.Spec
import proofs.«155145_j34754875359294_2_alg».proof.Proof.RegionLemmas
import Idealize.ShloMosaic.Lib.Pipeline.Value

set_option maxRecDepth 16384

open scoped BigOperators

noncomputable section

namespace Cert.KernelIdeal.RegionValue

open Idealize.ShloMosaic Idealize.ShloMosaic.TcCoe Idealize.SL.Sem Cert.KernelIdeal Cert.KernelIdeal.Gen
open Idealize.ShloMosaic.ValueIdx Cert.KernelIdeal.RegionLemmas

variable (V : (c : Dev nD) → (b : Ref sig .tc) → Buf (Elt Ideal) ((c : Thread nD τ).loc b))

/-! ## One entry of a tile -/

/-- What the stage leaves at row `p`, column `q` of a tile, from the tile of features `x`, the weights `w` and the
    tile of factors `d`: row `p` of `x` against column `q` of `w`, times the factor of row `p`. The change of
    float format in front of the product is the identity on the extended reals. -/
theorem proj_tile_apply (x : Vec Ideal S5000x64 .f32) (w : Vec Ideal S64x64 .f32) (d : Vec Ideal S5000x1 .f32)
    (p : Fin 5000) (q : Fin 64) :
    k0_pay1 x w d (ix2 p q) = (∑ k : Fin 64, x (ix2 p k) * w (ix2 k q)) * d (ix2 p (0 : Fin 1)) := by
  unfold k0_pay1
  rw [mulf_apply, matmul64_apply, column_spread_apply]
  rfl

/-- `stage0` at an index whose row is `r` and whose column is `q`. -/
theorem stage0_at (A : FVec Ideal Cert.Gcn.SNx64 .f32) (W : FVec Ideal ⟨2, ![64, 64]⟩ .f32) (D : FVec Ideal Cert.Gcn.SNx1 .f32)
    (i : Cert.Gcn.SNx64.Idx) (r : Fin 100000) (q : Fin 64) (h0 : i 0 = r) (h1 : i 1 = q) :
    Cert.Gcn.stage0 A W D i = (∑ k : Fin 64, A (ix2 r k) * W (ix2 k q)) * D (ix2 r (0 : Fin 1)) := by
  subst h0 h1
  rfl

/-! ## Where each tile sits in its array -/

/-- At the `t`-th of the 20 tiles the features, the factors and the result are at block row `t` (block column 0), the
    weights at block (0, 0): decided tile by tile. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Entry `y` of the feature tile `t` is the feature table at row `5000 t + y₀`, column `y₁`. -/
theorem tile0_x (c : Dev nD) (t : Fin cfg0.N) (y : S5000x64.Idx) (i : S100000x64.Idx)
    (h0 : (i 0).val = t.val * 5000 + (y 0).val) (h1 : (i 1).val = (y 1).val) :
    (iblk0 V c 0 t : Vec Ideal S5000x64 .f32) y = (V c main_arg0 : S100000x64.Idx → EReal) i := by
  obtain ⟨e0, e1, -⟩ := index_facts0 t
  unfold iblk0
  rw [View.read_apply]
  show V c main_arg0 _ = V c main_arg0 _
  congr 1
  funext a
  apply Fin.ext
  match a with
  | ⟨0, _⟩ => show win0_0.index t 0 * 5000 + 1 * (y 0).val = (i 0).val; rw [e0, h0]; omega
  | ⟨1, _⟩ => show win0_0.index t 1 * 64 + 1 * (y 1).val = (i 1).val; rw [e1, h1]; omega

/-- The weights are read whole at every tile. -/
theorem tile0_w (c : Dev nD) (t : Fin cfg0.N) (y : S64x64.Idx) :
    (iblk0 V c 1 t : Vec Ideal S64x64 .f32) y = (V c main_arg2 : S64x64.Idx → EReal) y := by
  obtain ⟨-, -, e0, e1, -⟩ := index_facts0 t
  unfold iblk0
  rw [View.read_apply]
  show V c main_arg2 _ = V c main_arg2 _
  congr 1
  funext a
  apply Fin.ext
  match a with
  | ⟨0, _⟩ => show win0_1.index t 0 * 64 + 1 * (y 0).val = (y 0).val; rw [e0]; omega
  | ⟨1, _⟩ => show win0_1.index t 1 * 64 + 1 * (y 1).val = (y 1).val; rw [e1]; omega

/-- Entry `y` of the factor tile `t` is the column of factors at row `5000 t + y₀`. -/
theorem tile0_d (c : Dev nD) (t : Fin cfg0.N) (y : S5000x1.Idx) (i : S100000x1.Idx)
    (h0 : (i 0).val = t.val * 5000 + (y 0).val) (h1 : (i 1).val = (y 1).val) :
    (iblk0 V c 2 t : Vec Ideal S5000x1 .f32) y = (V c main_v15 : S100000x1.Idx → EReal) i := by
  obtain ⟨-, -, -, -, e0, e1, -⟩ := index_facts0 t
  unfold iblk0
  rw [View.read_apply]
  show V c main_v15 _ = V c main_v15 _
  congr 1
  funext a
  apply Fin.ext
  match a with
  | ⟨0, _⟩ => show win0_2.index t 0 * 5000 + 1 * (y 0).val = (i 0).val; rw [e0, h0]; omega
  | ⟨1, _⟩ => show win0_2.index t 1 * 1 + 1 * (y 1).val = (i 1).val; rw [e1, h1]; omega

/-! ## From the tiles to the array -/

/-- What tile `t` writes into the result is rows `5000 t … 5000 t + 4999` of `stage0` of the three arrays. -/
theorem flushed0_eq (c : Dev nD) (t : Fin cfg0.N) :
    (dat0 (F := Ideal) V c).flushed 3 t
      = ((cfg0.win 3).blk t).view.read (Elt Ideal) (Cert.Gcn.stage0 (V c main_arg0) (V c main_arg2) (V c main_v15)) := by
  show (cfg0.win 3).cut (grid0.coords t) ((dat0 (F := Ideal) V c).after 3 t) = _
  rw [after0_3]
  unfold out0_3
  rw [View.canon_unit_zero zeros2]
  simp only [View.ld_unit_zero (S := S5000x64) zeros2, View.ld_unit_zero (S := S64x64) zeros2,
    View.ld_unit_zero (S := S5000x1) zeros2]
  obtain ⟨-, -, -, -, -, -, e0, e1⟩ := index_facts0 t
  have hN : t.val < 20 := lt_of_lt_of_eq t.isLt N_0
  funext j
  obtain ⟨p, q, rfl⟩ : ∃ (p : Fin 5000) (q : Fin 64), j = ix2 p q := ⟨j 0, j 1, eq_ix2 j⟩
  show k0_pay1 (iblk0 V c 0 t) (iblk0 V c 1 t) (iblk0 V c 2 t) (ix2 p q)
    = Cert.Gcn.stage0 (V c main_arg0) (V c main_arg2) (V c main_v15) (((cfg0.win 3).blk t).view.emb (ix2 p q))
  -- the tile's entry (p, q) sits in the array at row 5000 t + p, column q
  have hi0 : ((((cfg0.win 3).blk t).view.emb (ix2 p q)) 0).val = t.val * 5000 + p.val := by
    show win0_3.index t 0 * 5000 + 1 * p.val = _
    rw [e0]; omega
  have hi1 : ((((cfg0.win 3).blk t).view.emb (ix2 p q)) 1).val = q.val := by
    show win0_3.index t 1 * 64 + 1 * q.val = _
    rw [e1]; omega
  have hr : t.val * 5000 + p.val < 100000 := by have := p.isLt; omega
  refine ((proj_tile_apply (iblk0 V c 0 t) (iblk0 V c 1 t) (iblk0 V c 2 t) p q).trans ?_).trans
    (stage0_at (V c main_arg0) (V c main_arg2) (V c main_v15) _ ⟨t.val * 5000 + p.val, hr⟩ q (Fin.ext hi0) (Fin.ext hi1)).symm
  exact congrArg₂ (· * ·)
    (Finset.sum_congr rfl fun k _ => congrArg₂ (· * ·)
      (tile0_x V c t (ix2 p k) (ix2 ⟨t.val * 5000 + p.val, hr⟩ k) rfl rfl) (tile0_w V c t (ix2 k q)))
    (tile0_d V c t (ix2 p (0 : Fin 1)) (ix2 ⟨t.val * 5000 + p.val, hr⟩ (0 : Fin 1)) rfl rfl)

/-- An index of the result is in tile `t` iff each coordinate is in the tile's range on its axis. -/
theorem mem_tile0 (t : Fin cfg0.N) (i : S100000x64.Idx) :
    i ∈ ((cfg0.win 3).blk t).view.set
      ↔ ∀ a : Fin 2, win0_3.index t a * S5000x64.size a ≤ (i a).val ∧ (i a).val < win0_3.index t a * S5000x64.size a + S5000x64.size a := by
  show i ∈ ((View.whole main_v16).slice (win0_3.rect t)).set ↔ _
  rw [View.set_slice_whole, Rect.mem_set_unit]
  exact Iff.rfl

/-- Every index of the result is in a tile: row `r` in tile `r / 5000`. -/
theorem tiles_cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨-, -, -, -, -, -, e0, e1⟩ := index_facts0 t
  have ht : t.val = (i 0).val / 5000 := rfl
  refine ⟨t, flush0_3 t, ?_⟩
  rw [mem_tile0]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 64 ≤ (i 1).val ∧ (i 1).val < win0_3.index t (1 : Fin 2) * 64 + 64
    rw [e1]; omega

/-- After the 20 tiles the result array is `stage0` of the features, the weights and the column of factors. -/
theorem final0 (c : Dev nD) :
    (dat0 (F := Ideal) V c).arrAt 3 cfg0.N = Cert.Gcn.stage0 (V c main_arg0) (V c main_arg2) (V c main_v15) :=
  (dat0 (F := Ideal) V c).arrAt_eq_of_cover 3 _ (fun t _ => flushed0_eq V c t) tiles_cover0

end Cert.KernelIdeal.RegionValue

end
-- ==== Proof.Region1.lean ====
/-
  The second dense stage of the tiled graph convolution, as one function of the whole arrays.

  The stage runs over 20 row tiles of 5000 rows. At tile `t` it reads rows `5000 t … 5000 t + 4999` of the aggregate
  `agg` and of the one-column table `d` of per-node factors, and, whole, the bias `b`, the batch-norm scale `g`, shift
  `be`, mean `mu` and variance `v` (64 numbers each) and the `[64, 64]` weight matrix `w`. Row `p` of the tile is first
  turned into a hidden row, column by column,

      max (((agg(r, k) · d(r, 0) + b(k) − mu(k)) · rsqrt(v(k) + ε)) · g(k) + be(k), 0),     r = 5000 t + p,

  and the tile leaves at `(p, q)` the sum over `k` of that hidden row against column `q` of `w`, times `d(r, 0)` again.
  That is entry `(r, q)` of `stage1 agg d b g be mu v w`. Every row `r` of the result lies in tile `r / 5000`, so
  after the 20 tiles the result array is `stage1 agg d b g be mu v w`.
-/
import proofs.«155145_j34754875359294_2_alg».proof.Proof.Gen.KernelIdeal.Frame
import proofs.«155145_j34754875359294_2_alg».proof.Proof.Spec
import proofs.«155145_j34754875359294_2_alg».proof.Proof.RegionLemmas
import Idealize.ShloMosaic.Lib.Pipeline.Value

set_option maxRecDepth 16384

open scoped BigOperators

noncomputable section

namespace Cert.KernelIdeal.RegionValue

open Idealize.ShloMosaic Idealize.ShloMosaic.TcCoe Idealize.SL.Sem Cert.KernelIdeal Cert.KernelIdeal.Gen
open Idealize.ShloMosaic.ValueIdx Cert.KernelIdeal.RegionLemmas

variable (V : (c : Dev nD) → (b : Ref sig .tc) → Buf (Elt Ideal) ((c : Thread nD τ).loc b))

/-! ## One entry of a tile -/

/-- Entry `(p, k)` of the hidden tile: the aggregate scaled by the row's factor, then bias, batch-norm and relu. -/
def hiddenTile (a : Vec Ideal S5000x64 .f32) (d : Vec Ideal S5000x1 .f32) (b g be mu v : Vec Ideal S64 .f32)
    (p : Fin 5000) (k : Fin 64) : EReal :=
  max ((((((a (ix2 p k) * d (ix2 p (0 : Fin 1))) + b (ix1 k)) - mu (ix1 k)) * Ideal.rsqrt (v (ix1 k) + Cert.Gcn.epsF)) * g (ix1 k)) + be (ix1 k)) Cert.Gcn.zeroF

/-- What the stage leaves at row `p`, column `q` of a tile: row `p` of the hidden tile against column `q` of the weights
    `w`, times the factor of row `p` (the factor tile is read a second time, as `d'`). The vectors enter spread down
    the rows, the factors spread along them; the change of float format in front of the product is the identity on
    the extended reals, and the two float constants are the epsilon and the zero of the specification. -/
theorem bn_proj_tile_apply (a : Vec Ideal S5000x64 .f32) (d : Vec Ideal S5000x1 .f32) (b mu v g be : Vec Ideal S64 .f32)
    (w : Vec Ideal S64x64 .f32) (d' : Vec Ideal S5000x1 .f32) (p : Fin 5000) (q : Fin 64) :
    k1_pay1 a d b mu v g be w d' (ix2 p q)
      = (∑ k : Fin 64, hiddenTile a d b g be mu v p k * w (ix2 k q)) * d' (ix2 p (0 : Fin 1)) := by
  unfold k1_pay1
  rw [mulf_apply, matmul64_apply, column_spread_apply]
  refine congrArg₂ (· * ·) (Finset.sum_congr rfl fun k _ => congrArg₂ (· * ·) ?_ rfl) rfl
  simp only [truncf_apply, maximumf_apply, addf_apply, subf_apply, mulf_apply, row_spread_apply, column_spread_apply,
    broadcast_apply, rsqrt_apply]
  rw [shapeCast_self]
  rfl

/-- `stage1` at an index whose row is `r` and whose column is `q`. -/
theorem stage1_at (A : FVec Ideal Cert.Gcn.SNx64 .f32) (D : FVec Ideal Cert.Gcn.SNx1 .f32) (B G Be Mu Vr : FVec Ideal Cert.Gcn.S64v .f32)
    (W : FVec Ideal ⟨2, ![64, 64]⟩ .f32) (i : Cert.Gcn.SNx64.Idx) (r : Fin 100000) (q : Fin 64) (h0 : i 0 = r) (h1 : i 1 = q) :
    Cert.Gcn.stage1 A D B G Be Mu Vr W i
      = (∑ k : Fin 64, Cert.Gcn.hidden A D B G Be Mu Vr (ix2 r k) * W (ix2 k q)) * D (ix2 r (0 : Fin 1)) := by
  subst h0 h1
  rfl

/-- The hidden tile's entry is the hidden table's, once the tile's entries are the arrays'. -/
theorem hiddenTile_eq (a : Vec Ideal S5000x64 .f32) (d : Vec Ideal S5000x1 .f32) (b g be mu v : Vec Ideal S64 .f32)
    (A : FVec Ideal Cert.Gcn.SNx64 .f32) (D : FVec Ideal Cert.Gcn.SNx1 .f32) (B G Be Mu Vr : FVec Ideal Cert.Gcn.S64v .f32)
    (p : Fin 5000) (k : Fin 64) (r : Fin 100000)
    (ha : a (ix2 p k) = A (ix2 r k)) (hd : d (ix2 p (0 : Fin 1)) = D (ix2 r (0 : Fin 1)))
    (hb : b (ix1 k) = B (ix1 k)) (hg : g (ix1 k) = G (ix1 k)) (hbe : be (ix1 k) = Be (ix1 k))
    (hmu : mu (ix1 k) = Mu (ix1 k)) (hv : v (ix1 k) = Vr (ix1 k)) :
    hiddenTile a d b g be mu v p k = Cert.Gcn.hidden A D B G Be Mu Vr (ix2 r k) := by
  unfold hiddenTile
  rw [ha, hd, hb, hg, hbe, hmu, hv]
  rfl

/-! ## Where each tile sits in its array -/

/-- At the `t`-th of the 20 tiles the aggregate, the factors and the result are at block row `t` (block column 0); the
    five vectors and the weights are whole, at block 0: decided tile by tile. -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = 0 ∧ win1_3.index t (0 : Fin 1) = 0 ∧ win1_4.index t (0 : Fin 1) = 0
    ∧ win1_5.index t (0 : Fin 1) = 0 ∧ win1_6.index t (0 : Fin 1) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- Entry `y` of the aggregate's tile `t` is the aggregate at row `5000 t + y₀`, column `y₁`. -/
theorem tile1_a (c : Dev nD) (t : Fin cfg1.N) (y : S5000x64.Idx) (i : S100000x64.Idx)
    (h0 : (i 0).val = t.val * 5000 + (y 0).val) (h1 : (i 1).val = (y 1).val) :
    (iblk1 V c 0 t : Vec Ideal S5000x64 .f32) y = (V c main_v26 : S100000x64.Idx → EReal) i := by
  obtain ⟨e0, e1, -⟩ := index_facts1 t
  unfold iblk1
  rw [View.read_apply]
  show V c main_v26 _ = V c main_v26 _
  congr 1
  funext a
  apply Fin.ext
  match a with
  | ⟨0, _⟩ => show win1_0.index t 0 * 5000 + 1 * (y 0).val = (i 0).val; rw [e0, h0]; omega
  | ⟨1, _⟩ => show win1_0.index t 1 * 64 + 1 * (y 1).val = (i 1).val; rw [e1, h1]; omega

/-- Entry `y` of the factor tile `t` is the column of factors at row `5000 t + y₀`. -/
theorem tile1_d (c : Dev nD) (t : Fin cfg1.N) (y : S5000x1.Idx) (i : S100000x1.Idx)
    (h0 : (i 0).val = t.val * 5000 + (y 0).val) (h1 : (i 1).val = (y 1).val) :
    (iblk1 V c 1 t : Vec Ideal S5000x1 .f32) y = (V c main_v15 : S100000x1.Idx → EReal) i := by
  obtain ⟨-, -, e0, e1, -⟩ := index_facts1 t
  unfold iblk1
  rw [View.read_apply]
  show V c main_v15 _ = V c main_v15 _
  congr 1
  funext a
  apply Fin.ext
  match a with
  | ⟨0, _⟩ => show win1_1.index t 0 * 5000 + 1 * (y 0).val = (i 0).val; rw [e0, h0]; omega
  | ⟨1, _⟩ => show win1_1.index t 1 * 1 + 1 * (y 1).val = (i 1).val; rw [e1, h1]; omega

/-- The vector `b` is read whole at every tile. -/
theorem tile1_b (c : Dev nD) (t : Fin cfg1.N) (y : S64.Idx) :
    (iblk1 V c 2 t : Vec Ideal S64 .f32) y = (V c main_arg3 : S64.Idx → EReal) y := by
  have e0 : win1_2.index t (0 : Fin 1) = 0 := (index_facts1 t).2.2.2.2.1
  unfold iblk1
  rw [View.read_apply]
  show V c main_arg3 _ = V c main_arg3 _
  congr 1
  funext a
  apply Fin.ext
  match a with
  | ⟨0, _⟩ => show win1_2.index t 0 * 64 + 1 * (y 0).val = (y 0).val; rw [e0]; omega

/-- The vector `g` is read whole at every tile. -/
theorem tile1_g (c : Dev nD) (t : Fin cfg1.N) (y : S64.Idx) :
    (iblk1 V c 3 t : Vec Ideal S64 .f32) y = (V c main_arg6 : S64.Idx → EReal) y := by
  have e0 : win1_3.index t (0 : Fin 1) = 0 := (index_facts1 t).2.2.2.2.2.1
  unfold iblk1
  rw [View.read_apply]
  show V c main_arg6 _ = V c main_arg6 _
  congr 1
  funext a
  apply Fin.ext
  match a with
  | ⟨0, _⟩ => show win1_3.index t 0 * 64 + 1 * (y 0).val = (y 0).val; rw [e0]; omega

/-- The vector `be` is read whole at every tile. -/
theorem tile1_be (c : Dev nD) (t : Fin cfg1.N) (y : S64.Idx) :
    (iblk1 V c 4 t : Vec Ideal S64 .f32) y = (V c main_arg7 : S64.Idx → EReal) y := by
  have e0 : win1_4.index t (0 : Fin 1) = 0 := (index_facts1 t).2.2.2.2.2.2.1
  unfold iblk1
  rw [View.read_apply]
  show V c main_arg7 _ = V c main_arg7 _
  congr 1
  funext a
  apply Fin.ext
  match a with
  | ⟨0, _⟩ => show win1_4.index t 0 * 64 + 1 * (y 0).val = (y 0).val; rw [e0]; omega

/-- The vector `mu` is read whole at every tile. -/
theorem tile1_mu (c : Dev nD) (t : Fin cfg1.N) (y : S64.Idx) :
    (iblk1 V c 5 t : Vec Ideal S64 .f32) y = (V c main_arg8 : S64.Idx → EReal) y := by
  have e0 : win1_5.index t (0 : Fin 1) = 0 := (index_facts1 t).2.2.2.2.2.2.2.1
  unfold iblk1
  rw [View.read_apply]
  show V c main_arg8 _ = V c main_arg8 _
  congr 1
  funext a
  apply Fin.ext
  match a with
  | ⟨0, _⟩ => show win1_5.index t 0 * 64 + 1 * (y 0).val = (y 0).val; rw [e0]; omega

/-- The vector `v` is read whole at every tile. -/
theorem tile1_v (c : Dev nD) (t : Fin cfg1.N) (y : S64.Idx) :
    (iblk1 V c 6 t : Vec Ideal S64 .f32) y = (V c main_arg9 : S64.Idx → EReal) y := by
  have e0 : win1_6.index t (0 : Fin 1) = 0 := (index_facts1 t).2.2.2.2.2.2.2.2.1
  unfold iblk1
  rw [View.read_apply]
  show V c main_arg9 _ = V c main_arg9 _
  congr 1
  funext a
  apply Fin.ext
  match a with
  | ⟨0, _⟩ => show win1_6.index t 0 * 64 + 1 * (y 0).val = (y 0).val; rw [e0]; omega

/-- The weights are read whole at every tile. -/
theorem tile1_w (c : Dev nD) (t : Fin cfg1.N) (y : S64x64.Idx) :
    (iblk1 V c 7 t : Vec Ideal S64x64 .f32) y = (V c main_arg4 : S64x64.Idx → EReal) y := by
  obtain ⟨-, -, -, -, -, -, -, -, -, e0, e1, -⟩ := index_facts1 t
  unfold iblk1
  rw [View.read_apply]
  show V c main_arg4 _ = V c main_arg4 _
  congr 1
  funext a
  apply Fin.ext
  match a with
  | ⟨0, _⟩ => show win1_7.index t 0 * 64 + 1 * (y 0).val = (y 0).val; rw [e0]; omega
  | ⟨1, _⟩ => show win1_7.index t 1 * 64 + 1 * (y 1).val = (y 1).val; rw [e1]; omega

/-! ## From the tiles to the array -/

/-- What tile `t` writes into the result is rows `5000 t … 5000 t + 4999` of `stage1` of the eight arrays. -/
theorem flushed1_eq (c : Dev nD) (t : Fin cfg1.N) :
    (dat1 (F := Ideal) V c).flushed 8 t
      = ((cfg1.win 8).blk t).view.read (Elt Ideal)
          (Cert.Gcn.stage1 (V c main_v26) (V c main_v15) (V c main_arg3) (V c main_arg6) (V c main_arg7) (V c main_arg8) (V c main_arg9) (V c main_arg4)) := by
  show (cfg1.win 8).cut (grid1.coords t) ((dat1 (F := Ideal) V c).after 8 t) = _
  rw [after1_8]
  unfold out1_8
  rw [View.canon_unit_zero zeros2]
  simp only [View.ld_unit_zero (S := S5000x64) zeros2, View.ld_unit_zero (S := S64x64) zeros2,
    View.ld_unit_zero (S := S5000x1) zeros2, View.ld_unit_zero (S := S64) zeros1]
  have e0 : win1_8.index t (0 : Fin 2) = t.val := (index_facts1 t).2.2.2.2.2.2.2.2.2.2.2.1
  have e1 : win1_8.index t (1 : Fin 2) = 0 := (index_facts1 t).2.2.2.2.2.2.2.2.2.2.2.2
  have hN : t.val < 20 := lt_of_lt_of_eq t.isLt N_1
  funext j
  obtain ⟨p, q, rfl⟩ : ∃ (p : Fin 5000) (q : Fin 64), j = ix2 p q := ⟨j 0, j 1, eq_ix2 j⟩
  show k1_pay1 (iblk1 V c 0 t) (iblk1 V c 1 t) (iblk1 V c 2 t) (iblk1 V c 5 t) (iblk1 V c 6 t) (iblk1 V c 3 t) (iblk1 V c 4 t)
      (iblk1 V c 7 t) (iblk1 V c 1 t) (ix2 p q)
    = Cert.Gcn.stage1 (V c main_v26) (V c main_v15) (V c main_arg3) (V c main_arg6) (V c main_arg7) (V c main_arg8) (V c main_arg9)
        (V c main_arg4) (((cfg1.win 8).blk t).view.emb (ix2 p q))
  -- the tile's entry (p, q) sits in the array at row 5000 t + p, column q
  have hi0 : ((((cfg1.win 8).blk t).view.emb (ix2 p q)) 0).val = t.val * 5000 + p.val := by
    show win1_8.index t 0 * 5000 + 1 * p.val = _
    rw [e0]; omega
  have hi1 : ((((cfg1.win 8).blk t).view.emb (ix2 p q)) 1).val = q.val := by
    show win1_8.index t 1 * 64 + 1 * q.val = _
    rw [e1]; omega
  have hr : t.val * 5000 + p.val < 100000 := by have := p.isLt; omega
  refine ((bn_proj_tile_apply (iblk1 V c 0 t) (iblk1 V c 1 t) (iblk1 V c 2 t) (iblk1 V c 5 t) (iblk1 V c 6 t) (iblk1 V c 3 t)
      (iblk1 V c 4 t) (iblk1 V c 7 t) (iblk1 V c 1 t) p q).trans ?_).trans
    (stage1_at (V c main_v26) (V c main_v15) (V c main_arg3) (V c main_arg6) (V c main_arg7) (V c main_arg8) (V c main_arg9)
      (V c main_arg4) _ ⟨t.val * 5000 + p.val, hr⟩ q (Fin.ext hi0) (Fin.ext hi1)).symm
  have hd := tile1_d V c t (ix2 p (0 : Fin 1)) (ix2 ⟨t.val * 5000 + p.val, hr⟩ (0 : Fin 1)) rfl rfl
  exact congrArg₂ (· * ·)
    (Finset.sum_congr rfl fun k _ => congrArg₂ (· * ·)
      (hiddenTile_eq (iblk1 V c 0 t) (iblk1 V c 1 t) (iblk1 V c 2 t) (iblk1 V c 3 t) (iblk1 V c 4 t) (iblk1 V c 5 t) (iblk1 V c 6 t)
        (V c main_v26) (V c main_v15) (V c main_arg3) (V c main_arg6) (V c main_arg7) (V c main_arg8) (V c main_arg9)
        p k ⟨t.val * 5000 + p.val, hr⟩
        (tile1_a V c t (ix2 p k) (ix2 ⟨t.val * 5000 + p.val, hr⟩ k) rfl rfl) hd
        (tile1_b V c t (ix1 k)) (tile1_g V c t (ix1 k)) (tile1_be V c t (ix1 k)) (tile1_mu V c t (ix1 k)) (tile1_v V c t (ix1 k)))
      (tile1_w V c t (ix2 k q)))
    hd

/-- An index of the result is in tile `t` iff each coordinate is in the tile's range on its axis. -/
theorem mem_tile1 (t : Fin cfg1.N) (i : S100000x64.Idx) :
    i ∈ ((cfg1.win 8).blk t).view.set
      ↔ ∀ a : Fin 2, win1_8.index t a * S5000x64.size a ≤ (i a).val ∧ (i a).val < win1_8.index t a * S5000x64.size a + S5000x64.size a := by
  show i ∈ ((View.whole main_v27).slice (win1_8.rect t)).set ↔ _
  rw [View.set_slice_whole, Rect.mem_set_unit]
  exact Iff.rfl

/-- Every index of the result is in a tile: row `r` in tile `r / 5000`. -/
theorem tiles_cover1 (i : S100000x64.Idx) :
    ∃ t : Fin cfg1.N, (cfg1.win 8).flush t = true ∧ i ∈ ((cfg1.win 8).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  have e0 : win1_8.index t (0 : Fin 2) = t.val := (index_facts1 t).2.2.2.2.2.2.2.2.2.2.2.1
  have e1 : win1_8.index t (1 : Fin 2) = 0 := (index_facts1 t).2.2.2.2.2.2.2.2.2.2.2.2
  have ht : t.val = (i 0).val / 5000 := rfl
  refine ⟨t, flush1_8 t, ?_⟩
  rw [mem_tile1]
  intro a
  match a with
  | ⟨0, _⟩ =>
    show win1_8.index t (0 : Fin 2) * 5000 ≤ (i 0).val ∧ (i 0).val < win1_8.index t (0 : Fin 2) * 5000 + 5000
    rw [e0, ht]; omega
  | ⟨1, _⟩ =>
    show win1_8.index t (1 : Fin 2) * 64 ≤ (i 1).val ∧ (i 1).val < win1_8.index t (1 : Fin 2) * 64 + 64
    rw [e1]; omega

/-- After the 20 tiles the result array is `stage1` of the aggregate, the column of factors, the five vectors and the weights. -/
theorem final1 (c : Dev nD) :
    (dat1 (F := Ideal) V c).arrAt 8 cfg1.N
      = Cert.Gcn.stage1 (V c main_v26) (V c main_v15) (V c main_arg3) (V c main_arg6) (V c main_arg7) (V c main_arg8) (V c main_arg9) (V c main_arg4) :=
  (dat1 (F := Ideal) V c).arrAt_eq_of_cover 8 _ (fun t _ => flushed1_eq V c t) tiles_cover1

end Cert.KernelIdeal.RegionValue

end
-- ==== Proof.Region2.lean ====
/-
  The third dense stage of the network — the hidden table of the second aggregate through the three dense layers of
  the head — as ONE function of the arrays the stage reads.

  The stage runs over 20 points; point `t` stages rows `5000·t … 5000·t + 4999` of the aggregate and of the column of
  per-node factors, the vectors and weight matrices whole, and writes back rows `5000·t … 5000·t + 4999` of the
  result. Entry `(p, q)` of what a point stores depends only on row `p` of the two row blocks and on the whole weights:
  the hidden row is formed entry by entry (scale by the node's factor, bias, batch-norm, relu), and each dense layer
  contracts the row before it against a weight matrix and adds a bias, with a relu after the first two. A change of
  float format is the identity on the extended reals, and the matrix unit's product into a zero accumulator is the
  plain sum over the contracted axis. So the stored block is the block of the whole-array function `Cert.Gcn.stage2`,
  and since the 20 blocks tile the array, the array ends holding that function.
-/
import proofs.«155145_j34754875359294_2_alg».proof.Proof.Gen.KernelIdeal.Frame
import proofs.«155145_j34754875359294_2_alg».proof.Proof.Spec
import proofs.«155145_j34754875359294_2_alg».proof.Proof.LibMatmul
import proofs.«155145_j34754875359294_2_alg».proof.Proof.LibKeepdims
import Idealize.ShloMosaic.Lib.ValueLayout
import Idealize.ShloMosaic.Lib.Pipeline.Value
set_option maxRecDepth 16384
noncomputable section
namespace Cert.KernelIdeal.RegionValue
open Idealize.ShloMosaic Idealize.ShloMosaic.TcCoe Idealize.SL.Sem Cert.KernelIdeal Cert.KernelIdeal.Gen
open Idealize.ShloMosaic.ValueIdx
open scoped BigOperators
variable (V : (c : Dev nD) → (b : Ref sig .tc) → Buf (Elt Ideal) ((c : Thread nD τ).loc b))

namespace Head

/-! ## One row of the head

Every entry of the result at node `r` depends on row `r` of the aggregate, on the factor of node `r`, and on the
whole weights and vectors. -/

/-- The hidden row of one node: the aggregate's row scaled by the node's factor, then bias, batch-norm and relu. -/
def hidRow (a : Fin 64 → EReal) (d : EReal) (b g be mu v : FVec Ideal Cert.Gcn.S64v .f32) : Fin 64 → EReal :=
  fun k => max ((((((a k * d) + b (ix1 k)) - mu (ix1 k)) * Ideal.rsqrt (v (ix1 k) + Cert.Gcn.epsF)) * g (ix1 k)) + be (ix1 k)) Cert.Gcn.zeroF

/-- One dense layer on one row: the row against each column of the weights, plus the bias. -/
def layerRow {C : Nat} (h : Fin 64 → EReal) (w : FVec Ideal ⟨2, ![64, C]⟩ .f32) (b : FVec Ideal ⟨1, ![C]⟩ .f32) : Fin C → EReal :=
  fun q => (∑ k : Fin 64, h k * w (ix2 k q)) + b (ix1 q)

/-- The positive part of a row. -/
def reluRow {C : Nat} (h : Fin C → EReal) : Fin C → EReal := fun k => max (h k) Cert.Gcn.zeroF

/-- The three dense layers on the hidden row of one node. -/
def headRow (a : Fin 64 → EReal) (d : EReal) (b g be mu v : FVec Ideal Cert.Gcn.S64v .f32)
    (w1 : FVec Ideal ⟨2, ![64, 64]⟩ .f32) (b1 : FVec Ideal Cert.Gcn.S64v .f32)
    (w2 : FVec Ideal ⟨2, ![64, 64]⟩ .f32) (b2 : FVec Ideal Cert.Gcn.S64v .f32)
    (w3 : FVec Ideal ⟨2, ![64, 16]⟩ .f32) (b3 : FVec Ideal ⟨1, ![16]⟩ .f32) : Fin 16 → EReal :=
  layerRow (reluRow (layerRow (reluRow (layerRow (hidRow a d b g be mu v) w1 b1)) w2 b2)) w3 b3

/-- The whole-array stage at node `r` is the head of row `r`. -/
theorem stage2_row (A : FVec Ideal Cert.Gcn.SNx64 .f32) (D : FVec Ideal Cert.Gcn.SNx1 .f32) (b g be mu v : FVec Ideal Cert.Gcn.S64v .f32)
    (w1 : FVec Ideal ⟨2, ![64, 64]⟩ .f32) (b1 : FVec Ideal Cert.Gcn.S64v .f32)
    (w2 : FVec Ideal ⟨2, ![64, 64]⟩ .f32) (b2 : FVec Ideal Cert.Gcn.S64v .f32)
    (w3 : FVec Ideal ⟨2, ![64, 16]⟩ .f32) (b3 : FVec Ideal ⟨1, ![16]⟩ .f32) (r : Fin 100000) (q : Fin 16) :
    Cert.Gcn.stage2 A D b g be mu v w1 b1 w2 b2 w3 b3 (ix2 r q)
      = headRow (fun k => A (ix2 r k)) (D (ix2 r (0 : Fin 1))) b g be mu v w1 b1 w2 b2 w3 b3 q := rfl

/-! ## The body's two payloads at an index -/

/-- The two contractions of the body are plain matrix products: axis 1 of the left operand against axis 0 of the right. -/
theorem dot64_eq : dot_S5000x64_S64x64_S5000x64_1_0_0_1_n_n = DotDims.plain 5000 64 64 := rfl
theorem dot16_eq : dot_S5000x64_S64x16_S5000x16_1_0_0_1_n_n = DotDims.plain 5000 64 16 := rfl

/-- The first part's value at `(p, q)`: the first dense layer and relu on the hidden row of the block's row `p`.
    The operands arrive as aggregate, factor column, bias, mean, variance, scale, shift, weights, bias of the layer. -/
theorem pay2_apply (v0 : Vec Ideal S5000x64 .f32) (v2 : Vec Ideal S5000x1 .f32) (v6 v10 v14 v21 v25 : Vec Ideal S64 .f32)
    (v32 : Vec Ideal S64x64 .f32) (v35 : Vec Ideal S64 .f32) (p : Fin 5000) (q : Fin 64) :
    k2_pay2 (F := Ideal) v0 v2 v6 v10 v14 v21 v25 v32 v35 (ix2 p q)
      = reluRow (layerRow (hidRow (fun k => v0 (ix2 p k)) (v2 (ix2 p (0 : Fin 1))) v6 v21 v25 v10 v14) v32 v35) q := by
  unfold k2_pay2
  rw [truncf_apply, maximumf_apply, addf_apply, dot64_eq, Cert.MatOps.matmul_plain_zero_apply,
    broadcastTo_1b_ab_apply, shapeCast_a_1a_apply]
  unfold reluRow layerRow
  refine congrArg₂ max (congrArg₂ (· + ·) (Finset.sum_congr rfl fun k _ => congrArg₂ (· * ·) ?_ rfl) rfl) rfl
  rw [truncf_apply, maximumf_apply]
  simp only [addf_apply, mulf_apply, subf_apply, broadcast_apply, shapeCast_self, broadcastTo_1b_ab_apply,
    shapeCast_a_1a_apply, Keepdims.broadcastTo_a1_ab_apply _ _ _ _ (0 : Fin 1)]
  rfl

/-- The stored value at `(p, q)` from the first part's value: the second dense layer and relu, then the third layer. -/
theorem pay1_apply (v41 : FVec Ideal S5000x64 .bf16) (v42 : Vec Ideal S64x64 .f32) (v45 : Vec Ideal S64 .f32)
    (v52 : Vec Ideal S64x16 .f32) (v55 : Vec Ideal S16 .f32) (p : Fin 5000) (q : Fin 16) :
    k2_pay1 (F := Ideal) v41 v42 v45 v52 v55 (ix2 p q)
      = layerRow (reluRow (layerRow (fun k => v41 (ix2 p k)) v42 v45)) v52 v55 q := by
  unfold k2_pay1
  rw [addf_apply, dot16_eq, Cert.MatOps.matmul_plain_zero_apply, broadcastTo_1b_ab_apply, shapeCast_a_1a_apply]
  unfold layerRow
  refine congrArg₂ (· + ·) (Finset.sum_congr rfl fun k _ => congrArg₂ (· * ·) ?_ rfl) rfl
  rw [truncf_apply, maximumf_apply, addf_apply, dot64_eq, Cert.MatOps.matmul_plain_zero_apply,
    broadcastTo_1b_ab_apply, shapeCast_a_1a_apply]
  rfl

/-- The body's stored value at `(p, q)` is the head of the block's row `p`. -/
theorem body_apply (x0 : Vec Ideal S5000x64 .f32) (x1 : Vec Ideal S5000x1 .f32) (x2 x3 x4 x5 x6 : Vec Ideal S64 .f32)
    (x7 : Vec Ideal S64x64 .f32) (x8 : Vec Ideal S64 .f32) (x9 : Vec Ideal S64x64 .f32) (x10 : Vec Ideal S64 .f32)
    (x11 : Vec Ideal S64x16 .f32) (x12 : Vec Ideal S16 .f32) (p : Fin 5000) (q : Fin 16) :
    k2_pay1 (F := Ideal) (k2_pay2 x0 x1 x2 x5 x6 x3 x4 x7 x8) x9 x10 x11 x12 (ix2 p q)
      = headRow (fun k => x0 (ix2 p k)) (x1 (ix2 p (0 : Fin 1))) x2 x3 x4 x5 x6 x7 x8 x9 x10 x11 x12 q := by
  rw [pay1_apply]
  simp only [pay2_apply]
  rfl

/-! ## The blocks of the input windows

A block's element sits in its array, on each axis, at the block index times the block's extent plus its own coordinate.
The vectors and the weight matrices are staged whole (block index 0 on every axis), so their blocks are the arrays; the
aggregate and the factor column are staged 5000 rows at a time, at the output's block row. -/

theorem zeros2 : (![0, 0] : Fin 2 → Nat) = fun _ => 0 := funext fun a => by fin_cases a <;> rfl
theorem zeros1 : (![0] : Fin 1 → Nat) = fun _ => 0 := funext fun a => by fin_cases a <;> rfl

/-- The row-tiled windows move together: at every point the aggregate's and the factor column's block row is the
    output's, their block column is 0, and the output's block row is below 20. -/
theorem rows_idx : ∀ t : Fin cfg2.N,
    win2_0.index t (0 : Fin 2) = win2_13.index t (0 : Fin 2) ∧ win2_0.index t (1 : Fin 2) = 0
    ∧ win2_1.index t (0 : Fin 2) = win2_13.index t (0 : Fin 2) ∧ win2_1.index t (1 : Fin 2) = 0
    ∧ win2_13.index t (0 : Fin 2) ≤ 19 ∧ win2_13.index t (1 : Fin 2) = 0 :=
  (by decide +kernel : ∀ t : Fin grid2.N, _)

/-- The vectors' windows stay at block 0. -/
theorem vec_idx : ∀ t : Fin cfg2.N,
    win2_2.index t (0 : Fin 1) = 0 ∧ win2_3.index t (0 : Fin 1) = 0 ∧ win2_4.index t (0 : Fin 1) = 0
    ∧ win2_5.index t (0 : Fin 1) = 0 ∧ win2_6.index t (0 : Fin 1) = 0 ∧ win2_8.index t (0 : Fin 1) = 0
    ∧ win2_10.index t (0 : Fin 1) = 0 ∧ win2_12.index t (0 : Fin 1) = 0 :=
  (by decide +kernel : ∀ t : Fin grid2.N, _)

/-- The weight matrices' windows stay at block (0, 0). -/
theorem mat_idx : ∀ t : Fin cfg2.N,
    win2_7.index t (0 : Fin 2) = 0 ∧ win2_7.index t (1 : Fin 2) = 0
    ∧ win2_9.index t (0 : Fin 2) = 0 ∧ win2_9.index t (1 : Fin 2) = 0
    ∧ win2_11.index t (0 : Fin 2) = 0 ∧ win2_11.index t (1 : Fin 2) = 0 :=
  (by decide +kernel : ∀ t : Fin grid2.N, _)

/-- Every block row below 20 is some point's. -/
theorem rows_onto : ∀ q0 : Fin 20, ∃ t : Fin cfg2.N, win2_13.index t = ![q0.val, 0] :=
  (by decide +kernel : ∀ q0 : Fin 20, ∃ t : Fin grid2.N, win2_13.index t = ![q0.val, 0])

/-- The block of the convolution's bias is the whole vector. -/
theorem blk2 (c : Dev nD) (t : Fin cfg2.N) : iblk2 (F := Ideal) V c 2 t = V c main_arg5 := by
  funext y
  show V c main_arg5 (((cfg2.win 2).blk t).view.emb y) = V c main_arg5 y
  refine congrArg _ (funext fun a => Fin.ext ?_)
  match a with
  | ⟨0, _⟩ => show win2_2.index t (0 : Fin 1) * 64 + 1 * (y 0).val = (y 0).val; rw [(vec_idx t).1]; omega

/-- The block of the batch-norm scale is the whole vector. -/
theorem blk3 (c : Dev nD) (t : Fin cfg2.N) : iblk2 (F := Ideal) V c 3 t = V c main_arg10 := by
  funext y
  show V c main_arg10 (((cfg2.win 3).blk t).view.emb y) = V c main_arg10 y
  refine congrArg _ (funext fun a => Fin.ext ?_)
  match a with
  | ⟨0, _⟩ => show win2_3.index t (0 : Fin 1) * 64 + 1 * (y 0).val = (y 0).val; rw [(vec_idx t).2.1]; omega

/-- The block of the batch-norm shift is the whole vector. -/
theorem blk4 (c : Dev nD) (t : Fin cfg2.N) : iblk2 (F := Ideal) V c 4 t = V c main_arg11 := by
  funext y
  show V c main_arg11 (((cfg2.win 4).blk t).view.emb y) = V c main_arg11 y
  refine congrArg _ (funext fun a => Fin.ext ?_)
  match a with
  | ⟨0, _⟩ => show win2_4.index t (0 : Fin 1) * 64 + 1 * (y 0).val = (y 0).val; rw [(vec_idx t).2.2.1]; omega

/-- The block of the batch-norm mean is the whole vector. -/
theorem blk5 (c : Dev nD) (t : Fin cfg2.N) : iblk2 (F := Ideal) V c 5 t = V c main_arg12 := by
  funext y
  show V c main_arg12 (((cfg2.win 5).blk t).view.emb y) = V c main_arg12 y
  refine congrArg _ (funext fun a => Fin.ext ?_)
  match a with
  | ⟨0, _⟩ => show win2_5.index t (0 : Fin 1) * 64 + 1 * (y 0).val = (y 0).val; rw [(vec_idx t).2.2.2.1]; omega

/-- The block of the batch-norm variance is the whole vector. -/
theorem blk6 (c : Dev nD) (t : Fin cfg2.N) : iblk2 (F := Ideal) V c 6 t = V c main_arg13 := by
  funext y
  show V c main_arg13 (((cfg2.win 6).blk t).view.emb y) = V c main_arg13 y
  refine congrArg _ (funext fun a => Fin.ext ?_)
  match a with
  | ⟨0, _⟩ => show win2_6.index t (0 : Fin 1) * 64 + 1 * (y 0).val = (y 0).val; rw [(vec_idx t).2.2.2.2.1]; omega

/-- The block of the first layer's weights is the whole matrix. -/
theorem blk7 (c : Dev nD) (t : Fin cfg2.N) : iblk2 (F := Ideal) V c 7 t = V c main_arg14 := by
  funext y
  show V c main_arg14 (((cfg2.win 7).blk t).view.emb y) = V c main_arg14 y
  refine congrArg _ (funext fun a => Fin.ext ?_)
  obtain ⟨e0, e1, -⟩ := mat_idx t
  match a with
  | ⟨0, _⟩ => show win2_7.index t (0 : Fin 2) * 64 + 1 * (y 0).val = (y 0).val; omega
  | ⟨1, _⟩ => show win2_7.index t (1 : Fin 2) * 64 + 1 * (y 1).val = (y 1).val; omega

/-- The block of the first layer's bias is the whole vector. -/
theorem blk8 (c : Dev nD) (t : Fin cfg2.N) : iblk2 (F := Ideal) V c 8 t = V c main_arg15 := by
  funext y
  show V c main_arg15 (((cfg2.win 8).blk t).view.emb y) = V c main_arg15 y
  refine congrArg _ (funext fun a => Fin.ext ?_)
  match a with
  | ⟨0, _⟩ => show win2_8.index t (0 : Fin 1) * 64 + 1 * (y 0).val = (y 0).val; rw [(vec_idx t).2.2.2.2.2.1]; omega

/-- The block of the second layer's weights is the whole matrix. -/
theorem blk9 (c : Dev nD) (t : Fin cfg2.N) : iblk2 (F := Ideal) V c 9 t = V c main_arg16 := by
  funext y
  show V c main_arg16 (((cfg2.win 9).blk t).view.emb y) = V c main_arg16 y
  refine congrArg _ (funext fun a => Fin.ext ?_)
  obtain ⟨-, -, e0, e1, -⟩ := mat_idx t
  match a with
  | ⟨0, _⟩ => show win2_9.index t (0 : Fin 2) * 64 + 1 * (y 0).val = (y 0).val; omega
  | ⟨1, _⟩ => show win2_9.index t (1 : Fin 2) * 64 + 1 * (y 1).val = (y 1).val; omega

/-- The block of the second layer's bias is the whole vector. -/
theorem blk10 (c : Dev nD) (t : Fin cfg2.N) : iblk2 (F := Ideal) V c 10 t = V c main_arg17 := by
  funext y
  show V c main_arg17 (((cfg2.win 10).blk t).view.emb y) = V c main_arg17 y
  refine congrArg _ (funext fun a => Fin.ext ?_)
  match a with
  | ⟨0, _⟩ => show win2_10.index t (0 : Fin 1) * 64 + 1 * (y 0).val = (y 0).val; rw [(vec_idx t).2.2.2.2.2.2.1]; omega

/-- The block of the third layer's weights is the whole matrix. -/
theorem blk11 (c : Dev nD) (t : Fin cfg2.N) : iblk2 (F := Ideal) V c 11 t = V c main_arg18 := by
  funext y
  show V c main_arg18 (((cfg2.win 11).blk t).view.emb y) = V c main_arg18 y
  refine congrArg _ (funext fun a => Fin.ext ?_)
  obtain ⟨-, -, -, -, e0, e1⟩ := mat_idx t
  match a with
  | ⟨0, _⟩ => show win2_11.index t (0 : Fin 2) * 64 + 1 * (y 0).val = (y 0).val; omega
  | ⟨1, _⟩ => show win2_11.index t (1 : Fin 2) * 16 + 1 * (y 1).val = (y 1).val; omega

/-- The block of the third layer's bias is the whole vector. -/
theorem blk12 (c : Dev nD) (t : Fin cfg2.N) : iblk2 (F := Ideal) V c 12 t = V c main_arg19 := by
  funext y
  show V c main_arg19 (((cfg2.win 12).blk t).view.emb y) = V c main_arg19 y
  refine congrArg _ (funext fun a => Fin.ext ?_)
  match a with
  | ⟨0, _⟩ => show win2_12.index t (0 : Fin 1) * 16 + 1 * (y 0).val = (y 0).val; rw [(vec_idx t).2.2.2.2.2.2.2]; omega

/-- Row `p` of the aggregate's block at a point is the array's row at the point's block row times 5000 plus `p`. -/
theorem blk0_apply (c : Dev nD) (t : Fin cfg2.N) (p : Fin 5000) (k : Fin 64) (r : Fin 100000)
    (hr : r.val = win2_13.index t (0 : Fin 2) * 5000 + p.val) :
    iblk2 (F := Ideal) V c 0 t (ix2 p k) = V c main_v37 (ix2 r k) := by
  show V c main_v37 (((cfg2.win 0).blk t).view.emb (ix2 p k)) = V c main_v37 (ix2 r k)
  refine congrArg _ (funext fun a => Fin.ext ?_)
  obtain ⟨e0, e1, -⟩ := rows_idx t
  match a with
  | ⟨0, _⟩ => show win2_0.index t (0 : Fin 2) * 5000 + 1 * p.val = r.val; omega
  | ⟨1, _⟩ => show win2_0.index t (1 : Fin 2) * 64 + 1 * k.val = k.val; omega

/-- The same for the column of factors. -/
theorem blk1_apply (c : Dev nD) (t : Fin cfg2.N) (p : Fin 5000) (u : Fin 1) (r : Fin 100000)
    (hr : r.val = win2_13.index t (0 : Fin 2) * 5000 + p.val) :
    iblk2 (F := Ideal) V c 1 t (ix2 p u) = V c main_v15 (ix2 r u) := by
  show V c main_v15 (((cfg2.win 1).blk t).view.emb (ix2 p u)) = V c main_v15 (ix2 r u)
  refine congrArg _ (funext fun a => Fin.ext ?_)
  obtain ⟨-, -, e0, e1, -⟩ := rows_idx t
  match a with
  | ⟨0, _⟩ => show win2_1.index t (0 : Fin 2) * 5000 + 1 * p.val = r.val; omega
  | ⟨1, _⟩ => show win2_1.index t (1 : Fin 2) * 1 + 1 * u.val = u.val; omega

/-- Where the output's block at a point puts its entry `(p, q)`. -/
theorem out_emb (t : Fin cfg2.N) (p : Fin 5000) (q : Fin 16) (r : Fin 100000)
    (hr : r.val = win2_13.index t (0 : Fin 2) * 5000 + p.val) :
    ((cfg2.win 13).blk t).view.emb (ix2 p q) = (ix2 r q : Cert.Gcn.SNx16.Idx) := by
  refine funext fun a => Fin.ext ?_
  obtain ⟨-, -, -, -, -, e1⟩ := rows_idx t
  match a with
  | ⟨0, _⟩ => show win2_13.index t (0 : Fin 2) * 5000 + 1 * p.val = r.val; omega
  | ⟨1, _⟩ => show win2_13.index t (1 : Fin 2) * 16 + 1 * q.val = q.val; omega

/-! ## From the blocks to the array -/

/-- The whole-array stage of the arrays the region's windows read, as the region finds them. -/
abbrev stageAt (c : Dev nD) : FVec Ideal Cert.Gcn.SNx16 .f32 :=
  Cert.Gcn.stage2 (V c main_v37) (V c main_v15) (V c main_arg5) (V c main_arg10) (V c main_arg11) (V c main_arg12) (V c main_arg13)
    (V c main_arg14) (V c main_arg15) (V c main_arg16) (V c main_arg17) (V c main_arg18) (V c main_arg19)

/-- What a point writes back is its block of the whole-array stage: entry `(p, q)` of the stored value is the head
    of the block's row `p`, which is the array's row at the point's block row times 5000 plus `p`. -/
theorem flushed_eq (c : Dev nD) (t : Fin cfg2.N) :
    (dat2 (F := Ideal) V c).flushed 13 t = ((cfg2.win 13).blk t).view.read (Elt Ideal) (stageAt V c) := by
  show (cfg2.win 13).cut (grid2.coords t) ((dat2 V c).after 13 t) = _
  rw [after2_13]
  unfold out2_13
  rw [View.canon_unit_zero zeros2]
  simp only [View.ld_unit_zero (S := S5000x64) zeros2, View.ld_unit_zero (S := S5000x1) zeros2,
    View.ld_unit_zero (S := S64) zeros1, View.ld_unit_zero (S := S64x64) zeros2,
    View.ld_unit_zero (S := S64x16) zeros2, View.ld_unit_zero (S := S16) zeros1]
  rw [blk2, blk3, blk4, blk5, blk6, blk7, blk8, blk9, blk10, blk11, blk12]
  funext j
  obtain ⟨p, q, rfl⟩ : ∃ (p : Fin 5000) (q : Fin 16), j = ix2 p q := ⟨j 0, j 1, eq_ix2 j⟩
  obtain ⟨-, -, -, -, hle, -⟩ := rows_idx t
  have hr : win2_13.index t (0 : Fin 2) * 5000 + p.val < 100000 := by have := p.isLt; omega
  refine (body_apply (iblk2 V c 0 t) (iblk2 V c 1 t) (V c main_arg5) (V c main_arg10) (V c main_arg11) (V c main_arg12)
    (V c main_arg13) (V c main_arg14) (V c main_arg15) (V c main_arg16) (V c main_arg17) (V c main_arg18) (V c main_arg19) p q).trans ?_
  show _ = stageAt V c (((cfg2.win 13).blk t).view.emb (ix2 p q))
  rw [out_emb t p q ⟨_, hr⟩ rfl]
  unfold stageAt
  rw [stage2_row]
  simp only [blk0_apply V c t p _ ⟨_, hr⟩ rfl, blk1_apply V c t p _ ⟨_, hr⟩ rfl]

/-- An index of the array is in a point's block iff each coordinate is in the block's range on its axis. -/
theorem mem_blk (t : Fin cfg2.N) (i : S100000x16.Idx) :
    i ∈ ((cfg2.win 13).blk t).view.set ↔ ∀ a : Fin 2, win2_13.index t a * S5000x16.size a ≤ (i a).val ∧ (i a).val < win2_13.index t a * S5000x16.size a + S5000x16.size a := by
  show i ∈ ((View.whole main_v38).slice (win2_13.rect t)).set ↔ _
  rw [View.set_slice_whole, Rect.mem_set_unit]
  exact Iff.rfl

/-- Every index of the array is in some point's block: row `r` is in the block of the point whose block row is `r / 5000`. -/
theorem cover (i : S100000x16.Idx) : ∃ t : Fin cfg2.N, (cfg2.win 13).flush t = true ∧ i ∈ ((cfg2.win 13).blk t).view.set := by
  have hi0 : (i 0).val < 100000 := (i 0).isLt
  have hi1 : (i 1).val < 16 := (i 1).isLt
  obtain ⟨t, ht⟩ := rows_onto ⟨(i 0).val / 5000, by omega⟩
  have q0 : win2_13.index t (0 : Fin 2) = (i 0).val / 5000 := congrFun ht 0
  have q1 : win2_13.index t (1 : Fin 2) = 0 := congrFun ht 1
  refine ⟨t, flush2_13 t, ?_⟩
  rw [mem_blk]
  intro a
  match a with
  | ⟨0, _⟩ => show win2_13.index t (0 : Fin 2) * 5000 ≤ (i 0).val ∧ (i 0).val < win2_13.index t (0 : Fin 2) * 5000 + 5000; omega
  | ⟨1, _⟩ => show win2_13.index t (1 : Fin 2) * 16 ≤ (i 1).val ∧ (i 1).val < win2_13.index t (1 : Fin 2) * 16 + 16; omega

end Head

/-- The region's output array after its run is the whole-array stage of the arrays its windows read: every point
    writes back its block of that one function, and the blocks tile the array. -/
theorem final2 (c : Dev nD) :
    (dat2 (F := Ideal) V c).arrAt 13 cfg2.N
      = Cert.Gcn.stage2 (V c main_v37) (V c main_v15) (V c main_arg5) (V c main_arg10) (V c main_arg11) (V c main_arg12) (V c main_arg13)
          (V c main_arg14) (V c main_arg15) (V c main_arg16) (V c main_arg17) (V c main_arg18) (V c main_arg19) :=
  (dat2 (F := Ideal) V c).arrAt_eq_of_cover 13 (Head.stageAt V c) (fun t _ => Head.flushed_eq V c t) Head.cover

end Cert.KernelIdeal.RegionValue

end
-- ==== Proof.HostRead.lean ====
/-
  The tiled program's host stretches, read one at a time from the contents they start from.

  Each stretch is a line of host operations; what it leaves in a buffer it writes is the operations' composed term
  of the contents it found, and a buffer it does not write keeps its contents. The terms: the two arrays of edge
  words (the listed sources / destinations followed by one self-loop per node), the degree array and its comparison
  with zero and inverse square root, the selection between them, the factors as a column, and, after each of the
  first two tiled regions, that region's result gathered at the source words and added into the destination
  buckets.
-/
import proofs.«155145_j34754875359294_2_alg».proof.Proof.Gen.KernelIdeal.Frame
import Idealize.ShloMosaic.Lib.StableHlo.Run

set_option maxRecDepth 16384

noncomputable section

namespace Cert.KernelIdeal.HostRead

open Cert.KernelIdeal Cert.KernelIdeal.Gen
open Idealize.ShloMosaic Idealize.ShloMosaic.TcCoe Idealize.SL.Sem Idealize.ShloMosaic.StableHlo

variable {F : FTy → Type} [FloatOps F]

/-- The source words of every edge: row 0 of the edge list, then the nodes themselves. -/
def edgeRow {α : Type} (a1 : S2x1000000.Idx → α) (loops : S100000.Idx → α) : S1100000.Idx → α :=
  concatenate S1100000 0 [⟨S1000000, shapeCast S1000000 (extractStridedSlice S1x1000000 ![0, 0] a1 slices_S2x1000000_S1x1000000_0_0) shapeCasts_S1x1000000_S1000000⟩, ⟨S100000, loops⟩] concatenates_S1000000_S100000_S1100000_d0

/-- The destination words of every edge: row 1 of the edge list, then the nodes themselves. -/
def edgeCol {α : Type} (a1 : S2x1000000.Idx → α) (loops : S100000.Idx → α) : S1100000.Idx → α :=
  concatenate S1100000 0 [⟨S1000000, shapeCast S1000000 (extractStridedSlice S1x1000000 ![1, 0] a1 slices_S2x1000000_S1x1000000_1_0) shapeCasts_S1x1000000_S1000000⟩, ⟨S100000, loops⟩] concatenates_S1000000_S100000_S1100000_d0

variable (W : Valuation τ sig (Elt F))

/-! ## The first stretch -/

theorem first_v5 : after (hostOps0 (F := F)) W (Proc.devRef .tc main_v5)
    = edgeRow (W (Proc.devRef .tc main_arg1)) (iotaInDim S100000 32 0) := by
  after_results; rfl

theorem first_v6 : after (hostOps0 (F := F)) W (Proc.devRef .tc main_v6)
    = edgeCol (W (Proc.devRef .tc main_arg1)) (iotaInDim S100000 32 0) := by
  after_results; rfl

/-- The degree array the first stretch forms. -/
def degTerm (colW : S1100000.Idx → BitVec 32) : FVec F S100000 .f32 :=
  Host.scatterAdd scatter_S100000_S1100000x1_S1100000_n_0_0_1
    (broadcastInDim S100000 ![] bcast_S_S100000 (constant S_ .f32 0x00000000#32))
    (broadcastInDim S1100000x1 ![0] bcast_S1100000_S1100000x1_0 colW)
    (broadcastInDim S1100000 ![] bcast_S_S1100000 (constant S_ .f32 0x3F800000#32))

theorem first_v12 : after (hostOps0 (F := F)) W (Proc.devRef .tc main_v12)
    = cmpf .ogt (degTerm (F := F) (edgeCol (W (Proc.devRef .tc main_arg1)) (iotaInDim S100000 32 0)))
        (broadcastInDim S100000 ![] bcast_S_S100000 (constant S_ .f32 0x00000000#32)) := by
  after_results; rfl

theorem first_v13 : after (hostOps0 (F := F)) W (Proc.devRef .tc main_v13)
    = Host.rsqrt (degTerm (F := F) (edgeCol (W (Proc.devRef .tc main_arg1)) (iotaInDim S100000 32 0))) := by
  after_results; rfl

theorem first_cst_2 : after (hostOps0 (F := F)) W (Proc.devRef .tc main_cst_2) = constant S_ .f32 0x00000000#32 := by
  after_results

/-! ## The selection and the column -/

theorem second_v14 : after (hostOps0_1 (F := F)) W (Proc.devRef .tc main_v14)
    = select (W (Proc.devRef .tc main_v12)) (W (Proc.devRef .tc main_v13))
        (broadcastInDim S100000 ![] bcast_S_S100000 (W (Proc.devRef .tc main_cst_2))) := by
  after_results; rfl

theorem third_v15 : after (hostOps0_2 (F := F)) W (Proc.devRef .tc main_v15)
    = shapeCast S100000x1 (W (Proc.devRef .tc main_v14)) shapeCasts_S100000_S100000x1 := by
  after_results; rfl

/-! ## Gather and scatter-add after a region -/

/-- A node table gathered at the prepared source words and added into the destination buckets, from zeros. -/
def aggTerm (rowW colW : S1100000.Idx → BitVec 32) (P : FVec F S100000x64 .f32) : FVec F S100000x64 .f32 :=
  Host.scatterAdd scatter_S100000x64_S1100000x1_S1100000x64_1_0_0_1
    (broadcastInDim S100000x64 ![] bcast_S_S100000x64 (constant S_ .f32 0x00000000#32))
    (broadcastInDim S1100000x1 ![0] bcast_S1100000_S1100000x1_0 colW)
    (Host.gather gather_S100000x64_S1100000x1_S1100000x64_1_0_n_n_0_1_164 P
      (broadcastInDim S1100000x1 ![0] bcast_S1100000_S1100000x1_0
        (select (cmpi .slt rowW (broadcastInDim S1100000 ![] bcast_S_S1100000 (constantI S_ 32 0#32)))
          (addi rowW (broadcastInDim S1100000 ![] bcast_S_S1100000 (constantI S_ 32 100000#32))) rowW)))

theorem fourth_v26 : after (hostOps1 (F := F)) W (Proc.devRef .tc main_v26)
    = aggTerm (F := F) (W (Proc.devRef .tc main_v5)) (W (Proc.devRef .tc main_v6)) (W (Proc.devRef .tc main_v16)) := by
  after_results; rfl

theorem fifth_v37 : after (hostOps2 (F := F)) W (Proc.devRef .tc main_v37)
    = aggTerm (F := F) (W (Proc.devRef .tc main_v5)) (W (Proc.devRef .tc main_v6)) (W (Proc.devRef .tc main_v27)) := by
  after_results; rfl

end Cert.KernelIdeal.HostRead

end
-- ==== Proof.Fold.lean ====
/-
  The idealized tiled program's result array, as one function of its argument arrays.

  The buffer contents at the program's boundaries are a fold from the launch memory. Read backwards from the result:
  the last region leaves in the result array its stage of the arrays it read; of those, the aggregate was formed by
  the stretch before it from the second region's result and the edge words, the factor column and the edge words
  were formed by the first stretch from the edge list alone, and every argument array is as launched, since no
  stretch and no region writes one. The same reading one region earlier, and once more, ends at the arguments: the
  result is the node arrangement of the network (`Cert.Gcn.nodeNet`) of the launch contents.
-/
import proofs.«155145_j34754875359294_2_alg».proof.Proof.HostRead
import proofs.«155145_j34754875359294_2_alg».proof.Proof.Spec
import proofs.«155145_j34754875359294_2_alg».proof.Proof.LibGcnHost
import proofs.«155145_j34754875359294_2_alg».proof.Proof.LibKeepdims

set_option maxRecDepth 16384

noncomputable section

namespace Cert.KernelIdeal.Fold

open Cert.KernelIdeal Cert.KernelIdeal.Gen Cert.KernelIdeal.HostRead
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

/-- A buffer that the three stretches before the first region do not write, read at the first region's entry. -/
local macro "back_to_launch" : tactic =>
  `(tactic| (show after _ (after _ (after _ (W0 _ _ _))) (Proc.devRef .tc _) = _; after_results <;> rfl))

/-! ## The edge words and the factor column, at the first region's entry -/

/-- The source words the program lays out from its edge list. -/
abbrev rowW : IVec Cert.Gcn.SE 32 := edgeRow (m ((c : Thread nD τ).loc main_arg1)) (iotaInDim S100000 32 0)
/-- The destination words the program lays out from its edge list. -/
abbrev colW : IVec Cert.Gcn.SE 32 := edgeCol (m ((c : Thread nD τ).loc main_arg1)) (iotaInDim S100000 32 0)

theorem entry0_v5 : W3 m ρ c (Proc.devRef .tc main_v5) = rowW m c := by back_to_launch
theorem entry0_v6 : W3 m ρ c (Proc.devRef .tc main_v6) = colW m c := by back_to_launch

/-- The degree array the first stretch forms is the degree of the destination words. -/
theorem degTerm_eq : degTerm (F := Ideal) (colW m c) = Cert.Gcn.deg (colW m c) :=
  Cert.Gcn.Host.deg_eq scatter_S100000_S1100000x1_S1100000_n_0_0_1_wf bcast_S_S100000 bcast_S_S1100000
    bcast_S1100000_S1100000x1_0 (colW m c)

/-- The factor column at the first region's entry: the inverse square root of the degree where it is positive,
    zero elsewhere, as a one-column table. -/
theorem entry0_v15 : V3 m ρ c main_v15 = Cert.Gcn.asColumn (Cert.Gcn.dinvOf (colW m c)) := by
  show after _ (W2 m ρ c) (Proc.devRef .tc main_v15) = _
  rw [third_v15 (W2 m ρ c)]
  have h14 : W2 m ρ c (Proc.devRef .tc main_v14) = Cert.Gcn.dinvOf (colW m c) := by
    show after _ (W1 m ρ c) (Proc.devRef .tc main_v14) = _
    rw [second_v14 (W1 m ρ c)]
    have e12 := first_v12 (F := Ideal) (W0 m ρ c)
    have e13 := first_v13 (F := Ideal) (W0 m ρ c)
    have ec := first_cst_2 (F := Ideal) (W0 m ρ c)
    rw [show W1 m ρ c (Proc.devRef .tc main_v12) = _ from e12, show W1 m ρ c (Proc.devRef .tc main_v13) = _ from e13,
      show W1 m ρ c (Proc.devRef .tc main_cst_2) = _ from ec]
    exact Cert.Gcn.Host.dinv_eq _ bcast_S_S100000 bcast_S_S100000 (colW m c) (degTerm_eq m c)
  rw [h14]
  funext j
  obtain ⟨p, u, rfl⟩ : ∃ (p : Fin 100000) (u : Fin 1), j = ix2 p u := ⟨j 0, j 1, eq_ix2 j⟩
  exact Idealize.ShloMosaic.Keepdims.shapeCast_a_a1_apply _ shapeCasts_S100000_S100000x1 p u

theorem entry0_arg0 : V3 m ρ c main_arg0 = m ((c : Thread nD τ).loc main_arg0) := by back_to_launch
theorem entry0_arg2 : V3 m ρ c main_arg2 = m ((c : Thread nD τ).loc main_arg2) := by back_to_launch

/-! ## The first region's result, and the second region's entry -/

section First
variable (h0 : (dat0 (F := Ideal) (V3 m ρ) c).arrAt 3 cfg0.N
  = Cert.Gcn.stage0 (V3 m ρ c main_arg0) (V3 m ρ c main_arg2) (V3 m ρ c main_v15))
include h0

theorem exit0_v16 : W4 m ρ c (Proc.devRef .tc main_v16)
    = Cert.Gcn.stage0 (m ((c : Thread nD τ).loc main_arg0)) (m ((c : Thread nD τ).loc main_arg2))
        (Cert.Gcn.asColumn (Cert.Gcn.dinvOf (colW m c))) := by
  rw [← entry0_arg0 m ρ c, ← entry0_arg2 m ρ c, ← entry0_v15 m ρ c, ← h0]
  exact W4_arr m ρ c 3
omit h0

theorem exit0_v5 : W4 m ρ c (Proc.devRef .tc main_v5) = rowW m c :=
  (W4_of_ne m ρ c main_v5 (by decide)).trans (entry0_v5 m ρ c)
theorem exit0_v6 : W4 m ρ c (Proc.devRef .tc main_v6) = colW m c :=
  (W4_of_ne m ρ c main_v6 (by decide)).trans (entry0_v6 m ρ c)
theorem exit0_v15 : W4 m ρ c (Proc.devRef .tc main_v15) = Cert.Gcn.asColumn (Cert.Gcn.dinvOf (colW m c)) :=
  ((W4_arr m ρ c 2).trans (((dat0 (V3 m ρ) c).arrAt_in 2 rfl _).trans (A_eq0 (V3 m ρ) c 2))).trans (entry0_v15 m ρ c)

/-- The gather and scatter-add of a stretch is the plain aggregate over the program's edge words. -/
theorem aggTerm_eq (P : FVec Ideal S100000x64 .f32) :
    aggTerm (F := Ideal) (rowW m c) (colW m c) P = Cert.Gcn.aggNode (rowW m c) (colW m c) P :=
  Cert.Gcn.Host.aggNode_eq scatter_S100000x64_S1100000x1_S1100000x64_1_0_0_1_wf
    gather_S100000x64_S1100000x1_S1100000x64_1_0_n_n_0_1_164_wf bcast_S_S100000x64 bcast_S_S1100000
    bcast_S1100000_S1100000x1_0 bcast_S1100000_S1100000x1_0 (rowW m c) (colW m c) P

include h0
theorem entry1_v26 : V5 m ρ c main_v26
    = Cert.Gcn.aggNode (rowW m c) (colW m c)
        (Cert.Gcn.stage0 (m ((c : Thread nD τ).loc main_arg0)) (m ((c : Thread nD τ).loc main_arg2))
          (Cert.Gcn.asColumn (Cert.Gcn.dinvOf (colW m c)))) := by
  show after _ (W4 m ρ c) (Proc.devRef .tc main_v26) = _
  rw [fourth_v26 (W4 m ρ c), exit0_v5 m ρ c, exit0_v6 m ρ c, exit0_v16 m ρ c h0]
  exact aggTerm_eq m c _
omit h0

theorem entry1_v15 : V5 m ρ c main_v15 = Cert.Gcn.asColumn (Cert.Gcn.dinvOf (colW m c)) := by
  refine Eq.trans ?_ (exit0_v15 m ρ c)
  show after _ (W4 m ρ c) (Proc.devRef .tc main_v15) = _
  after_results <;> rfl

theorem entry1_arg3 : V5 m ρ c main_arg3 = m ((c : Thread nD τ).loc main_arg3) := by
  have e : W4 m ρ c (Proc.devRef .tc main_arg3) = m ((c : Thread nD τ).loc main_arg3) := by
    refine (W4_of_ne m ρ c main_arg3 (by decide)).trans ?_
    back_to_launch
  refine Eq.trans ?_ e
  show after _ (W4 m ρ c) (Proc.devRef .tc main_arg3) = _
  after_results <;> rfl
theorem entry1_arg6 : V5 m ρ c main_arg6 = m ((c : Thread nD τ).loc main_arg6) := by
  have e : W4 m ρ c (Proc.devRef .tc main_arg6) = m ((c : Thread nD τ).loc main_arg6) := by
    refine (W4_of_ne m ρ c main_arg6 (by decide)).trans ?_
    back_to_launch
  refine Eq.trans ?_ e
  show after _ (W4 m ρ c) (Proc.devRef .tc main_arg6) = _
  after_results <;> rfl
theorem entry1_arg7 : V5 m ρ c main_arg7 = m ((c : Thread nD τ).loc main_arg7) := by
  have e : W4 m ρ c (Proc.devRef .tc main_arg7) = m ((c : Thread nD τ).loc main_arg7) := by
    refine (W4_of_ne m ρ c main_arg7 (by decide)).trans ?_
    back_to_launch
  refine Eq.trans ?_ e
  show after _ (W4 m ρ c) (Proc.devRef .tc main_arg7) = _
  after_results <;> rfl
theorem entry1_arg8 : V5 m ρ c main_arg8 = m ((c : Thread nD τ).loc main_arg8) := by
  have e : W4 m ρ c (Proc.devRef .tc main_arg8) = m ((c : Thread nD τ).loc main_arg8) := by
    refine (W4_of_ne m ρ c main_arg8 (by decide)).trans ?_
    back_to_launch
  refine Eq.trans ?_ e
  show after _ (W4 m ρ c) (Proc.devRef .tc main_arg8) = _
  after_results <;> rfl
theorem entry1_arg9 : V5 m ρ c main_arg9 = m ((c : Thread nD τ).loc main_arg9) := by
  have e : W4 m ρ c (Proc.devRef .tc main_arg9) = m ((c : Thread nD τ).loc main_arg9) := by
    refine (W4_of_ne m ρ c main_arg9 (by decide)).trans ?_
    back_to_launch
  refine Eq.trans ?_ e
  show after _ (W4 m ρ c) (Proc.devRef .tc main_arg9) = _
  after_results <;> rfl
theorem entry1_arg4 : V5 m ρ c main_arg4 = m ((c : Thread nD τ).loc main_arg4) := by
  have e : W4 m ρ c (Proc.devRef .tc main_arg4) = m ((c : Thread nD τ).loc main_arg4) := by
    refine (W4_of_ne m ρ c main_arg4 (by decide)).trans ?_
    back_to_launch
  refine Eq.trans ?_ e
  show after _ (W4 m ρ c) (Proc.devRef .tc main_arg4) = _
  after_results <;> rfl

/-- The edge words are still there after the second stretch. -/
theorem entry1_v5 : W5 m ρ c (Proc.devRef .tc main_v5) = rowW m c := by
  refine Eq.trans ?_ (exit0_v5 m ρ c)
  show after _ (W4 m ρ c) (Proc.devRef .tc main_v5) = _
  after_results <;> rfl
theorem entry1_v6 : W5 m ρ c (Proc.devRef .tc main_v6) = colW m c := by
  refine Eq.trans ?_ (exit0_v6 m ρ c)
  show after _ (W4 m ρ c) (Proc.devRef .tc main_v6) = _
  after_results <;> rfl

/-! ## The second region's result, and the third region's entry -/

/-- The table the second region leaves. -/
abbrev table1 : FVec Ideal Cert.Gcn.SNx64 .f32 :=
  Cert.Gcn.stage1
    (Cert.Gcn.aggNode (rowW m c) (colW m c)
      (Cert.Gcn.stage0 (m ((c : Thread nD τ).loc main_arg0)) (m ((c : Thread nD τ).loc main_arg2))
        (Cert.Gcn.asColumn (Cert.Gcn.dinvOf (colW m c)))))
    (Cert.Gcn.asColumn (Cert.Gcn.dinvOf (colW m c)))
    (m ((c : Thread nD τ).loc main_arg3)) (m ((c : Thread nD τ).loc main_arg6)) (m ((c : Thread nD τ).loc main_arg7))
    (m ((c : Thread nD τ).loc main_arg8)) (m ((c : Thread nD τ).loc main_arg9)) (m ((c : Thread nD τ).loc main_arg4))

section Second
variable (h1 : (dat1 (F := Ideal) (V5 m ρ) c).arrAt 8 cfg1.N
  = Cert.Gcn.stage1 (V5 m ρ c main_v26) (V5 m ρ c main_v15) (V5 m ρ c main_arg3) (V5 m ρ c main_arg6) (V5 m ρ c main_arg7)
      (V5 m ρ c main_arg8) (V5 m ρ c main_arg9) (V5 m ρ c main_arg4))
include h0 h1

theorem exit1_v27 : W6 m ρ c (Proc.devRef .tc main_v27) = table1 m c := by
  show _ = Cert.Gcn.stage1 _ _ _ _ _ _ _ _
  rw [← entry1_v26 m ρ c h0, ← entry1_v15 m ρ c, ← entry1_arg3 m ρ c, ← entry1_arg6 m ρ c, ← entry1_arg7 m ρ c,
    ← entry1_arg8 m ρ c, ← entry1_arg9 m ρ c, ← entry1_arg4 m ρ c, ← h1]
  exact W6_arr m ρ c 8
omit h0 h1

theorem exit1_v5 : W6 m ρ c (Proc.devRef .tc main_v5) = rowW m c :=
  (W6_of_ne m ρ c main_v5 (by decide)).trans (entry1_v5 m ρ c)
theorem exit1_v6 : W6 m ρ c (Proc.devRef .tc main_v6) = colW m c :=
  (W6_of_ne m ρ c main_v6 (by decide)).trans (entry1_v6 m ρ c)
theorem exit1_v15 : W6 m ρ c (Proc.devRef .tc main_v15) = Cert.Gcn.asColumn (Cert.Gcn.dinvOf (colW m c)) :=
  ((W6_arr m ρ c 1).trans (((dat1 (V5 m ρ) c).arrAt_in 1 rfl _).trans (A_eq1 (V5 m ρ) c 1))).trans (entry1_v15 m ρ c)

include h0 h1
theorem entry2_v37 : V7 m ρ c main_v37 = Cert.Gcn.aggNode (rowW m c) (colW m c) (table1 m c) := by
  show after _ (W6 m ρ c) (Proc.devRef .tc main_v37) = _
  rw [fifth_v37 (W6 m ρ c), exit1_v5 m ρ c, exit1_v6 m ρ c, exit1_v27 m ρ c h0 h1]
  exact aggTerm_eq m c _
omit h0 h1

theorem entry2_v15 : V7 m ρ c main_v15 = Cert.Gcn.asColumn (Cert.Gcn.dinvOf (colW m c)) := by
  refine Eq.trans ?_ (exit1_v15 m ρ c)
  show after _ (W6 m ρ c) (Proc.devRef .tc main_v15) = _
  after_results <;> rfl

theorem entry2_arg5 : V7 m ρ c main_arg5 = m ((c : Thread nD τ).loc main_arg5) := by
  have e4 : W4 m ρ c (Proc.devRef .tc main_arg5) = m ((c : Thread nD τ).loc main_arg5) := by
    refine (W4_of_ne m ρ c main_arg5 (by decide)).trans ?_
    back_to_launch
  have e5 : W5 m ρ c (Proc.devRef .tc main_arg5) = m ((c : Thread nD τ).loc main_arg5) := by
    refine Eq.trans ?_ e4
    show after _ (W4 m ρ c) (Proc.devRef .tc main_arg5) = _
    after_results <;> rfl
  have e6 : W6 m ρ c (Proc.devRef .tc main_arg5) = m ((c : Thread nD τ).loc main_arg5) :=
    (W6_of_ne m ρ c main_arg5 (by decide)).trans e5
  refine Eq.trans ?_ e6
  show after _ (W6 m ρ c) (Proc.devRef .tc main_arg5) = _
  after_results <;> rfl
theorem entry2_arg10 : V7 m ρ c main_arg10 = m ((c : Thread nD τ).loc main_arg10) := by
  have e4 : W4 m ρ c (Proc.devRef .tc main_arg10) = m ((c : Thread nD τ).loc main_arg10) := by
    refine (W4_of_ne m ρ c main_arg10 (by decide)).trans ?_
    back_to_launch
  have e5 : W5 m ρ c (Proc.devRef .tc main_arg10) = m ((c : Thread nD τ).loc main_arg10) := by
    refine Eq.trans ?_ e4
    show after _ (W4 m ρ c) (Proc.devRef .tc main_arg10) = _
    after_results <;> rfl
  have e6 : W6 m ρ c (Proc.devRef .tc main_arg10) = m ((c : Thread nD τ).loc main_arg10) :=
    (W6_of_ne m ρ c main_arg10 (by decide)).trans e5
  refine Eq.trans ?_ e6
  show after _ (W6 m ρ c) (Proc.devRef .tc main_arg10) = _
  after_results <;> rfl
theorem entry2_arg11 : V7 m ρ c main_arg11 = m ((c : Thread nD τ).loc main_arg11) := by
  have e4 : W4 m ρ c (Proc.devRef .tc main_arg11) = m ((c : Thread nD τ).loc main_arg11) := by
    refine (W4_of_ne m ρ c main_arg11 (by decide)).trans ?_
    back_to_launch
  have e5 : W5 m ρ c (Proc.devRef .tc main_arg11) = m ((c : Thread nD τ).loc main_arg11) := by
    refine Eq.trans ?_ e4
    show after _ (W4 m ρ c) (Proc.devRef .tc main_arg11) = _
    after_results <;> rfl
  have e6 : W6 m ρ c (Proc.devRef .tc main_arg11) = m ((c : Thread nD τ).loc main_arg11) :=
    (W6_of_ne m ρ c main_arg11 (by decide)).trans e5
  refine Eq.trans ?_ e6
  show after _ (W6 m ρ c) (Proc.devRef .tc main_arg11) = _
  after_results <;> rfl
theorem entry2_arg12 : V7 m ρ c main_arg12 = m ((c : Thread nD τ).loc main_arg12) := by
  have e4 : W4 m ρ c (Proc.devRef .tc main_arg12) = m ((c : Thread nD τ).loc main_arg12) := by
    refine (W4_of_ne m ρ c main_arg12 (by decide)).trans ?_
    back_to_launch
  have e5 : W5 m ρ c (Proc.devRef .tc main_arg12) = m ((c : Thread nD τ).loc main_arg12) := by
    refine Eq.trans ?_ e4
    show after _ (W4 m ρ c) (Proc.devRef .tc main_arg12) = _
    after_results <;> rfl
  have e6 : W6 m ρ c (Proc.devRef .tc main_arg12) = m ((c : Thread nD τ).loc main_arg12) :=
    (W6_of_ne m ρ c main_arg12 (by decide)).trans e5
  refine Eq.trans ?_ e6
  show after _ (W6 m ρ c) (Proc.devRef .tc main_arg12) = _
  after_results <;> rfl
theorem entry2_arg13 : V7 m ρ c main_arg13 = m ((c : Thread nD τ).loc main_arg13) := by
  have e4 : W4 m ρ c (Proc.devRef .tc main_arg13) = m ((c : Thread nD τ).loc main_arg13) := by
    refine (W4_of_ne m ρ c main_arg13 (by decide)).trans ?_
    back_to_launch
  have e5 : W5 m ρ c (Proc.devRef .tc main_arg13) = m ((c : Thread nD τ).loc main_arg13) := by
    refine Eq.trans ?_ e4
    show after _ (W4 m ρ c) (Proc.devRef .tc main_arg13) = _
    after_results <;> rfl
  have e6 : W6 m ρ c (Proc.devRef .tc main_arg13) = m ((c : Thread nD τ).loc main_arg13) :=
    (W6_of_ne m ρ c main_arg13 (by decide)).trans e5
  refine Eq.trans ?_ e6
  show after _ (W6 m ρ c) (Proc.devRef .tc main_arg13) = _
  after_results <;> rfl
theorem entry2_arg14 : V7 m ρ c main_arg14 = m ((c : Thread nD τ).loc main_arg14) := by
  have e4 : W4 m ρ c (Proc.devRef .tc main_arg14) = m ((c : Thread nD τ).loc main_arg14) := by
    refine (W4_of_ne m ρ c main_arg14 (by decide)).trans ?_
    back_to_launch
  have e5 : W5 m ρ c (Proc.devRef .tc main_arg14) = m ((c : Thread nD τ).loc main_arg14) := by
    refine Eq.trans ?_ e4
    show after _ (W4 m ρ c) (Proc.devRef .tc main_arg14) = _
    after_results <;> rfl
  have e6 : W6 m ρ c (Proc.devRef .tc main_arg14) = m ((c : Thread nD τ).loc main_arg14) :=
    (W6_of_ne m ρ c main_arg14 (by decide)).trans e5
  refine Eq.trans ?_ e6
  show after _ (W6 m ρ c) (Proc.devRef .tc main_arg14) = _
  after_results <;> rfl
theorem entry2_arg15 : V7 m ρ c main_arg15 = m ((c : Thread nD τ).loc main_arg15) := by
  have e4 : W4 m ρ c (Proc.devRef .tc main_arg15) = m ((c : Thread nD τ).loc main_arg15) := by
    refine (W4_of_ne m ρ c main_arg15 (by decide)).trans ?_
    back_to_launch
  have e5 : W5 m ρ c (Proc.devRef .tc main_arg15) = m ((c : Thread nD τ).loc main_arg15) := by
    refine Eq.trans ?_ e4
    show after _ (W4 m ρ c) (Proc.devRef .tc main_arg15) = _
    after_results <;> rfl
  have e6 : W6 m ρ c (Proc.devRef .tc main_arg15) = m ((c : Thread nD τ).loc main_arg15) :=
    (W6_of_ne m ρ c main_arg15 (by decide)).trans e5
  refine Eq.trans ?_ e6
  show after _ (W6 m ρ c) (Proc.devRef .tc main_arg15) = _
  after_results <;> rfl
theorem entry2_arg16 : V7 m ρ c main_arg16 = m ((c : Thread nD τ).loc main_arg16) := by
  have e4 : W4 m ρ c (Proc.devRef .tc main_arg16) = m ((c : Thread nD τ).loc main_arg16) := by
    refine (W4_of_ne m ρ c main_arg16 (by decide)).trans ?_
    back_to_launch
  have e5 : W5 m ρ c (Proc.devRef .tc main_arg16) = m ((c : Thread nD τ).loc main_arg16) := by
    refine Eq.trans ?_ e4
    show after _ (W4 m ρ c) (Proc.devRef .tc main_arg16) = _
    after_results <;> rfl
  have e6 : W6 m ρ c (Proc.devRef .tc main_arg16) = m ((c : Thread nD τ).loc main_arg16) :=
    (W6_of_ne m ρ c main_arg16 (by decide)).trans e5
  refine Eq.trans ?_ e6
  show after _ (W6 m ρ c) (Proc.devRef .tc main_arg16) = _
  after_results <;> rfl
theorem entry2_arg17 : V7 m ρ c main_arg17 = m ((c : Thread nD τ).loc main_arg17) := by
  have e4 : W4 m ρ c (Proc.devRef .tc main_arg17) = m ((c : Thread nD τ).loc main_arg17) := by
    refine (W4_of_ne m ρ c main_arg17 (by decide)).trans ?_
    back_to_launch
  have e5 : W5 m ρ c (Proc.devRef .tc main_arg17) = m ((c : Thread nD τ).loc main_arg17) := by
    refine Eq.trans ?_ e4
    show after _ (W4 m ρ c) (Proc.devRef .tc main_arg17) = _
    after_results <;> rfl
  have e6 : W6 m ρ c (Proc.devRef .tc main_arg17) = m ((c : Thread nD τ).loc main_arg17) :=
    (W6_of_ne m ρ c main_arg17 (by decide)).trans e5
  refine Eq.trans ?_ e6
  show after _ (W6 m ρ c) (Proc.devRef .tc main_arg17) = _
  after_results <;> rfl
theorem entry2_arg18 : V7 m ρ c main_arg18 = m ((c : Thread nD τ).loc main_arg18) := by
  have e4 : W4 m ρ c (Proc.devRef .tc main_arg18) = m ((c : Thread nD τ).loc main_arg18) := by
    refine (W4_of_ne m ρ c main_arg18 (by decide)).trans ?_
    back_to_launch
  have e5 : W5 m ρ c (Proc.devRef .tc main_arg18) = m ((c : Thread nD τ).loc main_arg18) := by
    refine Eq.trans ?_ e4
    show after _ (W4 m ρ c) (Proc.devRef .tc main_arg18) = _
    after_results <;> rfl
  have e6 : W6 m ρ c (Proc.devRef .tc main_arg18) = m ((c : Thread nD τ).loc main_arg18) :=
    (W6_of_ne m ρ c main_arg18 (by decide)).trans e5
  refine Eq.trans ?_ e6
  show after _ (W6 m ρ c) (Proc.devRef .tc main_arg18) = _
  after_results <;> rfl
theorem entry2_arg19 : V7 m ρ c main_arg19 = m ((c : Thread nD τ).loc main_arg19) := by
  have e4 : W4 m ρ c (Proc.devRef .tc main_arg19) = m ((c : Thread nD τ).loc main_arg19) := by
    refine (W4_of_ne m ρ c main_arg19 (by decide)).trans ?_
    back_to_launch
  have e5 : W5 m ρ c (Proc.devRef .tc main_arg19) = m ((c : Thread nD τ).loc main_arg19) := by
    refine Eq.trans ?_ e4
    show after _ (W4 m ρ c) (Proc.devRef .tc main_arg19) = _
    after_results <;> rfl
  have e6 : W6 m ρ c (Proc.devRef .tc main_arg19) = m ((c : Thread nD τ).loc main_arg19) :=
    (W6_of_ne m ρ c main_arg19 (by decide)).trans e5
  refine Eq.trans ?_ e6
  show after _ (W6 m ρ c) (Proc.devRef .tc main_arg19) = _
  after_results <;> rfl

/-! ## The result -/

variable (h2 : (dat2 (F := Ideal) (V7 m ρ) c).arrAt 13 cfg2.N
  = Cert.Gcn.stage2 (V7 m ρ c main_v37) (V7 m ρ c main_v15) (V7 m ρ c main_arg5) (V7 m ρ c main_arg10) (V7 m ρ c main_arg11)
      (V7 m ρ c main_arg12) (V7 m ρ c main_arg13) (V7 m ρ c main_arg14) (V7 m ρ c main_arg15) (V7 m ρ c main_arg16)
      (V7 m ρ c main_arg17) (V7 m ρ c main_arg18) (V7 m ρ c main_arg19))
include h0 h1 h2

/-- THE RESULT ARRAY at the last boundary is the node arrangement of the network of the launch contents. -/
theorem result_eq : W8 m ρ c (Proc.devRef .tc main_v38)
    = Cert.Gcn.nodeNet (rowW m c) (colW m c) (m ((c : Thread nD τ).loc main_arg0))
        (m ((c : Thread nD τ).loc main_arg2)) (m ((c : Thread nD τ).loc main_arg3)) (m ((c : Thread nD τ).loc main_arg6))
        (m ((c : Thread nD τ).loc main_arg7)) (m ((c : Thread nD τ).loc main_arg8)) (m ((c : Thread nD τ).loc main_arg9))
        (m ((c : Thread nD τ).loc main_arg4)) (m ((c : Thread nD τ).loc main_arg5)) (m ((c : Thread nD τ).loc main_arg10))
        (m ((c : Thread nD τ).loc main_arg11)) (m ((c : Thread nD τ).loc main_arg12)) (m ((c : Thread nD τ).loc main_arg13))
        (m ((c : Thread nD τ).loc main_arg14)) (m ((c : Thread nD τ).loc main_arg15)) (m ((c : Thread nD τ).loc main_arg16))
        (m ((c : Thread nD τ).loc main_arg17)) (m ((c : Thread nD τ).loc main_arg18)) (m ((c : Thread nD τ).loc main_arg19)) := by
  show _ = Cert.Gcn.stage2 (Cert.Gcn.aggNode (rowW m c) (colW m c) (table1 m c)) _ _ _ _ _ _ _ _ _ _ _ _
  rw [← entry2_v37 m ρ c h0 h1, ← entry2_v15 m ρ c, ← entry2_arg5 m ρ c, ← entry2_arg10 m ρ c, ← entry2_arg11 m ρ c, ← entry2_arg12 m ρ c, ← entry2_arg13 m ρ c, ← entry2_arg14 m ρ c, ← entry2_arg15 m ρ c, ← entry2_arg16 m ρ c, ← entry2_arg17 m ρ c, ← entry2_arg18 m ρ c, ← entry2_arg19 m ρ c, ← h2]
  exact W8_arr m ρ c 13

end Second
end First

end Cert.KernelIdeal.Fold

end
-- ==== Proof.Law.lean ====
/-
  The two arrangements of the graph convolution network agree.

  For a per-node factor `d` that is a non-negative real at every node, and destination words whose bucket is the
  node they select, one convolution satisfies, at every node `i` and column `f`,

      ( Σ_{e into i} P(src e, f) · d(src e) ) · d(i)  =  Σ_{e into i} ( d(src e) · d(dst e) ) · P(src e, f)

  — a non-negative real distributes over a sum of extended reals whatever the summands are (infinite ones included),
  `dst e` selects `i` for every edge into `i`, and the product is commutative and associative. Every other
  operation of the network is applied to equal tables on the two sides.
-/
import proofs.«155145_j34754875359294_2_alg».proof.Proof.Spec
import Idealize.ShloMosaic.PureOps.Ideal.Laws

noncomputable section

open scoped BigOperators

namespace Cert.Gcn

open Idealize.ShloMosaic Idealize.ShloMosaic.ValueIdx

/-- A non-negative real distributes over a finite sum of extended reals, from the right. -/
theorem sum_mul_coe {ι : Type} (s : Finset ι) (a : ι → EReal) (r : ℝ) (hr : 0 ≤ r) :
    (∑ e ∈ s, a e) * (r : EReal) = ∑ e ∈ s, a e * (r : EReal) := by
  classical
  induction s using Finset.induction_on with
  | empty => simp
  | insert x s hx ih =>
    rw [Finset.sum_insert hx, Finset.sum_insert hx,
      EReal.right_distrib_of_nonneg_of_ne_top (EReal.coe_nonneg.mpr hr) (EReal.coe_ne_top r), ih]

/-- The stage-0 table is the projection with every row scaled by its node's factor. -/
theorem stage0_eq (d : FVec Ideal SN .f32) (x : FVec Ideal SNx64 .f32) (w : FVec Ideal ⟨2, ![64, 64]⟩ .f32) :
    stage0 x w (asColumn d) = scaleRows d (matW x w) := rfl

/-- The hidden table of an aggregate, with the factors as a column, is bias, batch-norm and relu of the scaled aggregate. -/
theorem hidden_eq (d : FVec Ideal SN .f32) (agg : FVec Ideal SNx64 .f32) (b g be mu v : FVec Ideal S64v .f32) :
    hidden agg (asColumn d) b g be mu v = bnRelu (scaleRows d agg) b g be mu v := rfl

/-- The stage-1 table is the projection of the hidden table with every row scaled by its node's factor. -/
theorem stage1_eq (d : FVec Ideal SN .f32) (agg : FVec Ideal SNx64 .f32) (b g be mu v : FVec Ideal S64v .f32)
    (w : FVec Ideal ⟨2, ![64, 64]⟩ .f32) :
    stage1 agg (asColumn d) b g be mu v w = scaleRows d (matW (hidden agg (asColumn d) b g be mu v) w) := rfl

/-- ONE CONVOLUTION: scaling at the source, aggregating, and scaling at the destination is the per-edge arrangement. -/
theorem conv_eq (rowW colW : IVec SE 32) (d : FVec Ideal SN .f32) (P : FVec Ideal SNx64 .f32)
    (hd : ∀ i : Fin 100000, ∃ r : ℝ, 0 ≤ r ∧ d (ix1 i) = (r : EReal))
    (hsel : ∀ (i : Fin 100000) (e : Fin 1100000), e ∈ into colW i → sel (colW (ix1 e)) = i) :
    scaleRows d (aggNode rowW colW (scaleRows d P)) = aggEdge rowW colW d P := by
  funext j
  obtain ⟨i, f, rfl⟩ : ∃ (i : Fin 100000) (f : Fin 64), j = ix2 i f := ⟨j 0, j 1, eq_ix2 j⟩
  obtain ⟨r, hr, hdi⟩ := hd i
  show (zeroF + ∑ e ∈ into colW i, P (ix2 (sel (rowW (ix1 e))) f) * d (ix1 (sel (rowW (ix1 e))))) * d (ix1 i)
    = zeroF + ∑ e ∈ into colW i, (d (ix1 (sel (rowW (ix1 e)))) * d (ix1 (sel (colW (ix1 e))))) * P (ix2 (sel (rowW (ix1 e))) f)
  have hz : zeroF = 0 := Ideal.ofBits_zero_f32
  rw [hz, zero_add, zero_add, hdi, sum_mul_coe _ _ r hr]
  refine Finset.sum_congr rfl fun e he => ?_
  rw [hsel i e he, hdi, mul_assoc, mul_comm]

/-- THE NETWORK: the tiled arrangement computes what the per-edge arrangement computes. -/
theorem nodeNet_eq_edgeNet (rowW colW : IVec SE 32) (x : FVec Ideal SNx64 .f32)
    (w0 : FVec Ideal ⟨2, ![64, 64]⟩ .f32) (b0 g0 be0 mu0 v0 : FVec Ideal S64v .f32)
    (w1 : FVec Ideal ⟨2, ![64, 64]⟩ .f32) (b1 g1 be1 mu1 v1 : FVec Ideal S64v .f32)
    (l1w : FVec Ideal ⟨2, ![64, 64]⟩ .f32) (l1b : FVec Ideal S64v .f32)
    (l2w : FVec Ideal ⟨2, ![64, 64]⟩ .f32) (l2b : FVec Ideal S64v .f32)
    (l3w : FVec Ideal ⟨2, ![64, 16]⟩ .f32) (l3b : FVec Ideal ⟨1, ![16]⟩ .f32)
    (hd : ∀ i : Fin 100000, ∃ r : ℝ, 0 ≤ r ∧ dinvOf colW (ix1 i) = (r : EReal))
    (hsel : ∀ (i : Fin 100000) (e : Fin 1100000), e ∈ into colW i → sel (colW (ix1 e)) = i) :
    nodeNet rowW colW x w0 b0 g0 be0 mu0 v0 w1 b1 g1 be1 mu1 v1 l1w l1b l2w l2b l3w l3b
      = edgeNet rowW colW x w0 b0 g0 be0 mu0 v0 w1 b1 g1 be1 mu1 v1 l1w l1b l2w l2b l3w l3b := by
  unfold nodeNet edgeNet stage2 edgeLayer
  rw [stage0_eq, stage1_eq, hidden_eq, hidden_eq, conv_eq rowW colW _ _ hd hsel, conv_eq rowW colW _ _ hd hsel]

end Cert.Gcn

end
-- ==== Proof.lean ====
/-
  A two-layer graph convolution with inference batch-norm and a three-layer head, tiled, against its plain form.

  The tiled program runs three dense stages on the TensorCores — the projection of the features, the hidden table of
  the first aggregate projected again, and the hidden table of the second aggregate through the head — and between
  them gathers the stage's rows at every edge's source and adds them into the edge's destination on the host. It
  folds the symmetric normalisation: every stage scales its rows by the node's factor (the inverse square root of
  the degree), once before the aggregation and once after it. The plain program multiplies every edge's update by
  the product of the factors at the edge's two ends instead. At the ideal values the two are one function of the
  arguments: a factor is a non-negative real (a degree is a count, at least the node's own self-loop), a
  non-negative real distributes over a sum of extended reals whatever the summands are, an edge into a node has
  that node as its destination, and every other operation is applied to equal tables on the two sides. No
  finiteness of the inputs is used.

  The three frames are the generated ones (the reference's is its run with the result dropped); no operation was
  rewritten by the idealization, so there is nothing to preserve.
-/
import proofs.«155145_j34754875359294_2_alg».proof.Defs
import proofs.«155145_j34754875359294_2_alg».proof.Proof.Gen.Kernel
import proofs.«155145_j34754875359294_2_alg».proof.Proof.Gen.Kernel.Frame
import proofs.«155145_j34754875359294_2_alg».proof.Proof.Gen.KernelIdeal
import proofs.«155145_j34754875359294_2_alg».proof.Proof.Gen.KernelIdeal.Frame
import proofs.«155145_j34754875359294_2_alg».proof.Proof.Gen.ReferenceIdeal
import proofs.«155145_j34754875359294_2_alg».proof.Proof.Gen.Pre_finite_inputs
import proofs.«155145_j34754875359294_2_alg».proof.Proof.RefRunP
import proofs.«155145_j34754875359294_2_alg».proof.Proof.RefReadP
import proofs.«155145_j34754875359294_2_alg».proof.Proof.RefRead
import proofs.«155145_j34754875359294_2_alg».proof.Proof.RunNamed
import proofs.«155145_j34754875359294_2_alg».proof.Proof.Region0
import proofs.«155145_j34754875359294_2_alg».proof.Proof.Region1
import proofs.«155145_j34754875359294_2_alg».proof.Proof.Region2
import proofs.«155145_j34754875359294_2_alg».proof.Proof.Fold
import proofs.«155145_j34754875359294_2_alg».proof.Proof.Law
import proofs.«155145_j34754875359294_2_alg».proof.Proof.LibGcnHost
import Idealize.ShloMosaic.Adequacy
import Idealize.ShloMosaic.Init

set_option maxRecDepth 16384

noncomputable section

namespace Cert.Proof

open Idealize.ShloMosaic Idealize.ShloMosaic.TcCoe Idealize.SL.Sem

/-! ## Both programs lay out the same edge words -/

/-- The source words: row 0 of the edge list followed by the nodes themselves, in both programs. -/
theorem row_words (a1 : IVec ⟨2, ![2, 1000000]⟩ 32) :
    Cert.ReferenceIdeal.ReadP.val_main_v5 (F := Ideal) a1
      = Cert.KernelIdeal.HostRead.edgeRow a1 (iotaInDim Cert.KernelIdeal.S100000 32 0) := rfl

/-- The destination words: row 1 of the edge list followed by the nodes themselves, in both programs. -/
theorem col_words (a1 : IVec ⟨2, ![2, 1000000]⟩ 32) :
    Cert.ReferenceIdeal.ReadP.val_main_v6 (F := Ideal) a1
      = Cert.KernelIdeal.HostRead.edgeCol a1 (iotaInDim Cert.KernelIdeal.S100000 32 0) := rfl

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- The tiled program's result is the node arrangement of the network of its arguments, which is the per-edge
    arrangement. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W8 m ρ c (Proc.devRef .tc Cert.KernelIdeal.main_v38)
      = Cert.Gcn.edgeNet (Cert.KernelIdeal.Fold.rowW m c) (Cert.KernelIdeal.Fold.colW m c)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg12))
          (m ((c.tc : Thread Cert.KernelIdeal.nD Cert.KernelIdeal.τ).loc Cert.KernelIdeal.main_arg13))
          (m ((c.tc : Thread Cert.KernelIdeal.nD Cert.KernelIdeal.τ).loc Cert.KernelIdeal.main_arg14))
          (m ((c.tc : Thread Cert.KernelIdeal.nD Cert.KernelIdeal.τ).loc Cert.KernelIdeal.main_arg15))
          (m ((c.tc : Thread Cert.KernelIdeal.nD Cert.KernelIdeal.τ).loc Cert.KernelIdeal.main_arg16))
          (m ((c.tc : Thread Cert.KernelIdeal.nD Cert.KernelIdeal.τ).loc Cert.KernelIdeal.main_arg17))
          (m ((c.tc : Thread Cert.KernelIdeal.nD Cert.KernelIdeal.τ).loc Cert.KernelIdeal.main_arg18))
          (m ((c.tc : Thread Cert.KernelIdeal.nD Cert.KernelIdeal.τ).loc Cert.KernelIdeal.main_arg19)) :=
  (Cert.KernelIdeal.Fold.result_eq m ρ c
      (Cert.KernelIdeal.RegionValue.final0 (Cert.KernelIdeal.Gen.V3 m ρ) c)
      (Cert.KernelIdeal.RegionValue.final1 (Cert.KernelIdeal.Gen.V5 m ρ) c)
      (Cert.KernelIdeal.RegionValue.final2 (Cert.KernelIdeal.Gen.V7 m ρ) c)).trans
    (Cert.Gcn.nodeNet_eq_edgeNet _ _ _ _ _ _ _ _ _ _ _ _ _ _ _ _ _ _ _ _ _
      (Cert.Gcn.Host.dinv_real _) (Cert.Gcn.Host.sel_of_into _))

theorem algebraic : Cert.algebraic_KernelIdeal_ReferenceIdeal := by
  intro m ρ m' ρ' _ hagree
  refine ⟨fun c => Cert.Gcn.edgeNet (Cert.KernelIdeal.Fold.rowW m c) (Cert.KernelIdeal.Fold.colW m c)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg12))
          (m ((c.tc : Thread Cert.KernelIdeal.nD Cert.KernelIdeal.τ).loc Cert.KernelIdeal.main_arg13))
          (m ((c.tc : Thread Cert.KernelIdeal.nD Cert.KernelIdeal.τ).loc Cert.KernelIdeal.main_arg14))
          (m ((c.tc : Thread Cert.KernelIdeal.nD Cert.KernelIdeal.τ).loc Cert.KernelIdeal.main_arg15))
          (m ((c.tc : Thread Cert.KernelIdeal.nD Cert.KernelIdeal.τ).loc Cert.KernelIdeal.main_arg16))
          (m ((c.tc : Thread Cert.KernelIdeal.nD Cert.KernelIdeal.τ).loc Cert.KernelIdeal.main_arg17))
          (m ((c.tc : Thread Cert.KernelIdeal.nD Cert.KernelIdeal.τ).loc Cert.KernelIdeal.main_arg18))
          (m ((c.tc : Thread Cert.KernelIdeal.nD Cert.KernelIdeal.τ).loc Cert.KernelIdeal.main_arg19)), ?_, ?_⟩
  · exact (θ_run Cert.KernelIdeal.defs _ _).mono (fun r h c => ⟨(h c).1.trans (kernel_result m ρ c), (h c).2⟩)
      (Cert.KernelIdeal.RunNamed.run_named (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9, e10, e11, e12, e13, e14, e15, e16, e17, e18, e19⟩ := hagree c
    rw [Cert.ReferenceIdeal.ReadP.val_main_v135_eq, Cert.ReferenceIdeal.RefValue.reference_eq, row_words, col_words,
      e0, e1, e2, e3, e4, e5, e6, e7, e8, e9, e10, e11, e12, e13, e14, e15, e16, e17, e18, e19]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
